-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x35x7 : Shape := ⟨3, ![100000, 35, 7]⟩
abbrev S100000x35x1 : Shape := ⟨3, ![100000, 35, 1]⟩
abbrev S16x7 : Shape := ⟨2, ![16, 7]⟩
abbrev S16 : Shape := ⟨1, ![16]⟩
abbrev S_ : Shape := ⟨0, ![]⟩

class Facts : Prop where
  bcast_S_S100000x35x7 : S_.BroadcastsInDim S100000x35x7 (![] : Fin 0 → Fin S100000x35x7.rank)
  reducesTo_S100000x35x7_S_d0_1_2 : S100000x35x7.ReducesTo [0, 1, 2] S_
  h_S_ : 0 < S_.numel
  bcast_S_S16x7 : S_.BroadcastsInDim S16x7 (![] : Fin 0 → Fin S16x7.rank)
  reducesTo_S16x7_S_d0_1 : S16x7.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg5 : FVec F S16 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S16 .f32 := Host.absf main_arg5
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  main_v23

def fn {F : FTy → Type} [FloatOps F] (main_arg0 : FVec F S100000x35x7 .f32) (main_arg1 : IVec S100000x35x1 32) (main_arg2 : FVec F S16x7 .f32) (main_arg3 : FVec F S16 .f32) (main_arg4 : FVec F S16 .f32) (main_arg5 : FVec F S16 .f32) : IVec S_ 1 :=
  let main_v0 : FVec F S100000x35x7 .f32 := Host.absf main_arg0
  let main_cst : FVec F S_ .f32 := constant S_ .f32 0x7F800000#32
  let main_v1 : FVec F S100000x35x7 .f32 := broadcastInDim S100000x35x7 ![] bcast_S_S100000x35x7 main_cst
  let main_v2 : IVec S100000x35x7 1 := cmpf .olt main_v0 main_v1
  let main_c : IVec S_ 1 := constantI S_ 1 1#1
  let main_v3 : IVec S_ 1 := (fun x v => Host.reduce IntOp.andi x v reducesTo_S100000x35x7_S_d0_1_2 h_S_) main_v2 main_c
  let main_v4 : FVec F S16x7 .f32 := Host.absf main_arg2
  let main_cst_0 : FVec F S_ .f32 := constant S_ .f32 0x7F800000#32
  let main_v5 : FVec F S16x7 .f32 := broadcastInDim S16x7 ![] bcast_S_S16x7 main_cst_0
  let main_v6 : IVec S16x7 1 := cmpf .olt main_v4 main_v5
  let main_c_1 : IVec S_ 1 := constantI S_ 1 1#1
  let main_v7 : IVec S_ 1 := (fun x v => Host.reduce IntOp.andi x v reducesTo_S16x7_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16 .f32 := Host.absf main_arg4
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg5 main_v13 main_v16
-- ==== Kernel.lean ====
abbrev S100000x35x7 : Shape := ⟨3, ![100000, 35, 7]⟩
abbrev S100000x35x1 : Shape := ⟨3, ![100000, 35, 1]⟩
abbrev S16x7 : Shape := ⟨2, ![16, 7]⟩
abbrev S16 : Shape := ⟨1, ![16]⟩
abbrev S7x16 : Shape := ⟨2, ![7, 16]⟩
abbrev S1x16 : Shape := ⟨2, ![1, 16]⟩
abbrev S2x16 : Shape := ⟨2, ![2, 16]⟩
abbrev S500x35x7 : Shape := ⟨3, ![500, 35, 7]⟩
abbrev S17500x7 : Shape := ⟨2, ![17500, 7]⟩
abbrev S17500x16 : Shape := ⟨2, ![17500, 16]⟩
abbrev S_ : Shape := ⟨0, ![]⟩
abbrev S100000x35x32 : Shape := ⟨3, ![100000, 35, 32]⟩
abbrev S250x35x7 : Shape := ⟨3, ![250, 35, 7]⟩
abbrev S250x35x1 : Shape := ⟨3, ![250, 35, 1]⟩
abbrev S250x35x32 : Shape := ⟨3, ![250, 35, 32]⟩
abbrev S8750x7 : Shape := ⟨2, ![8750, 7]⟩
abbrev S8750x16 : Shape := ⟨2, ![8750, 16]⟩
abbrev S250x35x16 : Shape := ⟨3, ![250, 35, 16]⟩
abbrev S1x1x16 : Shape := ⟨3, ![1, 1, 16]⟩
abbrev S250x16 : Shape := ⟨2, ![250, 16]⟩
abbrev S250x1x16 : Shape := ⟨3, ![250, 1, 16]⟩

abbrev nBuf : Space → Nat
  | .hbm => 34
  | .vmem => 16
  | .smem => 0
  | _ => 0

abbrev bufTy : (tb : Table) → Fin (tcTables nBuf tb) → BufTy
  | .hbm, ⟨0, _⟩ => ⟨S100000x35x7, .f32⟩
  | .hbm, ⟨1, _⟩ => ⟨S100000x35x1, .i32⟩
  | .hbm, ⟨2, _⟩ => ⟨S16x7, .f32⟩
  | .hbm, ⟨3, _⟩ => ⟨S16, .f32⟩
  | .hbm, ⟨4, _⟩ => ⟨S16, .f32⟩
  | .hbm, ⟨5, _⟩ => ⟨S16, .f32⟩
  | .hbm, ⟨6, _⟩ => ⟨S7x16, .f32⟩
  | .hbm, ⟨7, _⟩ => ⟨S1x16, .f32⟩
  | .hbm, ⟨8, _⟩ => ⟨S2x16, .f32⟩
  | .hbm, ⟨9, _⟩ => ⟨S1x16, .f32⟩
  | .hbm, ⟨10, _⟩ => ⟨S16, .f32⟩
  | .hbm, ⟨11, _⟩ => ⟨S1x16, .f32⟩
  | .hbm, ⟨12, _⟩ => ⟨S16, .f32⟩
  | .hbm, ⟨13, _⟩ => ⟨S_, .f32⟩
  | .hbm, ⟨14, _⟩ => ⟨S16, .f32⟩
  | .hbm, ⟨15, _⟩ => ⟨S16, .f32⟩
  | .hbm, ⟨16, _⟩ => ⟨S_, .f32⟩
  | .hbm, ⟨17, _⟩ => ⟨S16, .f32⟩
  | .hbm, ⟨18, _⟩ => ⟨S16, .f32⟩
  | .hbm, ⟨19, _⟩ => ⟨S16, .f32⟩
  | .hbm, ⟨20, _⟩ => ⟨S16, .f32⟩
  | .hbm, ⟨21, _⟩ => ⟨S_, .f32⟩
  | .hbm, ⟨22, _⟩ => ⟨S16, .f32⟩
  | .hbm, ⟨23, _⟩ => ⟨S16, .f32⟩
  | .hbm, ⟨24, _⟩ => ⟨S_, .f32⟩
  | .hbm, ⟨25, _⟩ => ⟨S16, .f32⟩
  | .hbm, ⟨26, _⟩ => ⟨S16, .f32⟩
  | .hbm, ⟨27, _⟩ => ⟨S16, .f32⟩
  | .hbm, ⟨28, _⟩ => ⟨S16, .f32⟩
  | .hbm, ⟨29, _⟩ => ⟨S16, .f32⟩
  | .hbm, ⟨30, _⟩ => ⟨S16, .f32⟩
  | .hbm, ⟨31, _⟩ => ⟨S1x16, .f32⟩
  | .hbm, ⟨32, _⟩ => ⟨S1x16, .f32⟩
  | .hbm, ⟨33, _⟩ => ⟨S100000x35x32, .f32⟩
  | .local _ .vmem, ⟨0, _⟩ => ⟨S500x35x7, .f32⟩
  | .local _ .vmem, ⟨1, _⟩ => ⟨S500x35x7, .f32⟩
  | .local _ .vmem, ⟨2, _⟩ => ⟨S7x16, .f32⟩
  | .local _ .vmem, ⟨3, _⟩ => ⟨S1x16, .f32⟩
  | .local _ .vmem, ⟨4, _⟩ => ⟨S2x16, .f32⟩
  | .local _ .vmem, ⟨5, _⟩ => ⟨S2x16, .f32⟩
  | .local _ .vmem, ⟨6, _⟩ => ⟨S250x35x7, .f32⟩
  | .local _ .vmem, ⟨7, _⟩ => ⟨S250x35x7, .f32⟩
  | .local _ .vmem, ⟨8, _⟩ => ⟨S250x35x1, .i32⟩
  | .local _ .vmem, ⟨9, _⟩ => ⟨S250x35x1, .i32⟩
  | .local _ .vmem, ⟨10, _⟩ => ⟨S7x16, .f32⟩
  | .local _ .vmem, ⟨11, _⟩ => ⟨S1x16, .f32⟩
  | .local _ .vmem, ⟨12, _⟩ => ⟨S1x16, .f32⟩
  | .local _ .vmem, ⟨13, _⟩ => ⟨S1x16, .f32⟩
  | .local _ .vmem, ⟨14, _⟩ => ⟨S250x35x32, .f32⟩
  | .local _ .vmem, ⟨15, _⟩ => ⟨S250x35x32, .f32⟩
  | _, _ => ⟨S100000x35x7, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_scratch0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg6_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem6_1 : DmaSem sig := 14

abbrev nD : Nat := 1
abbrev τ : Topo := Topo.v7x

variable {F : FTy → Type} [FloatOps F]

abbrev grid0 : Pipeline.Grid := ⟨1, ![200], ![false]⟩

def k0_cond2 (i : grid0.Coords) : BitVec 1 :=
  let arg0 : BitVec 32 := BitVec.ofNat 32 (i 0).val
  let c199_i32 : BitVec 32 := 199#32
  let v25 : BitVec 1 := Scalar.cmpi .eq arg0 c199_i32
  let v26 : BitVec 32 := Scalar.extui v25
  let c0_i32_14 : BitVec 32 := 0#32
  let v27 : BitVec 1 := Scalar.cmpi .ne v26 c0_i32_14
  v27

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S500x35x7 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S7x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![400], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S250x35x7 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S250x35x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S7x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x16 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x16 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S250x35x32 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  transposes_S16x7_S7x16_1_0 : S16x7.Transposes [1, 0] S7x16
  shapeCasts_S16_S1x16 : S16.ShapeCasts S1x16
  inb_S2x16_S2x16_0_0 : ∀ a, (![0, 0] : Fin 2 → Nat) a + S2x16.size a ≤ S2x16.size a
  h_S2x16 : 0 < S2x16.numel
  shapeCasts_S2x16_S2x16 : S2x16.ShapeCasts S2x16
  inb_S500x35x7_S500x35x7_0_0_0 : ∀ a, (![0, 0, 0] : Fin 3 → Nat) a + S500x35x7.size a ≤ S500x35x7.size a
  h_S500x35x7 : 0 < S500x35x7.numel
  shapeCasts_S500x35x7_S17500x7 : S500x35x7.ShapeCasts S17500x7
  inb_S7x16_S7x16_0_0 : ∀ a, (![0, 0] : Fin 2 → Nat) a + S7x16.size a ≤ S7x16.size a
  h_S7x16 : 0 < S7x16.numel
  shapeCasts_S7x16_S7x16 : S7x16.ShapeCasts S7x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S17500x16 : S1x16.Broadcasts S17500x16
  reduces_S17500x16_S16 : S17500x16.Reduces [0] S16
  concatenates_S1x16_S1x16_S2x16_d0 : Shape.Concatenates [S1x16, S1x16] S2x16 0
  slices_S2x16_S1x16_0_0 : S2x16.Slices ![0, 0] S1x16
  shapeCasts_S1x16_S16 : S1x16.ShapeCasts S16
  slices_S2x16_S1x16_1_0 : S2x16.Slices ![1, 0] S1x16
  bcast_S_S16 : S_.BroadcastsInDim S16 (![] : Fin 0 → Fin S16.rank)
  inb_S250x35x7_S250x35x7_0_0_0 : ∀ a, (![0, 0, 0] : Fin 3 → Nat) a + S250x35x7.size a ≤ S250x35x7.size a
  h_S250x35x7 : 0 < S250x35x7.numel
  shapeCasts_S250x35x7_S8750x7 : S250x35x7.ShapeCasts S8750x7
  broadcasts_S1x16_S8750x16 : S1x16.Broadcasts S8750x16
  shapeCasts_S8750x16_S250x35x16 : S8750x16.ShapeCasts S250x35x16
  shapeCasts_S1x16_S1x1x16 : S1x16.ShapeCasts S1x1x16
  broadcasts_S1x1x16_S250x35x16 : S1x1x16.Broadcasts S250x35x16
  reduces_S250x35x16_S250x16 : S250x35x16.Reduces [1] S250x16
  shapeCasts_S250x16_S250x1x16 : S250x16.ShapeCasts S250x1x16
  shapeCasts_S250x1x16_S250x1x16 : S250x1x16.ShapeCasts S250x1x16
  broadcasts_S250x1x16_S250x35x16 : S250x1x16.Broadcasts S250x35x16
  concatenates_S250x35x16_S250x35x16_S250x35x32_d2 : Shape.Concatenates [S250x35x16, S250x35x16] S250x35x32 2
  inb_S250x35x1_S250x35x1_0_0_0 : ∀ a, (![0, 0, 0] : Fin 3 → Nat) a + S250x35x1.size a ≤ S250x35x1.size a
  h_S250x35x1 : 0 < S250x35x1.numel
  broadcasts_S250x35x1_S250x35x32 : S250x35x1.Broadcasts S250x35x32
  inb_S250x35x32_S250x35x32_0_0_0 : ∀ a, (![0, 0, 0] : Fin 3 → Nat) a + S250x35x32.size a ≤ S250x35x32.size a
  h_S250x35x32 : 0 < S250x35x32.numel
  dot_S17500x7_S7x16_S17500x16_1_0_0_1_n_n_wf : DotDims.WF S17500x7 S7x16 S17500x16 [1] [0] [0] [1] [] []
  dot_S8750x7_S7x16_S8750x16_1_0_0_1_n_n_wf : DotDims.WF S8750x7 S7x16 S8750x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S500x35x7.size a ≤ S100000x35x7.size a
  hwx0_0 : ∀ i : grid0.Coords, EltTy.bits .f32 = 32 ∨ (Rect.block (s := S100000x35x7) S500x35x7.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S7x16.size a ≤ S7x16.size a
  hwx0_1 : ∀ i : grid0.Coords, EltTy.bits .f32 = 32 ∨ (Rect.block (s := S7x16) S7x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x16.size a ≤ S1x16.size a
  hwx0_2 : ∀ i : grid0.Coords, EltTy.bits .f32 = 32 ∨ (Rect.block (s := S1x16) S1x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2x16.size a ≤ S2x16.size a
  hwx0_3 : ∀ i : grid0.Coords, EltTy.bits .f32 = 32 ∨ (Rect.block (s := S2x16) S2x16.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S250x35x7.size a ≤ S100000x35x7.size a
  hwx1_0 : ∀ i : grid1.Coords, EltTy.bits .f32 = 32 ∨ (Rect.block (s := S100000x35x7) S250x35x7.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S250x35x1.size a ≤ S100000x35x1.size a
  hwx1_1 : ∀ i : grid1.Coords, EltTy.bits .i32 = 32 ∨ (Rect.block (s := S100000x35x1) S250x35x1.size (cc1_transform_1 i) (hinb1_1 i)).WholeWords (EltTy.packing .i32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S7x16.size a ≤ S7x16.size a
  hwx1_2 : ∀ i : grid1.Coords, EltTy.bits .f32 = 32 ∨ (Rect.block (s := S7x16) S7x16.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x16.size a ≤ S1x16.size a
  hwx1_3 : ∀ i : grid1.Coords, EltTy.bits .f32 = 32 ∨ (Rect.block (s := S1x16) S1x16.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x16.size a ≤ S1x16.size a
  hwx1_4 : ∀ i : grid1.Coords, EltTy.bits .f32 = 32 ∨ (Rect.block (s := S1x16) S1x16.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x16.size a ≤ S1x16.size a
  hwx1_5 : ∀ i : grid1.Coords, EltTy.bits .f32 = 32 ∨ (Rect.block (s := S1x16) S1x16.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S250x35x32.size a ≤ S100000x35x32.size a
  hwx1_6 : ∀ i : grid1.Coords, EltTy.bits .f32 = 32 ∨ (Rect.block (s := S100000x35x32) S250x35x32.size (cc1_transform_6 i) (hinb1_6 i)).WholeWords (EltTy.packing .f32)

variable [Facts₀]

def dot_S17500x7_S7x16_S17500x16_1_0_0_1_n_n : DotDims S17500x7 S7x16 S17500x16 where
  lhsContracting := [1]
  rhsContracting := [0]
  lhsNonContracting := [0]
  rhsNonContracting := [1]
  lhsBatch := []
  rhsBatch := []
  wf := dot_S17500x7_S7x16_S17500x16_1_0_0_1_n_n_wf
def dot_S8750x7_S7x16_S8750x16_1_0_0_1_n_n : DotDims S8750x7 S7x16 S8750x16 where
  lhsContracting := [1]
  rhsContracting := [0]
  lhsNonContracting := [0]
  rhsNonContracting := [1]
  lhsBatch := []
  rhsBatch := []
  wf := dot_S8750x7_S7x16_S8750x16_1_0_0_1_n_n_wf

abbrev win0_0 : Pipeline.Window sig grid0 :=
  Pipeline.Window.ofSpec (Memref.whole main_arg0) S500x35x7.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S7x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S2x16.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_arg0) S250x35x7.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S250x35x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0) S7x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1) S1x16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v21) S1x16.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v22) S1x16.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v23) S250x35x32.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x35x7 : Shape := ⟨3, ![100000, 35, 7]⟩
abbrev S100000x35x1 : Shape := ⟨3, ![100000, 35, 1]⟩
abbrev S16x7 : Shape := ⟨2, ![16, 7]⟩
abbrev S16 : Shape := ⟨1, ![16]⟩
abbrev S100000x35x16 : Shape := ⟨3, ![100000, 35, 16]⟩
abbrev S1x1x16 : Shape := ⟨3, ![1, 1, 16]⟩
abbrev S_ : Shape := ⟨0, ![]⟩
abbrev S100000x16 : Shape := ⟨2, ![100000, 16]⟩
abbrev S100000x1x16 : Shape := ⟨3, ![100000, 1, 16]⟩
abbrev S100000x35x32 : Shape := ⟨3, ![100000, 35, 32]⟩

abbrev nBuf : Space → Nat
  | .hbm => 49
  | .vmem => 0
  | .smem => 0
  | _ => 0

abbrev bufTy : (tb : Table) → Fin (tcTables nBuf tb) → BufTy
  | .hbm, ⟨0, _⟩ => ⟨S100000x35x7, .f32⟩
  | .hbm, ⟨1, _⟩ => ⟨S100000x35x1, .i32⟩
  | .hbm, ⟨2, _⟩ => ⟨S16x7, .f32⟩
  | .hbm, ⟨3, _⟩ => ⟨S16, .f32⟩
  | .hbm, ⟨4, _⟩ => ⟨S16, .f32⟩
  | .hbm, ⟨5, _⟩ => ⟨S16, .f32⟩
  | .hbm, ⟨6, _⟩ => ⟨S100000x35x16, .f32⟩
  | .hbm, ⟨7, _⟩ => ⟨S1x1x16, .f32⟩
  | .hbm, ⟨8, _⟩ => ⟨S100000x35x16, .f32⟩
  | .hbm, ⟨9, _⟩ => ⟨S100000x35x16, .f32⟩
  | .hbm, ⟨10, _⟩ => ⟨S_, .f32⟩
  | .hbm, ⟨11, _⟩ => ⟨S100000x35x16, .f32⟩
  | .hbm, ⟨12, _⟩ => ⟨S100000x35x16, .f32⟩
  | .hbm, ⟨13, _⟩ => ⟨S_, .f32⟩
  | .hbm, ⟨14, _⟩ => ⟨S16, .f32⟩
  | .hbm, ⟨15, _⟩ => ⟨S_, .f32⟩
  | .hbm, ⟨16, _⟩ => ⟨S16, .f32⟩
  | .hbm, ⟨17, _⟩ => ⟨S16, .f32⟩
  | .hbm, ⟨18, _⟩ => ⟨S1x1x16, .f32⟩
  | .hbm, ⟨19, _⟩ => ⟨S100000x35x16, .f32⟩
  | .hbm, ⟨20, _⟩ => ⟨S100000x35x16, .f32⟩
  | .hbm, ⟨21, _⟩ => ⟨S100000x35x16, .f32⟩
  | .hbm, ⟨22, _⟩ => ⟨S_, .f32⟩
  | .hbm, ⟨23, _⟩ => ⟨S16, .f32⟩
  | .hbm, ⟨24, _⟩ => ⟨S_, .f32⟩
  | .hbm, ⟨25, _⟩ => ⟨S16, .f32⟩
  | .hbm, ⟨26, _⟩ => ⟨S16, .f32⟩
  | .hbm, ⟨27, _⟩ => ⟨S1x1x16, .f32⟩
  | .hbm, ⟨28, _⟩ => ⟨S100000x35x16, .f32⟩
  | .hbm, ⟨29, _⟩ => ⟨S100000x35x16, .f32⟩
  | .hbm, ⟨30, _⟩ => ⟨S_, .f32⟩
  | .hbm, ⟨31, _⟩ => ⟨S16, .f32⟩
  | .hbm, ⟨32, _⟩ => ⟨S16, .f32⟩
  | .hbm, ⟨33, _⟩ => ⟨S16, .f32⟩
  | .hbm, ⟨34, _⟩ => ⟨S16, .f32⟩
  | .hbm, ⟨35, _⟩ => ⟨S1x1x16, .f32⟩
  | .hbm, ⟨36, _⟩ => ⟨S100000x35x16, .f32⟩
  | .hbm, ⟨37, _⟩ => ⟨S100000x35x16, .f32⟩
  | .hbm, ⟨38, _⟩ => ⟨S1x1x16, .f32⟩
  | .hbm, ⟨39, _⟩ => ⟨S100000x35x16, .f32⟩
  | .hbm, ⟨40, _⟩ => ⟨S100000x35x16, .f32⟩
  | .hbm, ⟨41, _⟩ => ⟨S_, .f32⟩
  | .hbm, ⟨42, _⟩ => ⟨S100000x16, .f32⟩
  | .hbm, ⟨43, _⟩ => ⟨S100000x1x16, .f32⟩
  | .hbm, ⟨44, _⟩ => ⟨S100000x35x16, .f32⟩
  | .hbm, ⟨45, _⟩ => ⟨S100000x35x32, .f32⟩
  | .hbm, ⟨46, _⟩ => ⟨S100000x35x1, .f32⟩
  | .hbm, ⟨47, _⟩ => ⟨S100000x35x32, .f32⟩
  | .hbm, ⟨48, _⟩ => ⟨S100000x35x32, .f32⟩
  | _, _ => ⟨S100000x35x7, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_5 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩

abbrev nD : Nat := 1
abbrev τ : Topo := Topo.v7x

variable {F : FTy → Type} [FloatOps F]

class Facts₀ : Prop where
  bcast_S16_S1x1x16_2 : S16.BroadcastsInDim S1x1x16 (![2] : Fin 1 → Fin S1x1x16.rank)
  bcast_S1x1x16_S100000x35x16_0_1_2 : S1x1x16.BroadcastsInDim S100000x35x16 (![0, 1, 2] : Fin 3 → Fin S100000x35x16.rank)
  bcast_S_S100000x35x16 : S_.BroadcastsInDim S100000x35x16 (![] : Fin 0 → Fin S100000x35x16.rank)
  reducesTo_S100000x35x16_S16_d0_1 : S100000x35x16.ReducesTo [0, 1] S16
  h_S_ : 0 < S_.numel
  bcast_S_S16 : S_.BroadcastsInDim S16 (![] : Fin 0 → Fin S16.rank)
  reducesTo_S100000x35x16_S100000x16_d1 : S100000x35x16.ReducesTo [1] S100000x16
  bcast_S100000x16_S100000x1x16_0_2 : S100000x16.BroadcastsInDim S100000x1x16 (![0, 2] : Fin 2 → Fin S100000x1x16.rank)
  bcast_S100000x1x16_S100000x35x16_0_1_2 : S100000x1x16.BroadcastsInDim S100000x35x16 (![0, 1, 2] : Fin 3 → Fin S100000x35x16.rank)
  concatenates_S100000x35x16_S100000x35x16_S100000x35x32_d2 : Shape.Concatenates [S100000x35x16, S100000x35x16] S100000x35x32 2
  bcast_S100000x35x1_S100000x35x32_0_1_2 : S100000x35x1.BroadcastsInDim S100000x35x32 (![0, 1, 2] : Fin 3 → Fin S100000x35x32.rank)
  dot_S100000x35x7_S16x7_S100000x35x16_2_1_01_0_n_n_wf : DotDims.WF S100000x35x7 S16x7 S100000x35x16 [2] [1] [0, 1] [0] [] []

variable [Facts₀]

def dot_S100000x35x7_S16x7_S100000x35x16_2_1_01_0_n_n : DotDims S100000x35x7 S16x7 S100000x35x16 where
  lhsContracting := [2]
  rhsContracting := [1]
  lhsNonContracting := [0, 1]
  rhsNonContracting := [0]
  lhsBatch := []
  rhsBatch := []
  wf := dot_S100000x35x7_S16x7_S100000x35x16_2_1_01_0_n_n_wf

class Facts : Prop extends Facts₀ where

variable [Facts]
-- ==== Proof.K.Kit.lean ====
/-
  What the two pallas_calls' proofs share. The first call (200 grid points, blocks of 500 voxels) keeps a running
  [2,16] table of per-channel sums and sums of squares in a scratch buffer: it is zeroed at the first point, added to at
  every point, and copied to the output block at the last point only. Here: the two branch conditions of that body in
  closed form over the grid, at which points its output window is idle and written back, the staging memrefs as the
  pipeline passes them, and — for both calls, at a parameter `V` for the buffer contents the call is entered
  with — a window's block at a point read off its array, which is what an input's staging buffer holds there.
-/
import proofs.«128887_j13331578487174_2_alg».proof.Proof.Gen.Kernel.Launch
import proofs.«128887_j13331578487174_2_alg».proof.Proof.Gen.Kernel.Skeleton
import proofs.«128887_j13331578487174_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The first call's branch conditions -/

/-- "This is the first grid point": the condition under which the running sums are zeroed. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val = 0 :=
  (by decide +kernel : ∀ t : Fin grid0.N, cond0_0 (grid0.coords t) ↔ t.val = 0)

/-- "This is the last grid point" (199): the condition under which the running sums are copied out. -/
abbrev cond0_1 (i : grid0.Coords) : Prop := k0_cond2 i = 1#1
theorem hcond0_1 : ∀ t : Fin cfg0.N, cond0_1 (grid0.coords t) ↔ t.val = 199 :=
  (by decide +kernel : ∀ t : Fin grid0.N, cond0_1 (grid0.coords t) ↔ t.val = 199)

/-! ## Where the first call's windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Before the last point the output window is idle (nothing is stored into it) and is not written back. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
/-- At the last point it is live. -/
theorem liveAt0_3 : ∀ t : Fin cfg0.N, cond0_1 (grid0.coords t) → cfg0.idle 3 (grid0.coords t) = false := by decide +kernel

/-! ## The first call's memrefs, spelled as the pipeline passes them -/

abbrev ms0_0 (t : Fin cfg0.N) : Memref sig .tc .vmem S500x35x7 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S7x16 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x16 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2x16 .f32 := win0_3.stage (cfg0.slots t 3)
abbrev hs0_3 (t : Fin cfg0.N) : (ms0_3 t).IsWhole := hstage0_3 ((cfg0.slots t 3).cast nbuf0_3)
/-- The scratch buffer holding the running sums, and the views through which contents are stated. -/
abbrev scM0_0 : Memref sig .tc .vmem S2x16 .f32 := Memref.whole cc0_scratch0
abbrev VS0_0 : View sig .tc .vmem S2x16 .f32 := scM0_0.view
abbrev VO0_3 : View sig .tc .vmem S2x16 .f32 := (Memref.whole cc0_stg3_0 : Memref sig .tc .vmem S2x16 .f32).view

/-- The invariant a body that names no scratch keeps, with the first call's scratch split out of it: the scratch at
    some contents, the second call's staging buffers at some contents, the generator register at some state. -/
def restOf1 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f))

theorem PhiA0_eq (c : Dev nD) :
    (Pipeline.ΦA spec0 c : sProp 𝕄)
      = iprop(iprop((∃ d, owns (c : Thread nD τ) scM0_0 fullShare d) ∗ restOf1 c) ∗ (∃ r, prngReg c r)) := by
  unfold Pipeline.ΦA restOf1; rw [scopedRest0_eq]; simp only [scM0_0, owns_whole]; try rfl

section Regions
variable (V : (c : Dev nD) → (b : Ref sig .tc) → Buf (Elt F) ((c : Thread nD τ).loc b))

/-! ## A window's block at a grid point, read off its array as the call finds it -/

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 of pallas_call 0: its current staging buffer holds the array's block at every grid point, whether
    the point fetched it or not (an unfetched point has the same block index as the one before). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 of pallas_call 0: its current staging buffer holds the array's block at every grid point, whether
    the point fetched it or not (an unfetched point has the same block index as the one before). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2 of pallas_call 0: its current staging buffer holds the array's block at every grid point, whether
    the point fetched it or not (an unfetched point has the same block index as the one before). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 0 of pallas_call 1: its current staging buffer holds the array's block at every grid point, whether
    the point fetched it or not (an unfetched point has the same block index as the one before). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 of pallas_call 1: its current staging buffer holds the array's block at every grid point, whether
    the point fetched it or not (an unfetched point has the same block index as the one before). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2 of pallas_call 1: its current staging buffer holds the array's block at every grid point, whether
    the point fetched it or not (an unfetched point has the same block index as the one before). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3 of pallas_call 1: its current staging buffer holds the array's block at every grid point, whether
    the point fetched it or not (an unfetched point has the same block index as the one before). -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4 of pallas_call 1: its current staging buffer holds the array's block at every grid point, whether
    the point fetched it or not (an unfetched point has the same block index as the one before). -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5 of pallas_call 1: its current staging buffer holds the array's block at every grid point, whether
    the point fetched it or not (an unfetched point has the same block index as the one before). -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

end Regions

end Cert.Kernel.Hand

end
-- ==== Proof.K.Run0A.lean ====
/-
  The first pallas_call's body at the FIRST grid point: the running sums are zeroed, then this block's sums are added; nothing is copied out.
  The run of the body on whole memrefs, with what its stores leave in the scratch (and, at the last point, in the output
  buffer) as the list of pieces the run finds.
-/
import proofs.«128887_j13331578487174_2_alg».proof.Proof.K.Kit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_A (c : Dev nD) (i : grid0.Coords) (arg1 : Memref sig .tc .vmem S500x35x7 .f32) (harg1 : arg1.IsWhole) (arg2 : Memref sig .tc .vmem S7x16 .f32) (harg2 : arg2.IsWhole) (arg3 : Memref sig .tc .vmem S1x16 .f32) (harg3 : arg3.IsWhole) (arg4 : Memref sig .tc .vmem S2x16 .f32) (harg4 : arg4.IsWhole) (arg5 : Memref sig .tc .vmem S2x16 .f32) (harg5 : arg5.IsWhole) (hc0 : cond0_0 i) (hc1 : ¬cond0_1 i)
    (x0 : Vec F S500x35x7 .f32) (x1 : Vec F S7x16 .f32) (x2 : Vec F S1x16 .f32) :
    Σ' (L3 : List (View.Piece (Elt F) S2x16 .f32)), { LS0 : List (View.Piece (Elt F) S2x16 .f32) //
      ∀ (xi3 : Vec F S2x16 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xi3 ∗ (∃ d, owns (c : Thread nD τ) arg5 fullShare d)
            ∗ (iprop(owns (c : Thread nD τ) arg1 fullShare x0 ∗ owns (c : Thread nD τ) arg2 fullShare x1 ∗ owns (c : Thread nD τ) arg3 fullShare x2 ∗ owns (c : Thread nD τ) arg4 fullShare xi3 ∗ (∃ f, arg5.view.loc (c : Thread nD τ) ↦[arg5.view.set]{fullShare} arg5.view.writes (Elt F) f LS0)) -∗ K ⟨⟩))
          ⊢ wp frame (wpE (defs₀ (F := F)) Variants.none c none) E (cc0__stats_kernel i arg1 harg1 arg2 harg2 arg3 harg3 arg4 harg4 arg5 harg5) K } := by
  refine ⟨[], ?_, fun xi3 E K => ?run⟩
  case run =>
    simp only [cc0__stats_kernel_eq_skeleton]; unfold cc0__stats_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg1.eq_unread hf0; obtain rfl := harg2.eq_unread hf1; obtain rfl := harg3.eq_unread hf2; obtain rfl := harg4.eq_unread hf3
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact HS0

end Cert.Kernel.Hand

end
-- ==== Proof.K.Run0B.lean ====
/-
  The first pallas_call's body at a MIDDLE grid point: this block's sums are added to the running sums found in the scratch; nothing is copied out.
  The run of the body on whole memrefs, with what its stores leave in the scratch (and, at the last point, in the output
  buffer) as the list of pieces the run finds.
-/
import proofs.«128887_j13331578487174_2_alg».proof.Proof.K.Run0A

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_B (c : Dev nD) (i : grid0.Coords) (arg1 : Memref sig .tc .vmem S500x35x7 .f32) (harg1 : arg1.IsWhole) (arg2 : Memref sig .tc .vmem S7x16 .f32) (harg2 : arg2.IsWhole) (arg3 : Memref sig .tc .vmem S1x16 .f32) (harg3 : arg3.IsWhole) (arg4 : Memref sig .tc .vmem S2x16 .f32) (harg4 : arg4.IsWhole) (arg5 : Memref sig .tc .vmem S2x16 .f32) (harg5 : arg5.IsWhole) (hc0 : ¬cond0_0 i) (hc1 : ¬cond0_1 i)
    (x0 : Vec F S500x35x7 .f32) (x1 : Vec F S7x16 .f32) (x2 : Vec F S1x16 .f32) (xs0 : Vec F S2x16 .f32) :
    Σ' (L3 : List (View.Piece (Elt F) S2x16 .f32)), { LS0 : List (View.Piece (Elt F) S2x16 .f32) //
      ∀ (xi3 : Vec F S2x16 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xi3 ∗ owns (c : Thread nD τ) arg5 fullShare xs0
            ∗ (iprop(owns (c : Thread nD τ) arg1 fullShare x0 ∗ owns (c : Thread nD τ) arg2 fullShare x1 ∗ owns (c : Thread nD τ) arg3 fullShare x2 ∗ owns (c : Thread nD τ) arg4 fullShare xi3 ∗ (∃ f, arg5.view.loc (c : Thread nD τ) ↦[arg5.view.set]{fullShare} arg5.view.writes (Elt F) f LS0)) -∗ K ⟨⟩))
          ⊢ wp frame (wpE (defs₀ (F := F)) Variants.none c none) E (cc0__stats_kernel i arg1 harg1 arg2 harg2 arg3 harg3 arg4 harg4 arg5 harg5) K } := by
  refine ⟨[], ?_, fun xi3 E K => ?run⟩
  case run =>
    simp only [cc0__stats_kernel_eq_skeleton]; unfold cc0__stats_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact HS0

end Cert.Kernel.Hand

end
-- ==== Proof.K.Run0C.lean ====
/-
  The first pallas_call's body at the LAST grid point: this block's sums are added to the running sums, and the total is copied to the output block.
  The run of the body on whole memrefs, with what its stores leave in the scratch (and, at the last point, in the output
  buffer) as the list of pieces the run finds.
-/
import proofs.«128887_j13331578487174_2_alg».proof.Proof.K.Run0B

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_C (c : Dev nD) (i : grid0.Coords) (arg1 : Memref sig .tc .vmem S500x35x7 .f32) (harg1 : arg1.IsWhole) (arg2 : Memref sig .tc .vmem S7x16 .f32) (harg2 : arg2.IsWhole) (arg3 : Memref sig .tc .vmem S1x16 .f32) (harg3 : arg3.IsWhole) (arg4 : Memref sig .tc .vmem S2x16 .f32) (harg4 : arg4.IsWhole) (arg5 : Memref sig .tc .vmem S2x16 .f32) (harg5 : arg5.IsWhole) (hc0 : ¬cond0_0 i) (hc1 : cond0_1 i)
    (x0 : Vec F S500x35x7 .f32) (x1 : Vec F S7x16 .f32) (x2 : Vec F S1x16 .f32) (xs0 : Vec F S2x16 .f32) :
    Σ' (L3 : List (View.Piece (Elt F) S2x16 .f32)), { LS0 : List (View.Piece (Elt F) S2x16 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare xs0
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f LS0)) -∗ K ⟨⟩))
          ⊢ wp frame (wpE (defs₀ (F := F)) Variants.none c none) E (cc0__stats_kernel i arg1 harg1 arg2 harg2 arg3 harg3 arg4 harg4 arg5 harg5) K } := by
  refine ⟨?_, ?_, fun E K => ?run⟩
  case run =>
    simp only [cc0__stats_kernel_eq_skeleton]; unfold cc0__stats_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg1.eq_unread hf0; obtain rfl := harg2.eq_unread hf1; obtain rfl := harg3.eq_unread hf2; obtain rfl := harg5.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    iexists _; iexact HS0

end Cert.Kernel.Hand

end
-- ==== Proof.K.Region0.lean ====
/-
  The first pallas_call, at a parameter `V` (the buffer contents the call is entered with). Its body keeps a [2,16]
  table of running sums in a scratch buffer across the 200 grid points. What the scratch and the output window's buffer
  hold after each point is defined by recursion on the point: the first point's run from anything, every later point's
  run from what the point before left. The invariant carried between points says exactly that about the scratch. Then
  the proof data, and the body obligation by cases on the kind of point (first / middle / last).
-/
import proofs.«128887_j13331578487174_2_alg».proof.Proof.K.Run0C

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Point kind A: the pieces found for the scratch cover it (whole-buffer stores). -/
theorem scover0_A_0 (c : Dev nD) (i : grid0.Coords) (arg1 : Memref sig .tc .vmem S500x35x7 .f32) (harg1 : arg1.IsWhole) (arg2 : Memref sig .tc .vmem S7x16 .f32) (harg2 : arg2.IsWhole) (arg3 : Memref sig .tc .vmem S1x16 .f32) (harg3 : arg3.IsWhole) (arg4 : Memref sig .tc .vmem S2x16 .f32) (harg4 : arg4.IsWhole) (arg5 : Memref sig .tc .vmem S2x16 .f32) (harg5 : arg5.IsWhole) (hc0 : cond0_0 i) (hc1 : ¬cond0_1 i)
    (x0 : Vec F S500x35x7 .f32) (x1 : Vec F S7x16 .f32) (x2 : Vec F S1x16 .f32) (y : S2x16.Idx) :
    ∃ pc ∈ (kernelRun0_A c i arg1 harg1 arg2 harg2 arg3 harg3 arg4 harg4 arg5 harg5 hc0 hc1 x0 x1 x2).2.1, y ∈ pc.1.set :=
  View.cover_of_tiledL (kernelRun0_A c i arg1 harg1 arg2 harg2 arg3 harg3 arg4 harg4 arg5 harg5 hc0 hc1 x0 x1 x2).2.1 S2x16.size (by sl_kernel_rfl) y

/-- What a point of kind A leaves in the scratch: its pieces read back. -/
def sout0_A_0 (c : Dev nD) (i : grid0.Coords) (arg1 : Memref sig .tc .vmem S500x35x7 .f32) (harg1 : arg1.IsWhole) (arg2 : Memref sig .tc .vmem S7x16 .f32) (harg2 : arg2.IsWhole) (arg3 : Memref sig .tc .vmem S1x16 .f32) (harg3 : arg3.IsWhole) (arg4 : Memref sig .tc .vmem S2x16 .f32) (harg4 : arg4.IsWhole) (arg5 : Memref sig .tc .vmem S2x16 .f32) (harg5 : arg5.IsWhole) (hc0 : cond0_0 i) (hc1 : ¬cond0_1 i)
    (x0 : Vec F S500x35x7 .f32) (x1 : Vec F S7x16 .f32) (x2 : Vec F S1x16 .f32) : Vec F S2x16 .f32 :=
  VS0_0.read (Elt F) (VS0_0.writes (Elt F) VS0_0.junk (kernelRun0_A c i arg1 harg1 arg2 harg2 arg3 harg3 arg4 harg4 arg5 harg5 hc0 hc1 x0 x1 x2).2.1)

/-- What a point of kind A leaves in the output window's buffer (nothing is stored: a placeholder nobody reads, the window being idle and not written back there). -/
def out0_A_3 (c : Dev nD) (i : grid0.Coords) (arg1 : Memref sig .tc .vmem S500x35x7 .f32) (harg1 : arg1.IsWhole) (arg2 : Memref sig .tc .vmem S7x16 .f32) (harg2 : arg2.IsWhole) (arg3 : Memref sig .tc .vmem S1x16 .f32) (harg3 : arg3.IsWhole) (arg4 : Memref sig .tc .vmem S2x16 .f32) (harg4 : arg4.IsWhole) (arg5 : Memref sig .tc .vmem S2x16 .f32) (harg5 : arg5.IsWhole) (hc0 : cond0_0 i) (hc1 : ¬cond0_1 i)
    (x0 : Vec F S500x35x7 .f32) (x1 : Vec F S7x16 .f32) (x2 : Vec F S1x16 .f32) : Vec F S2x16 .f32 :=
  VO0_3.read (Elt F) (VO0_3.writes (Elt F) VO0_3.junk (kernelRun0_A c i arg1 harg1 arg2 harg2 arg3 harg3 arg4 harg4 arg5 harg5 hc0 hc1 x0 x1 x2).1)

/-- Point kind B: the pieces found for the scratch cover it (whole-buffer stores). -/
theorem scover0_B_0 (c : Dev nD) (i : grid0.Coords) (arg1 : Memref sig .tc .vmem S500x35x7 .f32) (harg1 : arg1.IsWhole) (arg2 : Memref sig .tc .vmem S7x16 .f32) (harg2 : arg2.IsWhole) (arg3 : Memref sig .tc .vmem S1x16 .f32) (harg3 : arg3.IsWhole) (arg4 : Memref sig .tc .vmem S2x16 .f32) (harg4 : arg4.IsWhole) (arg5 : Memref sig .tc .vmem S2x16 .f32) (harg5 : arg5.IsWhole) (hc0 : ¬cond0_0 i) (hc1 : ¬cond0_1 i)
    (x0 : Vec F S500x35x7 .f32) (x1 : Vec F S7x16 .f32) (x2 : Vec F S1x16 .f32) (xs0 : Vec F S2x16 .f32) (y : S2x16.Idx) :
    ∃ pc ∈ (kernelRun0_B c i arg1 harg1 arg2 harg2 arg3 harg3 arg4 harg4 arg5 harg5 hc0 hc1 x0 x1 x2 xs0).2.1, y ∈ pc.1.set :=
  View.cover_of_tiledL (kernelRun0_B c i arg1 harg1 arg2 harg2 arg3 harg3 arg4 harg4 arg5 harg5 hc0 hc1 x0 x1 x2 xs0).2.1 S2x16.size (by sl_kernel_rfl) y

/-- What a point of kind B leaves in the scratch: its pieces read back. -/
def sout0_B_0 (c : Dev nD) (i : grid0.Coords) (arg1 : Memref sig .tc .vmem S500x35x7 .f32) (harg1 : arg1.IsWhole) (arg2 : Memref sig .tc .vmem S7x16 .f32) (harg2 : arg2.IsWhole) (arg3 : Memref sig .tc .vmem S1x16 .f32) (harg3 : arg3.IsWhole) (arg4 : Memref sig .tc .vmem S2x16 .f32) (harg4 : arg4.IsWhole) (arg5 : Memref sig .tc .vmem S2x16 .f32) (harg5 : arg5.IsWhole) (hc0 : ¬cond0_0 i) (hc1 : ¬cond0_1 i)
    (x0 : Vec F S500x35x7 .f32) (x1 : Vec F S7x16 .f32) (x2 : Vec F S1x16 .f32) (xs0 : Vec F S2x16 .f32) : Vec F S2x16 .f32 :=
  VS0_0.read (Elt F) (VS0_0.writes (Elt F) VS0_0.junk (kernelRun0_B c i arg1 harg1 arg2 harg2 arg3 harg3 arg4 harg4 arg5 harg5 hc0 hc1 x0 x1 x2 xs0).2.1)

/-- What a point of kind B leaves in the output window's buffer (nothing is stored: a placeholder nobody reads, the window being idle and not written back there). -/
def out0_B_3 (c : Dev nD) (i : grid0.Coords) (arg1 : Memref sig .tc .vmem S500x35x7 .f32) (harg1 : arg1.IsWhole) (arg2 : Memref sig .tc .vmem S7x16 .f32) (harg2 : arg2.IsWhole) (arg3 : Memref sig .tc .vmem S1x16 .f32) (harg3 : arg3.IsWhole) (arg4 : Memref sig .tc .vmem S2x16 .f32) (harg4 : arg4.IsWhole) (arg5 : Memref sig .tc .vmem S2x16 .f32) (harg5 : arg5.IsWhole) (hc0 : ¬cond0_0 i) (hc1 : ¬cond0_1 i)
    (x0 : Vec F S500x35x7 .f32) (x1 : Vec F S7x16 .f32) (x2 : Vec F S1x16 .f32) (xs0 : Vec F S2x16 .f32) : Vec F S2x16 .f32 :=
  VO0_3.read (Elt F) (VO0_3.writes (Elt F) VO0_3.junk (kernelRun0_B c i arg1 harg1 arg2 harg2 arg3 harg3 arg4 harg4 arg5 harg5 hc0 hc1 x0 x1 x2 xs0).1)

/-- Point kind C: the pieces found for the scratch cover it (whole-buffer stores). -/
theorem scover0_C_0 (c : Dev nD) (i : grid0.Coords) (arg1 : Memref sig .tc .vmem S500x35x7 .f32) (harg1 : arg1.IsWhole) (arg2 : Memref sig .tc .vmem S7x16 .f32) (harg2 : arg2.IsWhole) (arg3 : Memref sig .tc .vmem S1x16 .f32) (harg3 : arg3.IsWhole) (arg4 : Memref sig .tc .vmem S2x16 .f32) (harg4 : arg4.IsWhole) (arg5 : Memref sig .tc .vmem S2x16 .f32) (harg5 : arg5.IsWhole) (hc0 : ¬cond0_0 i) (hc1 : cond0_1 i)
    (x0 : Vec F S500x35x7 .f32) (x1 : Vec F S7x16 .f32) (x2 : Vec F S1x16 .f32) (xs0 : Vec F S2x16 .f32) (y : S2x16.Idx) :
    ∃ pc ∈ (kernelRun0_C c i arg1 harg1 arg2 harg2 arg3 harg3 arg4 harg4 arg5 harg5 hc0 hc1 x0 x1 x2 xs0).2.1, y ∈ pc.1.set :=
  View.cover_of_tiledL (kernelRun0_C c i arg1 harg1 arg2 harg2 arg3 harg3 arg4 harg4 arg5 harg5 hc0 hc1 x0 x1 x2 xs0).2.1 S2x16.size (by sl_kernel_rfl) y

/-- What a point of kind C leaves in the scratch: its pieces read back. -/
def sout0_C_0 (c : Dev nD) (i : grid0.Coords) (arg1 : Memref sig .tc .vmem S500x35x7 .f32) (harg1 : arg1.IsWhole) (arg2 : Memref sig .tc .vmem S7x16 .f32) (harg2 : arg2.IsWhole) (arg3 : Memref sig .tc .vmem S1x16 .f32) (harg3 : arg3.IsWhole) (arg4 : Memref sig .tc .vmem S2x16 .f32) (harg4 : arg4.IsWhole) (arg5 : Memref sig .tc .vmem S2x16 .f32) (harg5 : arg5.IsWhole) (hc0 : ¬cond0_0 i) (hc1 : cond0_1 i)
    (x0 : Vec F S500x35x7 .f32) (x1 : Vec F S7x16 .f32) (x2 : Vec F S1x16 .f32) (xs0 : Vec F S2x16 .f32) : Vec F S2x16 .f32 :=
  VS0_0.read (Elt F) (VS0_0.writes (Elt F) VS0_0.junk (kernelRun0_C c i arg1 harg1 arg2 harg2 arg3 harg3 arg4 harg4 arg5 harg5 hc0 hc1 x0 x1 x2 xs0).2.1)

/-- At the last point the one store into the output buffer covers it. -/
theorem cover0_C_3 (c : Dev nD) (i : grid0.Coords) (arg1 : Memref sig .tc .vmem S500x35x7 .f32) (harg1 : arg1.IsWhole) (arg2 : Memref sig .tc .vmem S7x16 .f32) (harg2 : arg2.IsWhole) (arg3 : Memref sig .tc .vmem S1x16 .f32) (harg3 : arg3.IsWhole) (arg4 : Memref sig .tc .vmem S2x16 .f32) (harg4 : arg4.IsWhole) (arg5 : Memref sig .tc .vmem S2x16 .f32) (harg5 : arg5.IsWhole) (hc0 : ¬cond0_0 i) (hc1 : cond0_1 i)
    (x0 : Vec F S500x35x7 .f32) (x1 : Vec F S7x16 .f32) (x2 : Vec F S1x16 .f32) (xs0 : Vec F S2x16 .f32) (y : S2x16.Idx) :
    ∃ pc ∈ (kernelRun0_C c i arg1 harg1 arg2 harg2 arg3 harg3 arg4 harg4 arg5 harg5 hc0 hc1 x0 x1 x2 xs0).1, y ∈ pc.1.set :=
  View.cover_of_tiledL (kernelRun0_C c i arg1 harg1 arg2 harg2 arg3 harg3 arg4 harg4 arg5 harg5 hc0 hc1 x0 x1 x2 xs0).1 S2x16.size (by sl_kernel_rfl) y

/-- What a point of kind C leaves in the output window's buffer. -/
def out0_C_3 (c : Dev nD) (i : grid0.Coords) (arg1 : Memref sig .tc .vmem S500x35x7 .f32) (harg1 : arg1.IsWhole) (arg2 : Memref sig .tc .vmem S7x16 .f32) (harg2 : arg2.IsWhole) (arg3 : Memref sig .tc .vmem S1x16 .f32) (harg3 : arg3.IsWhole) (arg4 : Memref sig .tc .vmem S2x16 .f32) (harg4 : arg4.IsWhole) (arg5 : Memref sig .tc .vmem S2x16 .f32) (harg5 : arg5.IsWhole) (hc0 : ¬cond0_0 i) (hc1 : cond0_1 i)
    (x0 : Vec F S500x35x7 .f32) (x1 : Vec F S7x16 .f32) (x2 : Vec F S1x16 .f32) (xs0 : Vec F S2x16 .f32) : Vec F S2x16 .f32 :=
  VO0_3.read (Elt F) (VO0_3.writes (Elt F) VO0_3.junk (kernelRun0_C c i arg1 harg1 arg2 harg2 arg3 harg3 arg4 harg4 arg5 harg5 hc0 hc1 x0 x1 x2 xs0).1)

section Regions
variable (V : (c : Dev nD) → (b : Ref sig .tc) → Buf (Elt F) ((c : Thread nD τ).loc b))

/-! ## The running sums, point by point -/

/-- After the body at position `n`: (the output window's buffer, the scratch). -/
def outsAt0 (c : Dev nD) : (n : ℕ) → n < cfg0.N → Vec F S2x16 .f32 × Vec F S2x16 .f32
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr rfl) (fun h => (by decide : ¬(0 : ℕ) = 199) ((hcond0_1 ⟨0, hn⟩).mp h)) (iblk0 V c 0 ⟨0, hn⟩) (iblk0 V c 1 ⟨0, hn⟩) (iblk0 V c 2 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr rfl) (fun h => (by decide : ¬(0 : ℕ) = 199) ((hcond0_1 ⟨0, hn⟩).mp h)) (iblk0 V c 0 ⟨0, hn⟩) (iblk0 V c 1 ⟨0, hn⟩) (iblk0 V c 2 ⟨0, hn⟩))
  | n + 1, hn =>
    if h1 : n + 1 = 199 then
      (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => Nat.succ_ne_zero n ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => Nat.succ_ne_zero n ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2)
    else
      (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => Nat.succ_ne_zero n ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => Nat.succ_ne_zero n ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2)

theorem outsAt0_A (c : Dev nD) (t : Fin cfg0.N) (h0 : t.val = 0) (h1 : ¬t.val = 199) :
    outsAt0 V c t.val t.isLt = (out0_A_3 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk0 V c 0 t) (iblk0 V c 1 t) (iblk0 V c 2 t), sout0_A_0 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk0 V c 0 t) (iblk0 V c 1 t) (iblk0 V c 2 t)) := by
  obtain ⟨n, hn⟩ := t
  cases n with
  | zero => exact rfl
  | succ n => exact absurd h0 (Nat.succ_ne_zero n)

theorem outsAt0_B (c : Dev nD) (t : Fin cfg0.N) (h0 : ¬t.val = 0) (h1 : ¬t.val = 199) :
    outsAt0 V c t.val t.isLt = (out0_B_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact absurd rfl h0
  | succ n => exact (dif_neg h1).trans rfl

theorem outsAt0_C (c : Dev nD) (t : Fin cfg0.N) (h0 : ¬t.val = 0) (h1 : t.val = 199) :
    outsAt0 V c t.val t.isLt = (out0_C_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact absurd rfl h0
  | succ n => exact (dif_pos h1).trans rfl

/-! ## The invariant carried between points -/

/-- Before position `n`: at the start, the scratch at anything; afterwards, the scratch at what the point before left. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ restOf1 c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2) ∗ restOf1 c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2) ∗ restOf1 c) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point. The inputs' buffers hold their blocks; the closed forms say which kind of point it is; the
    invariant hands the body the scratch (at anything at the first point, at what the point before left afterwards) and
    takes it back at this point's contents; before the last point the output buffer is handed back untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS V c (t.val + 1) t.isLt from rfl, PhiS_succ]
  have hN : t.val < 200 := lt_of_lt_of_eq t.isLt (show cfg0.N = 200 from N_0)
  rw [show (dat0 V c).leavesExact 0 t = owns (c : Thread nD τ) (ms0_0 t) fullShare ((dat0 V c).after 0 t) from by
      unfold Dat.leavesExact; rw [liveAt0_0 t], after0_0]
  rw [show (dat0 V c).leavesExact 1 t = owns (c : Thread nD τ) (ms0_1 t) fullShare ((dat0 V c).after 1 t) from by
      unfold Dat.leavesExact; rw [liveAt0_1 t], after0_1]
  rw [show (dat0 V c).leavesExact 2 t = owns (c : Thread nD τ) (ms0_2 t) fullShare ((dat0 V c).after 2 t) from by
      unfold Dat.leavesExact; rw [liveAt0_2 t], after0_2]
  by_cases h0 : t.val = 0
  · have h1 : ¬t.val = 199 := by omega
    rw [Dat.leavesExact_idle (dat0 V c) 3 t (idleAt0_3 t (fun h => h1 ((hcond0_1 t).mp h))) (noFlush0_3 t (fun h => h1 ((hcond0_1 t).mp h)))]
    rw [outsAt0_A V c t h0 h1]
    unfold sout0_A_0; (try dsimp only)
    rw [PhiS_castSucc V c t, PhiS_zero V c _ _ h0, PhiA0_eq]
    iintro ⟨⟨⟨HS0, Hrest⟩, Hg⟩, Ho, ⟨%d0, H0⟩, ⟨%d1, H1⟩, ⟨%d2, H2⟩, ⟨%d3, H3⟩⟩
    iapply ((kernelRun0_A c (grid0.coords t) _ _ _ _ _ _ _ _ _ _ ((hcond0_0 t).mpr h0) (fun h => h1 ((hcond0_1 t).mp h)) (iblk0 V c 0 t) (iblk0 V c 1 t) (iblk0 V c 2 t)).2.2 _ Set.univ _)
    isplitl [H0]; · iexact H0
    isplitl [H1]; · iexact H1
    isplitl [H2]; · iexact H2
    isplitl [H3]; · iexact H3
    isplitl [HS0]; · iexact HS0
    iintro ⟨H0, H1, H2, H3, ⟨%es0, HS0⟩⟩
    isplitl [HS0 Hrest Hg]
    · isplitl [HS0 Hrest]
      · isplitl [HS0]
        · unfold owns; iexists _; isplitr
          swap; · iexact HS0
          ipureintro; exact View.read_writes_of_cover _ _ _ _ _ (scover0_A_0 c _ _ _ _ _ _ _ _ _ _ _ _ _ _ _ _)
        iexact Hrest
      iexact Hg
    isplitl [Ho]; · iexact Ho
    isplitl [H0]; · iexact H0
    isplitl [H1]; · iexact H1
    isplitl [H2]; · iexact H2
    iexists _; iexact H3
  · by_cases h1 : t.val = 199
    · rw [show (dat0 V c).leavesExact 3 t = owns (c : Thread nD τ) (ms0_3 t) fullShare ((dat0 V c).after 3 t) from by
        unfold Dat.leavesExact; rw [liveAt0_3 t ((hcond0_1 t).mpr h1)], after0_3]
      rw [outsAt0_C V c t h0 h1]
      unfold out0_C_3 sout0_C_0; (try dsimp only)
      rw [PhiS_castSucc V c t, PhiS_pos V c _ _ h0]
      iintro ⟨⟨⟨HS0, Hrest⟩, Hg⟩, Ho, ⟨%d0, H0⟩, ⟨%d1, H1⟩, ⟨%d2, H2⟩, ⟨%d3, H3⟩⟩
      iapply ((kernelRun0_C c (grid0.coords t) _ _ _ _ _ _ _ _ _ _ (fun h => h0 ((hcond0_0 t).mp h)) ((hcond0_1 t).mpr h1) (iblk0 V c 0 t) (iblk0 V c 1 t) (iblk0 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover0_C_0 c _ _ _ _ _ _ _ _ _ _ _ _ _ _ _ _ _)
          iexact Hrest
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_C_3 c _ _ _ _ _ _ _ _ _ _ _ _ _ _ _ _ _)
    · rw [Dat.leavesExact_idle (dat0 V c) 3 t (idleAt0_3 t (fun h => h1 ((hcond0_1 t).mp h))) (noFlush0_3 t (fun h => h1 ((hcond0_1 t).mp h)))]
      rw [outsAt0_B V c t h0 h1]
      unfold sout0_B_0; (try dsimp only)
      rw [PhiS_castSucc V c t, PhiS_pos V c _ _ h0]
      iintro ⟨⟨⟨HS0, Hrest⟩, Hg⟩, Ho, ⟨%d0, H0⟩, ⟨%d1, H1⟩, ⟨%d2, H2⟩, ⟨%d3, H3⟩⟩
      iapply ((kernelRun0_B c (grid0.coords t) _ _ _ _ _ _ _ _ _ _ (fun h => h0 ((hcond0_0 t).mp h)) (fun h => h1 ((hcond0_1 t).mp h)) (iblk0 V c 0 t) (iblk0 V c 1 t) (iblk0 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover0_B_0 c _ _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3

theorem body_obligation0 (c : Dev nD) : BodyObligation (dat0 (F := F) V c) (defs₀ (F := F)) Variants.none () Set.univ := fun t => by
  rw [bigSep_W0, bigSep_W0]
  exact sound_body0 V c t

/-- What the call is entered with is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point the invariant gives the plain one back: what the scratch holds is forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, Hrest⟩, Hg⟩
  isplitl [HS0 Hrest]
  · isplitl [HS0]
    · iexists _; iexact HS0
    iexact Hrest
  iexact Hg

theorem hout0 (c : Dev nD) : (dat0 V c).Φ (Fin.last cfg0.N) ⊢ Pipeline.ΦA spec0 c :=
  Phi_out0 V c _ (by rw [Fin.val_last]; have : cfg0.N = 200 := N_0; omega)

end Regions

end Cert.Kernel.Hand

end
-- ==== Proof.K.Body1.lean ====
/-
  The second pallas_call's body at one grid point (a block of 250 voxels). It loads the block of inputs, the mask block,
  the transposed weight, the bias row, the scale row and the shift row, and stores ONE whole [250,35,32] block: the
  value is a pure function of those six loads. Stated here: that function as the block's contents, and the body's run
  on whole staging memrefs — the inputs come back as they were, the output buffer ends holding that block.
-/
import proofs.«128887_j13331578487174_2_alg».proof.Proof.K.Kit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev r1_x : Rect S250x35x7 := Rect.unit (s := S250x35x7) ![0, 0, 0] S250x35x7.size inb_S250x35x7_S250x35x7_0_0_0
abbrev r1_m : Rect S250x35x1 := Rect.unit (s := S250x35x1) ![0, 0, 0] S250x35x1.size inb_S250x35x1_S250x35x1_0_0_0
abbrev r1_w : Rect S7x16 := Rect.unit (s := S7x16) ![0, 0] S7x16.size inb_S7x16_S7x16_0_0
abbrev r1_v : Rect S1x16 := Rect.unit (s := S1x16) ![0, 0] S1x16.size inb_S1x16_S1x16_0_0
abbrev r1_o : Rect S250x35x32 := Rect.unit (s := S250x35x32) ![0, 0, 0] S250x35x32.size inb_S250x35x32_S250x35x32_0_0_0

/-- What the body leaves in the output window's buffer, from the six input blocks: its one store, over the whole block. -/
def out1_6 (x0 : Vec F S250x35x7 .f32) (x1 : Vec F S250x35x1 .i32) (x2 : Vec F S7x16 .f32) (x3 : Vec F S1x16 .f32) (x4 : Vec F S1x16 .f32) (x5 : Vec F S1x16 .f32) : Vec F S250x35x32 .f32 :=
  View.canon [⟨r1_o, k1_pay1 (View.ld x0 r1_x) (View.ld x2 r1_w) (View.ld x3 r1_v) (View.ld x4 r1_v) (View.ld x5 r1_v) (View.ld x1 r1_m)⟩]

/-- The one store covers the block. -/
theorem cover1_6 (p0 : Vec F S250x35x32 .f32) (y : S250x35x32.Idx) :
    ∃ pc ∈ ([⟨r1_o, p0⟩] : List (View.Piece (Elt F) S250x35x32 .f32)), y ∈ pc.1.set :=
  View.cover_of_tiled [⟨r1_o, p0⟩] S250x35x32.size (by rfl) y

set_option maxHeartbeats 4000000 in
/-- The body on whole staging memrefs: the six inputs at read contents, the output at anything; it runs to the
    continuation holding the inputs as they were and the output at `out1_6` of them. -/
theorem sound_kernel1 (c : Dev nD) (E : Set ℕ) (i : grid1.Coords)
    (arg1 : Memref sig .tc .vmem S250x35x7 .f32) (harg1 : arg1.IsWhole) (arg2 : Memref sig .tc .vmem S250x35x1 .i32) (harg2 : arg2.IsWhole)
    (arg3 : Memref sig .tc .vmem S7x16 .f32) (harg3 : arg3.IsWhole) (arg4 : Memref sig .tc .vmem S1x16 .f32) (harg4 : arg4.IsWhole)
    (arg5 : Memref sig .tc .vmem S1x16 .f32) (harg5 : arg5.IsWhole) (arg6 : Memref sig .tc .vmem S1x16 .f32) (harg6 : arg6.IsWhole)
    (arg7 : Memref sig .tc .vmem S250x35x32 .f32) (harg7 : arg7.IsWhole)
    (x0 : Vec F S250x35x7 .f32) (x1 : Vec F S250x35x1 .i32) (x2 : Vec F S7x16 .f32) (x3 : Vec F S1x16 .f32) (x4 : Vec F S1x16 .f32) (x5 : Vec F S1x16 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out1_6 x0 x1 x2 x3 x4 x5)) -∗ K ⟨⟩))
      ⊢ wp frame (wpE (defs₀ (F := F)) Variants.none c none) E (cc1__main_kernel i arg1 harg1 arg2 harg2 arg3 harg3 arg4 harg4 arg5 harg5 arg6 harg6 arg7 harg7) K := by
  simp only [cc1__main_kernel_eq_skeleton]; unfold cc1__main_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_6 _)

end Cert.Kernel.Hand

end
-- ==== Proof.K.Region1.lean ====
/-
  The second pallas_call's proof data at a parameter `V` (the buffer contents the call is entered with), and its
  body obligation. After the body at grid point `t` every input window's buffer still holds its block of the array,
  and the output window's buffer holds the body's function of the six input blocks. The body keeps nothing between
  points, so the invariant is the scoped rest and the generator register, untouched.
-/
import proofs.«128887_j13331578487174_2_alg».proof.Proof.K.Body1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

set_option maxHeartbeats 2000000 in
/-- The body at any point: the inputs' buffers hold their blocks, so the body's run applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

end Regions

end Cert.Kernel.Hand

end
-- ==== Proof.K.Frame.lean ====
/-
  The whole program's run. @main is: two host operations (the weight transposed, the bias as a row), the first
  pallas_call (per-channel sums and sums of squares of the activated linear layer), twenty-four host operations (mean,
  variance, scale and shift from those sums), and the second pallas_call (normalise, pool, concatenate, mask). The
  contents of every unscoped buffer at each of the five boundaries are a fold from the launch memory: a host stretch
  applies its operations, a pallas_call replaces its arrays by what its write-backs leave. Each pallas_call is a
  segment record over "every unscoped buffer at the boundary's contents"; the library's launch theorem for a sequence of
  segments then gives: every weakly fair execution terminates, and at the end every unscoped buffer holds the last
  boundary's contents. The arguments are read back through the fold to the launch memory (nothing writes them).
-/
import proofs.«128887_j13331578487174_2_alg».proof.Proof.K.Region0
import proofs.«128887_j13331578487174_2_alg».proof.Proof.K.Region1
import proofs.«128887_j13331578487174_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

abbrev W0 : Dev nD → Valuation τ sig (Elt F) := fun c b => (s₀ m ρ).mem ((c : Dev nD), b)
abbrev W1 : Dev nD → Valuation τ sig (Elt F) := fun c => StableHlo.after hostOps0 (W0 m ρ c)
abbrev U1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (U1 m ρ) c).arrAt w cfg0.N
theorem W2_arr (c : Dev nD) (w : Fin cfg0.W) :
    W2 m ρ c (Proc.devRef .tc (Pipeline.arrRef spec0 w)) = (dat0 (U1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev U2 : (c : Dev nD) → (b : Ref sig .tc) → Buf (Elt F) ((c : Thread nD τ).loc b) := fun c b => W2 m ρ c b
theorem hF0 (c : Dev nD) (w : Fin cfg0.W) : (dat0 (U1 m ρ) c).arrAt w cfg0.N = U2 m ρ c (Pipeline.arrRef spec0 w) :=
  (W2_arr m ρ c w).symm
theorem hrest0 (c : Dev nD) : ∀ b, b ∉ Finset.univ.image (Pipeline.arrRef spec0) → U2 m ρ c b = U1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)
abbrev U3 : (c : Dev nD) → (b : Ref sig .tc) → Buf (Elt F) ((c : Thread nD τ).loc b) := fun c b => W3 m ρ c b
def W4 (c : Dev nD) : Valuation τ sig (Elt F) :=
  Pipeline.withArrays spec1 c (W3 m ρ c) fun w => (dat1 (U3 m ρ) c).arrAt w cfg1.N
theorem W4_arr (c : Dev nD) (w : Fin cfg1.W) :
    W4 m ρ c (Proc.devRef .tc (Pipeline.arrRef spec1 w)) = (dat1 (U3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev U4 : (c : Dev nD) → (b : Ref sig .tc) → Buf (Elt F) ((c : Thread nD τ).loc b) := fun c b => W4 m ρ c b
theorem hF1 (c : Dev nD) (w : Fin cfg1.W) : (dat1 (U3 m ρ) c).arrAt w cfg1.N = U4 m ρ c (Pipeline.arrRef spec1 w) :=
  (W4_arr m ρ c w).symm
theorem hrest1 (c : Dev nD) : ∀ b, b ∉ Finset.univ.image (Pipeline.arrRef spec1) → U4 m ρ c b = U3 m ρ c b :=
  fun b hb => W4_of_ne m ρ c b fun w e => hb (Finset.mem_image.mpr ⟨w, Finset.mem_univ _, e⟩)

/-! ## The arguments end as launched -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := (W4_arr m ρ c 0).trans (((dat1 (U3 m ρ) c).arrAt_in 0 rfl _).trans (A_eq1 (U3 m ρ) c 0))
    _ = W2 m ρ c (Proc.devRef .tc main_arg0) := StableHlo.after_of_writes_sub hostOps1 _ hostOps1_writes (by decide)
    _ = W1 m ρ c (Proc.devRef .tc main_arg0) := (W2_arr m ρ c 0).trans (((dat0 (U1 m ρ) c).arrAt_in 0 rfl _).trans (A_eq0 (U1 m ρ) c 0))
    _ = W0 m ρ c (Proc.devRef .tc main_arg0) := StableHlo.after_of_writes_sub hostOps0 _ hostOps0_writes (by decide)
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := (W4_arr m ρ c 1).trans (((dat1 (U3 m ρ) c).arrAt_in 1 rfl _).trans (A_eq1 (U3 m ρ) c 1))
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl

theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_writes_sub hostOps1 _ hostOps1_writes (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl

theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := StableHlo.after_of_writes_sub hostOps1 _ hostOps1_writes (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl

/-! ## The proof data family and what rides beside the buffers -/

abbrev tadm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) tadm p) c
  | ⟨0, _⟩ => fun c => dat0 (U1 m ρ) c
  | ⟨1, _⟩ => fun c => dat1 (U3 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The pallas_calls as segments -/

set_option backward.isDefEq.respectTransparency.types false in
/-- Pallas_call 0 as a segment: entered with every unscoped buffer at `W1`, left with them at `W2`. Its
    arrays are split out of the unscoped buffers and put back at what its write-backs leave; the generator register goes
    into the invariant and comes back; nothing is owed; the kernel has no semaphore of its own. -/
def reg0 : Pipeline.RegionSeg (pcfgs (F := F)) tadm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (U1 m ρ c)
  hentry c := by
    rw [Pipeline.ownSems0_none]
    have hsplit := Pipeline.arrays_of_unscopedBufs (p := 0) (pcfgs (F := F)) tadm (pdats m ρ) launch0.win launch0.arr_whole c
      ((pdats m ρ 0 c).share_full fun _ => rfl) (U1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (hout0 (U1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) tadm (Ix := Unit) (Name := ℕ) (U := UR sig nD τ) (Lvl := ℕ)
      launch0.win launch0.arr_whole c (pdats m ρ) ((pdats m ρ 0 c).share_full fun _ => rfl)
      (U1 m ρ c) (U2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas_call 1 as a segment: entered with every unscoped buffer at `W3`, left with them at `W4`. Its
    arrays are split out of the unscoped buffers and put back at what its write-backs leave; the generator register goes
    into the invariant and comes back; nothing is owed; the kernel has no semaphore of its own. -/
def reg1 : Pipeline.RegionSeg (pcfgs (F := F)) tadm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (U3 m ρ c)
  hentry c := by
    rw [Pipeline.ownSems0_none]
    have hsplit := Pipeline.arrays_of_unscopedBufs (p := 1) (pcfgs (F := F)) tadm (pdats m ρ) launch1.win launch1.arr_whole c
      ((pdats m ρ 1 c).share_full fun _ => rfl) (U3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) tadm (Ix := Unit) (Name := ℕ) (U := UR sig nD τ) (Lvl := ℕ)
      launch1.win launch1.arr_whole c (pdats m ρ) ((pdats m ρ 1 c).share_full fun _ => rfl)
      (U3 m ρ c) (U4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev tsegs : List (Pipeline.Seg (pcfgs (F := F)) tadm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (tsegs m ρ) := (main_chain c).trans (by chain_rfl)

set_option backward.isDefEq.respectTransparency.types false in
/-- THE RUN: from any memory with zero counters every weakly fair execution of @main terminates, nothing faulting, and in
    every final state every unscoped buffer holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) tadm (pdats m ρ) () cellOf_inj emb₁ defs₀ 𝒱₀ L lv m ρ main (tsegs m ρ)
    (fun c Q => by rw [main_run m ρ c])
    (by simp only [tsegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c)⟩) (run_all m ρ)

/-- The result buffer ends at what the second pallas_call's write-backs leave in it. -/
theorem result_eq (r : PUnit × MemSt nD τ sig (Elt F)) (h : ∀ c : Dev nD, ∀ b ∈ Pipeline.ucRefs τ sig, r.2.mem (((c : Thread nD τ)).1, b) = W4 m ρ c b) (c : Dev nD) :
    r.2.mem ((c.tc : Thread nD τ).loc main_v23) = (dat1 (U3 m ρ) c).arrAt 6 cfg1.N :=
  (h c _ (mem_uc main_v23 (by decide))).trans (W4_arr m ρ c 6)

end Cert.Kernel.Hand

end
-- ==== Proof.KI.Kit.lean ====
/-
  What the two pallas_calls' proofs share. The first call (200 grid points, blocks of 500 voxels) keeps a running
  [2,16] table of per-channel sums and sums of squares in a scratch buffer: it is zeroed at the first point, added to at
  every point, and copied to the output block at the last point only. Here: the two branch conditions of that body in
  closed form over the grid, at which points its output window is idle and written back, the staging memrefs as the
  pipeline passes them, and — for both calls, at a parameter `V` for the buffer contents the call is entered
  with — a window's block at a point read off its array, which is what an input's staging buffer holds there.
-/
import proofs.«128887_j13331578487174_2_alg».proof.Proof.Gen.KernelIdeal.Launch
import proofs.«128887_j13331578487174_2_alg».proof.Proof.Gen.KernelIdeal.Skeleton
import proofs.«128887_j13331578487174_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The first call's branch conditions -/

/-- "This is the first grid point": the condition under which the running sums are zeroed. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val = 0 :=
  (by decide +kernel : ∀ t : Fin grid0.N, cond0_0 (grid0.coords t) ↔ t.val = 0)

/-- "This is the last grid point" (199): the condition under which the running sums are copied out. -/
abbrev cond0_1 (i : grid0.Coords) : Prop := k0_cond2 i = 1#1
theorem hcond0_1 : ∀ t : Fin cfg0.N, cond0_1 (grid0.coords t) ↔ t.val = 199 :=
  (by decide +kernel : ∀ t : Fin grid0.N, cond0_1 (grid0.coords t) ↔ t.val = 199)

/-! ## Where the first call's windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Before the last point the output window is idle (nothing is stored into it) and is not written back. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
/-- At the last point it is live. -/
theorem liveAt0_3 : ∀ t : Fin cfg0.N, cond0_1 (grid0.coords t) → cfg0.idle 3 (grid0.coords t) = false := by decide +kernel

/-! ## The first call's memrefs, spelled as the pipeline passes them -/

abbrev ms0_0 (t : Fin cfg0.N) : Memref sig .tc .vmem S500x35x7 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S7x16 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x16 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2x16 .f32 := win0_3.stage (cfg0.slots t 3)
abbrev hs0_3 (t : Fin cfg0.N) : (ms0_3 t).IsWhole := hstage0_3 ((cfg0.slots t 3).cast nbuf0_3)
/-- The scratch buffer holding the running sums, and the views through which contents are stated. -/
abbrev scM0_0 : Memref sig .tc .vmem S2x16 .f32 := Memref.whole cc0_scratch0
abbrev VS0_0 : View sig .tc .vmem S2x16 .f32 := scM0_0.view
abbrev VO0_3 : View sig .tc .vmem S2x16 .f32 := (Memref.whole cc0_stg3_0 : Memref sig .tc .vmem S2x16 .f32).view

/-- The invariant a body that names no scratch keeps, with the first call's scratch split out of it: the scratch at
    some contents, the second call's staging buffers at some contents, the generator register at some state. -/
def restOf1 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f))

theorem PhiA0_eq (c : Dev nD) :
    (Pipeline.ΦA spec0 c : sProp 𝕄)
      = iprop(iprop((∃ d, owns (c : Thread nD τ) scM0_0 fullShare d) ∗ restOf1 c) ∗ (∃ r, prngReg c r)) := by
  unfold Pipeline.ΦA restOf1; rw [scopedRest0_eq]; simp only [scM0_0, owns_whole]; try rfl

section Regions
variable (V : (c : Dev nD) → (b : Ref sig .tc) → Buf (Elt F) ((c : Thread nD τ).loc b))

/-! ## A window's block at a grid point, read off its array as the call finds it -/

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 of pallas_call 0: its current staging buffer holds the array's block at every grid point, whether
    the point fetched it or not (an unfetched point has the same block index as the one before). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 of pallas_call 0: its current staging buffer holds the array's block at every grid point, whether
    the point fetched it or not (an unfetched point has the same block index as the one before). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2 of pallas_call 0: its current staging buffer holds the array's block at every grid point, whether
    the point fetched it or not (an unfetched point has the same block index as the one before). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 0 of pallas_call 1: its current staging buffer holds the array's block at every grid point, whether
    the point fetched it or not (an unfetched point has the same block index as the one before). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 of pallas_call 1: its current staging buffer holds the array's block at every grid point, whether
    the point fetched it or not (an unfetched point has the same block index as the one before). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2 of pallas_call 1: its current staging buffer holds the array's block at every grid point, whether
    the point fetched it or not (an unfetched point has the same block index as the one before). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3 of pallas_call 1: its current staging buffer holds the array's block at every grid point, whether
    the point fetched it or not (an unfetched point has the same block index as the one before). -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4 of pallas_call 1: its current staging buffer holds the array's block at every grid point, whether
    the point fetched it or not (an unfetched point has the same block index as the one before). -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5 of pallas_call 1: its current staging buffer holds the array's block at every grid point, whether
    the point fetched it or not (an unfetched point has the same block index as the one before). -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

end Regions

end Cert.KernelIdeal.Hand

end
-- ==== Proof.KI.Run0A.lean ====
/-
  The first pallas_call's body at the FIRST grid point: the running sums are zeroed, then this block's sums are added; nothing is copied out.
  The run of the body on whole memrefs, with what its stores leave in the scratch (and, at the last point, in the output
  buffer) as the list of pieces the run finds.
-/
import proofs.«128887_j13331578487174_2_alg».proof.Proof.KI.Kit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_A (c : Dev nD) (i : grid0.Coords) (arg1 : Memref sig .tc .vmem S500x35x7 .f32) (harg1 : arg1.IsWhole) (arg2 : Memref sig .tc .vmem S7x16 .f32) (harg2 : arg2.IsWhole) (arg3 : Memref sig .tc .vmem S1x16 .f32) (harg3 : arg3.IsWhole) (arg4 : Memref sig .tc .vmem S2x16 .f32) (harg4 : arg4.IsWhole) (arg5 : Memref sig .tc .vmem S2x16 .f32) (harg5 : arg5.IsWhole) (hc0 : cond0_0 i) (hc1 : ¬cond0_1 i)
    (x0 : Vec F S500x35x7 .f32) (x1 : Vec F S7x16 .f32) (x2 : Vec F S1x16 .f32) :
    Σ' (L3 : List (View.Piece (Elt F) S2x16 .f32)), { LS0 : List (View.Piece (Elt F) S2x16 .f32) //
      ∀ (xi3 : Vec F S2x16 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xi3 ∗ (∃ d, owns (c : Thread nD τ) arg5 fullShare d)
            ∗ (iprop(owns (c : Thread nD τ) arg1 fullShare x0 ∗ owns (c : Thread nD τ) arg2 fullShare x1 ∗ owns (c : Thread nD τ) arg3 fullShare x2 ∗ owns (c : Thread nD τ) arg4 fullShare xi3 ∗ (∃ f, arg5.view.loc (c : Thread nD τ) ↦[arg5.view.set]{fullShare} arg5.view.writes (Elt F) f LS0)) -∗ K ⟨⟩))
          ⊢ wp frame (wpE (defs₀ (F := F)) Variants.none c none) E (cc0__stats_kernel i arg1 harg1 arg2 harg2 arg3 harg3 arg4 harg4 arg5 harg5) K } := by
  refine ⟨[], ?_, fun xi3 E K => ?run⟩
  case run =>
    simp only [cc0__stats_kernel_eq_skeleton]; unfold cc0__stats_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg1.eq_unread hf0; obtain rfl := harg2.eq_unread hf1; obtain rfl := harg3.eq_unread hf2; obtain rfl := harg4.eq_unread hf3
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact HS0

end Cert.KernelIdeal.Hand

end
-- ==== Proof.KI.Run0B.lean ====
/-
  The first pallas_call's body at a MIDDLE grid point: this block's sums are added to the running sums found in the scratch; nothing is copied out.
  The run of the body on whole memrefs, with what its stores leave in the scratch (and, at the last point, in the output
  buffer) as the list of pieces the run finds.
-/
import proofs.«128887_j13331578487174_2_alg».proof.Proof.KI.Run0A

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_B (c : Dev nD) (i : grid0.Coords) (arg1 : Memref sig .tc .vmem S500x35x7 .f32) (harg1 : arg1.IsWhole) (arg2 : Memref sig .tc .vmem S7x16 .f32) (harg2 : arg2.IsWhole) (arg3 : Memref sig .tc .vmem S1x16 .f32) (harg3 : arg3.IsWhole) (arg4 : Memref sig .tc .vmem S2x16 .f32) (harg4 : arg4.IsWhole) (arg5 : Memref sig .tc .vmem S2x16 .f32) (harg5 : arg5.IsWhole) (hc0 : ¬cond0_0 i) (hc1 : ¬cond0_1 i)
    (x0 : Vec F S500x35x7 .f32) (x1 : Vec F S7x16 .f32) (x2 : Vec F S1x16 .f32) (xs0 : Vec F S2x16 .f32) :
    Σ' (L3 : List (View.Piece (Elt F) S2x16 .f32)), { LS0 : List (View.Piece (Elt F) S2x16 .f32) //
      ∀ (xi3 : Vec F S2x16 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xi3 ∗ owns (c : Thread nD τ) arg5 fullShare xs0
            ∗ (iprop(owns (c : Thread nD τ) arg1 fullShare x0 ∗ owns (c : Thread nD τ) arg2 fullShare x1 ∗ owns (c : Thread nD τ) arg3 fullShare x2 ∗ owns (c : Thread nD τ) arg4 fullShare xi3 ∗ (∃ f, arg5.view.loc (c : Thread nD τ) ↦[arg5.view.set]{fullShare} arg5.view.writes (Elt F) f LS0)) -∗ K ⟨⟩))
          ⊢ wp frame (wpE (defs₀ (F := F)) Variants.none c none) E (cc0__stats_kernel i arg1 harg1 arg2 harg2 arg3 harg3 arg4 harg4 arg5 harg5) K } := by
  refine ⟨[], ?_, fun xi3 E K => ?run⟩
  case run =>
    simp only [cc0__stats_kernel_eq_skeleton]; unfold cc0__stats_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact HS0

end Cert.KernelIdeal.Hand

end
-- ==== Proof.KI.Run0C.lean ====
/-
  The first pallas_call's body at the LAST grid point: this block's sums are added to the running sums, and the total is copied to the output block.
  The run of the body on whole memrefs, with what its stores leave in the scratch (and, at the last point, in the output
  buffer) as the list of pieces the run finds.
-/
import proofs.«128887_j13331578487174_2_alg».proof.Proof.KI.Run0B

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_C (c : Dev nD) (i : grid0.Coords) (arg1 : Memref sig .tc .vmem S500x35x7 .f32) (harg1 : arg1.IsWhole) (arg2 : Memref sig .tc .vmem S7x16 .f32) (harg2 : arg2.IsWhole) (arg3 : Memref sig .tc .vmem S1x16 .f32) (harg3 : arg3.IsWhole) (arg4 : Memref sig .tc .vmem S2x16 .f32) (harg4 : arg4.IsWhole) (arg5 : Memref sig .tc .vmem S2x16 .f32) (harg5 : arg5.IsWhole) (hc0 : ¬cond0_0 i) (hc1 : cond0_1 i)
    (x0 : Vec F S500x35x7 .f32) (x1 : Vec F S7x16 .f32) (x2 : Vec F S1x16 .f32) (xs0 : Vec F S2x16 .f32) :
    Σ' (L3 : List (View.Piece (Elt F) S2x16 .f32)), { LS0 : List (View.Piece (Elt F) S2x16 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare xs0
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f LS0)) -∗ K ⟨⟩))
          ⊢ wp frame (wpE (defs₀ (F := F)) Variants.none c none) E (cc0__stats_kernel i arg1 harg1 arg2 harg2 arg3 harg3 arg4 harg4 arg5 harg5) K } := by
  refine ⟨?_, ?_, fun E K => ?run⟩
  case run =>
    simp only [cc0__stats_kernel_eq_skeleton]; unfold cc0__stats_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg1.eq_unread hf0; obtain rfl := harg2.eq_unread hf1; obtain rfl := harg3.eq_unread hf2; obtain rfl := harg5.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    iexists _; iexact HS0

end Cert.KernelIdeal.Hand

end
-- ==== Proof.KI.Region0.lean ====
/-
  The first pallas_call, at a parameter `V` (the buffer contents the call is entered with). Its body keeps a [2,16]
  table of running sums in a scratch buffer across the 200 grid points. What the scratch and the output window's buffer
  hold after each point is defined by recursion on the point: the first point's run from anything, every later point's
  run from what the point before left. The invariant carried between points says exactly that about the scratch. Then
  the proof data, and the body obligation by cases on the kind of point (first / middle / last).
-/
import proofs.«128887_j13331578487174_2_alg».proof.Proof.KI.Run0C

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Point kind A: the pieces found for the scratch cover it (whole-buffer stores). -/
theorem scover0_A_0 (c : Dev nD) (i : grid0.Coords) (arg1 : Memref sig .tc .vmem S500x35x7 .f32) (harg1 : arg1.IsWhole) (arg2 : Memref sig .tc .vmem S7x16 .f32) (harg2 : arg2.IsWhole) (arg3 : Memref sig .tc .vmem S1x16 .f32) (harg3 : arg3.IsWhole) (arg4 : Memref sig .tc .vmem S2x16 .f32) (harg4 : arg4.IsWhole) (arg5 : Memref sig .tc .vmem S2x16 .f32) (harg5 : arg5.IsWhole) (hc0 : cond0_0 i) (hc1 : ¬cond0_1 i)
    (x0 : Vec F S500x35x7 .f32) (x1 : Vec F S7x16 .f32) (x2 : Vec F S1x16 .f32) (y : S2x16.Idx) :
    ∃ pc ∈ (kernelRun0_A c i arg1 harg1 arg2 harg2 arg3 harg3 arg4 harg4 arg5 harg5 hc0 hc1 x0 x1 x2).2.1, y ∈ pc.1.set :=
  View.cover_of_tiledL (kernelRun0_A c i arg1 harg1 arg2 harg2 arg3 harg3 arg4 harg4 arg5 harg5 hc0 hc1 x0 x1 x2).2.1 S2x16.size (by sl_kernel_rfl) y

/-- What a point of kind A leaves in the scratch: its pieces read back. -/
def sout0_A_0 (c : Dev nD) (i : grid0.Coords) (arg1 : Memref sig .tc .vmem S500x35x7 .f32) (harg1 : arg1.IsWhole) (arg2 : Memref sig .tc .vmem S7x16 .f32) (harg2 : arg2.IsWhole) (arg3 : Memref sig .tc .vmem S1x16 .f32) (harg3 : arg3.IsWhole) (arg4 : Memref sig .tc .vmem S2x16 .f32) (harg4 : arg4.IsWhole) (arg5 : Memref sig .tc .vmem S2x16 .f32) (harg5 : arg5.IsWhole) (hc0 : cond0_0 i) (hc1 : ¬cond0_1 i)
    (x0 : Vec F S500x35x7 .f32) (x1 : Vec F S7x16 .f32) (x2 : Vec F S1x16 .f32) : Vec F S2x16 .f32 :=
  VS0_0.read (Elt F) (VS0_0.writes (Elt F) VS0_0.junk (kernelRun0_A c i arg1 harg1 arg2 harg2 arg3 harg3 arg4 harg4 arg5 harg5 hc0 hc1 x0 x1 x2).2.1)

/-- What a point of kind A leaves in the output window's buffer (nothing is stored: a placeholder nobody reads, the window being idle and not written back there). -/
def out0_A_3 (c : Dev nD) (i : grid0.Coords) (arg1 : Memref sig .tc .vmem S500x35x7 .f32) (harg1 : arg1.IsWhole) (arg2 : Memref sig .tc .vmem S7x16 .f32) (harg2 : arg2.IsWhole) (arg3 : Memref sig .tc .vmem S1x16 .f32) (harg3 : arg3.IsWhole) (arg4 : Memref sig .tc .vmem S2x16 .f32) (harg4 : arg4.IsWhole) (arg5 : Memref sig .tc .vmem S2x16 .f32) (harg5 : arg5.IsWhole) (hc0 : cond0_0 i) (hc1 : ¬cond0_1 i)
    (x0 : Vec F S500x35x7 .f32) (x1 : Vec F S7x16 .f32) (x2 : Vec F S1x16 .f32) : Vec F S2x16 .f32 :=
  VO0_3.read (Elt F) (VO0_3.writes (Elt F) VO0_3.junk (kernelRun0_A c i arg1 harg1 arg2 harg2 arg3 harg3 arg4 harg4 arg5 harg5 hc0 hc1 x0 x1 x2).1)

/-- Point kind B: the pieces found for the scratch cover it (whole-buffer stores). -/
theorem scover0_B_0 (c : Dev nD) (i : grid0.Coords) (arg1 : Memref sig .tc .vmem S500x35x7 .f32) (harg1 : arg1.IsWhole) (arg2 : Memref sig .tc .vmem S7x16 .f32) (harg2 : arg2.IsWhole) (arg3 : Memref sig .tc .vmem S1x16 .f32) (harg3 : arg3.IsWhole) (arg4 : Memref sig .tc .vmem S2x16 .f32) (harg4 : arg4.IsWhole) (arg5 : Memref sig .tc .vmem S2x16 .f32) (harg5 : arg5.IsWhole) (hc0 : ¬cond0_0 i) (hc1 : ¬cond0_1 i)
    (x0 : Vec F S500x35x7 .f32) (x1 : Vec F S7x16 .f32) (x2 : Vec F S1x16 .f32) (xs0 : Vec F S2x16 .f32) (y : S2x16.Idx) :
    ∃ pc ∈ (kernelRun0_B c i arg1 harg1 arg2 harg2 arg3 harg3 arg4 harg4 arg5 harg5 hc0 hc1 x0 x1 x2 xs0).2.1, y ∈ pc.1.set :=
  View.cover_of_tiledL (kernelRun0_B c i arg1 harg1 arg2 harg2 arg3 harg3 arg4 harg4 arg5 harg5 hc0 hc1 x0 x1 x2 xs0).2.1 S2x16.size (by sl_kernel_rfl) y

/-- What a point of kind B leaves in the scratch: its pieces read back. -/
def sout0_B_0 (c : Dev nD) (i : grid0.Coords) (arg1 : Memref sig .tc .vmem S500x35x7 .f32) (harg1 : arg1.IsWhole) (arg2 : Memref sig .tc .vmem S7x16 .f32) (harg2 : arg2.IsWhole) (arg3 : Memref sig .tc .vmem S1x16 .f32) (harg3 : arg3.IsWhole) (arg4 : Memref sig .tc .vmem S2x16 .f32) (harg4 : arg4.IsWhole) (arg5 : Memref sig .tc .vmem S2x16 .f32) (harg5 : arg5.IsWhole) (hc0 : ¬cond0_0 i) (hc1 : ¬cond0_1 i)
    (x0 : Vec F S500x35x7 .f32) (x1 : Vec F S7x16 .f32) (x2 : Vec F S1x16 .f32) (xs0 : Vec F S2x16 .f32) : Vec F S2x16 .f32 :=
  VS0_0.read (Elt F) (VS0_0.writes (Elt F) VS0_0.junk (kernelRun0_B c i arg1 harg1 arg2 harg2 arg3 harg3 arg4 harg4 arg5 harg5 hc0 hc1 x0 x1 x2 xs0).2.1)

/-- What a point of kind B leaves in the output window's buffer (nothing is stored: a placeholder nobody reads, the window being idle and not written back there). -/
def out0_B_3 (c : Dev nD) (i : grid0.Coords) (arg1 : Memref sig .tc .vmem S500x35x7 .f32) (harg1 : arg1.IsWhole) (arg2 : Memref sig .tc .vmem S7x16 .f32) (harg2 : arg2.IsWhole) (arg3 : Memref sig .tc .vmem S1x16 .f32) (harg3 : arg3.IsWhole) (arg4 : Memref sig .tc .vmem S2x16 .f32) (harg4 : arg4.IsWhole) (arg5 : Memref sig .tc .vmem S2x16 .f32) (harg5 : arg5.IsWhole) (hc0 : ¬cond0_0 i) (hc1 : ¬cond0_1 i)
    (x0 : Vec F S500x35x7 .f32) (x1 : Vec F S7x16 .f32) (x2 : Vec F S1x16 .f32) (xs0 : Vec F S2x16 .f32) : Vec F S2x16 .f32 :=
  VO0_3.read (Elt F) (VO0_3.writes (Elt F) VO0_3.junk (kernelRun0_B c i arg1 harg1 arg2 harg2 arg3 harg3 arg4 harg4 arg5 harg5 hc0 hc1 x0 x1 x2 xs0).1)

/-- Point kind C: the pieces found for the scratch cover it (whole-buffer stores). -/
theorem scover0_C_0 (c : Dev nD) (i : grid0.Coords) (arg1 : Memref sig .tc .vmem S500x35x7 .f32) (harg1 : arg1.IsWhole) (arg2 : Memref sig .tc .vmem S7x16 .f32) (harg2 : arg2.IsWhole) (arg3 : Memref sig .tc .vmem S1x16 .f32) (harg3 : arg3.IsWhole) (arg4 : Memref sig .tc .vmem S2x16 .f32) (harg4 : arg4.IsWhole) (arg5 : Memref sig .tc .vmem S2x16 .f32) (harg5 : arg5.IsWhole) (hc0 : ¬cond0_0 i) (hc1 : cond0_1 i)
    (x0 : Vec F S500x35x7 .f32) (x1 : Vec F S7x16 .f32) (x2 : Vec F S1x16 .f32) (xs0 : Vec F S2x16 .f32) (y : S2x16.Idx) :
    ∃ pc ∈ (kernelRun0_C c i arg1 harg1 arg2 harg2 arg3 harg3 arg4 harg4 arg5 harg5 hc0 hc1 x0 x1 x2 xs0).2.1, y ∈ pc.1.set :=
  View.cover_of_tiledL (kernelRun0_C c i arg1 harg1 arg2 harg2 arg3 harg3 arg4 harg4 arg5 harg5 hc0 hc1 x0 x1 x2 xs0).2.1 S2x16.size (by sl_kernel_rfl) y

/-- What a point of kind C leaves in the scratch: its pieces read back. -/
def sout0_C_0 (c : Dev nD) (i : grid0.Coords) (arg1 : Memref sig .tc .vmem S500x35x7 .f32) (harg1 : arg1.IsWhole) (arg2 : Memref sig .tc .vmem S7x16 .f32) (harg2 : arg2.IsWhole) (arg3 : Memref sig .tc .vmem S1x16 .f32) (harg3 : arg3.IsWhole) (arg4 : Memref sig .tc .vmem S2x16 .f32) (harg4 : arg4.IsWhole) (arg5 : Memref sig .tc .vmem S2x16 .f32) (harg5 : arg5.IsWhole) (hc0 : ¬cond0_0 i) (hc1 : cond0_1 i)
    (x0 : Vec F S500x35x7 .f32) (x1 : Vec F S7x16 .f32) (x2 : Vec F S1x16 .f32) (xs0 : Vec F S2x16 .f32) : Vec F S2x16 .f32 :=
  VS0_0.read (Elt F) (VS0_0.writes (Elt F) VS0_0.junk (kernelRun0_C c i arg1 harg1 arg2 harg2 arg3 harg3 arg4 harg4 arg5 harg5 hc0 hc1 x0 x1 x2 xs0).2.1)

/-- At the last point the one store into the output buffer covers it. -/
theorem cover0_C_3 (c : Dev nD) (i : grid0.Coords) (arg1 : Memref sig .tc .vmem S500x35x7 .f32) (harg1 : arg1.IsWhole) (arg2 : Memref sig .tc .vmem S7x16 .f32) (harg2 : arg2.IsWhole) (arg3 : Memref sig .tc .vmem S1x16 .f32) (harg3 : arg3.IsWhole) (arg4 : Memref sig .tc .vmem S2x16 .f32) (harg4 : arg4.IsWhole) (arg5 : Memref sig .tc .vmem S2x16 .f32) (harg5 : arg5.IsWhole) (hc0 : ¬cond0_0 i) (hc1 : cond0_1 i)
    (x0 : Vec F S500x35x7 .f32) (x1 : Vec F S7x16 .f32) (x2 : Vec F S1x16 .f32) (xs0 : Vec F S2x16 .f32) (y : S2x16.Idx) :
    ∃ pc ∈ (kernelRun0_C c i arg1 harg1 arg2 harg2 arg3 harg3 arg4 harg4 arg5 harg5 hc0 hc1 x0 x1 x2 xs0).1, y ∈ pc.1.set :=
  View.cover_of_tiledL (kernelRun0_C c i arg1 harg1 arg2 harg2 arg3 harg3 arg4 harg4 arg5 harg5 hc0 hc1 x0 x1 x2 xs0).1 S2x16.size (by sl_kernel_rfl) y

/-- What a point of kind C leaves in the output window's buffer. -/
def out0_C_3 (c : Dev nD) (i : grid0.Coords) (arg1 : Memref sig .tc .vmem S500x35x7 .f32) (harg1 : arg1.IsWhole) (arg2 : Memref sig .tc .vmem S7x16 .f32) (harg2 : arg2.IsWhole) (arg3 : Memref sig .tc .vmem S1x16 .f32) (harg3 : arg3.IsWhole) (arg4 : Memref sig .tc .vmem S2x16 .f32) (harg4 : arg4.IsWhole) (arg5 : Memref sig .tc .vmem S2x16 .f32) (harg5 : arg5.IsWhole) (hc0 : ¬cond0_0 i) (hc1 : cond0_1 i)
    (x0 : Vec F S500x35x7 .f32) (x1 : Vec F S7x16 .f32) (x2 : Vec F S1x16 .f32) (xs0 : Vec F S2x16 .f32) : Vec F S2x16 .f32 :=
  VO0_3.read (Elt F) (VO0_3.writes (Elt F) VO0_3.junk (kernelRun0_C c i arg1 harg1 arg2 harg2 arg3 harg3 arg4 harg4 arg5 harg5 hc0 hc1 x0 x1 x2 xs0).1)

section Regions
variable (V : (c : Dev nD) → (b : Ref sig .tc) → Buf (Elt F) ((c : Thread nD τ).loc b))

/-! ## The running sums, point by point -/

/-- After the body at position `n`: (the output window's buffer, the scratch). -/
def outsAt0 (c : Dev nD) : (n : ℕ) → n < cfg0.N → Vec F S2x16 .f32 × Vec F S2x16 .f32
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr rfl) (fun h => (by decide : ¬(0 : ℕ) = 199) ((hcond0_1 ⟨0, hn⟩).mp h)) (iblk0 V c 0 ⟨0, hn⟩) (iblk0 V c 1 ⟨0, hn⟩) (iblk0 V c 2 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr rfl) (fun h => (by decide : ¬(0 : ℕ) = 199) ((hcond0_1 ⟨0, hn⟩).mp h)) (iblk0 V c 0 ⟨0, hn⟩) (iblk0 V c 1 ⟨0, hn⟩) (iblk0 V c 2 ⟨0, hn⟩))
  | n + 1, hn =>
    if h1 : n + 1 = 199 then
      (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => Nat.succ_ne_zero n ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => Nat.succ_ne_zero n ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2)
    else
      (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => Nat.succ_ne_zero n ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => Nat.succ_ne_zero n ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2)

theorem outsAt0_A (c : Dev nD) (t : Fin cfg0.N) (h0 : t.val = 0) (h1 : ¬t.val = 199) :
    outsAt0 V c t.val t.isLt = (out0_A_3 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk0 V c 0 t) (iblk0 V c 1 t) (iblk0 V c 2 t), sout0_A_0 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk0 V c 0 t) (iblk0 V c 1 t) (iblk0 V c 2 t)) := by
  obtain ⟨n, hn⟩ := t
  cases n with
  | zero => exact rfl
  | succ n => exact absurd h0 (Nat.succ_ne_zero n)

theorem outsAt0_B (c : Dev nD) (t : Fin cfg0.N) (h0 : ¬t.val = 0) (h1 : ¬t.val = 199) :
    outsAt0 V c t.val t.isLt = (out0_B_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact absurd rfl h0
  | succ n => exact (dif_neg h1).trans rfl

theorem outsAt0_C (c : Dev nD) (t : Fin cfg0.N) (h0 : ¬t.val = 0) (h1 : t.val = 199) :
    outsAt0 V c t.val t.isLt = (out0_C_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact absurd rfl h0
  | succ n => exact (dif_pos h1).trans rfl

/-! ## The invariant carried between points -/

/-- Before position `n`: at the start, the scratch at anything; afterwards, the scratch at what the point before left. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ restOf1 c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2) ∗ restOf1 c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2) ∗ restOf1 c) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point. The inputs' buffers hold their blocks; the closed forms say which kind of point it is; the
    invariant hands the body the scratch (at anything at the first point, at what the point before left afterwards) and
    takes it back at this point's contents; before the last point the output buffer is handed back untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS V c (t.val + 1) t.isLt from rfl, PhiS_succ]
  have hN : t.val < 200 := lt_of_lt_of_eq t.isLt (show cfg0.N = 200 from N_0)
  rw [show (dat0 V c).leavesExact 0 t = owns (c : Thread nD τ) (ms0_0 t) fullShare ((dat0 V c).after 0 t) from by
      unfold Dat.leavesExact; rw [liveAt0_0 t], after0_0]
  rw [show (dat0 V c).leavesExact 1 t = owns (c : Thread nD τ) (ms0_1 t) fullShare ((dat0 V c).after 1 t) from by
      unfold Dat.leavesExact; rw [liveAt0_1 t], after0_1]
  rw [show (dat0 V c).leavesExact 2 t = owns (c : Thread nD τ) (ms0_2 t) fullShare ((dat0 V c).after 2 t) from by
      unfold Dat.leavesExact; rw [liveAt0_2 t], after0_2]
  by_cases h0 : t.val = 0
  · have h1 : ¬t.val = 199 := by omega
    rw [Dat.leavesExact_idle (dat0 V c) 3 t (idleAt0_3 t (fun h => h1 ((hcond0_1 t).mp h))) (noFlush0_3 t (fun h => h1 ((hcond0_1 t).mp h)))]
    rw [outsAt0_A V c t h0 h1]
    unfold sout0_A_0; (try dsimp only)
    rw [PhiS_castSucc V c t, PhiS_zero V c _ _ h0, PhiA0_eq]
    iintro ⟨⟨⟨HS0, Hrest⟩, Hg⟩, Ho, ⟨%d0, H0⟩, ⟨%d1, H1⟩, ⟨%d2, H2⟩, ⟨%d3, H3⟩⟩
    iapply ((kernelRun0_A c (grid0.coords t) _ _ _ _ _ _ _ _ _ _ ((hcond0_0 t).mpr h0) (fun h => h1 ((hcond0_1 t).mp h)) (iblk0 V c 0 t) (iblk0 V c 1 t) (iblk0 V c 2 t)).2.2 _ Set.univ _)
    isplitl [H0]; · iexact H0
    isplitl [H1]; · iexact H1
    isplitl [H2]; · iexact H2
    isplitl [H3]; · iexact H3
    isplitl [HS0]; · iexact HS0
    iintro ⟨H0, H1, H2, H3, ⟨%es0, HS0⟩⟩
    isplitl [HS0 Hrest Hg]
    · isplitl [HS0 Hrest]
      · isplitl [HS0]
        · unfold owns; iexists _; isplitr
          swap; · iexact HS0
          ipureintro; exact View.read_writes_of_cover _ _ _ _ _ (scover0_A_0 c _ _ _ _ _ _ _ _ _ _ _ _ _ _ _ _)
        iexact Hrest
      iexact Hg
    isplitl [Ho]; · iexact Ho
    isplitl [H0]; · iexact H0
    isplitl [H1]; · iexact H1
    isplitl [H2]; · iexact H2
    iexists _; iexact H3
  · by_cases h1 : t.val = 199
    · rw [show (dat0 V c).leavesExact 3 t = owns (c : Thread nD τ) (ms0_3 t) fullShare ((dat0 V c).after 3 t) from by
        unfold Dat.leavesExact; rw [liveAt0_3 t ((hcond0_1 t).mpr h1)], after0_3]
      rw [outsAt0_C V c t h0 h1]
      unfold out0_C_3 sout0_C_0; (try dsimp only)
      rw [PhiS_castSucc V c t, PhiS_pos V c _ _ h0]
      iintro ⟨⟨⟨HS0, Hrest⟩, Hg⟩, Ho, ⟨%d0, H0⟩, ⟨%d1, H1⟩, ⟨%d2, H2⟩, ⟨%d3, H3⟩⟩
      iapply ((kernelRun0_C c (grid0.coords t) _ _ _ _ _ _ _ _ _ _ (fun h => h0 ((hcond0_0 t).mp h)) ((hcond0_1 t).mpr h1) (iblk0 V c 0 t) (iblk0 V c 1 t) (iblk0 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover0_C_0 c _ _ _ _ _ _ _ _ _ _ _ _ _ _ _ _ _)
          iexact Hrest
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_C_3 c _ _ _ _ _ _ _ _ _ _ _ _ _ _ _ _ _)
    · rw [Dat.leavesExact_idle (dat0 V c) 3 t (idleAt0_3 t (fun h => h1 ((hcond0_1 t).mp h))) (noFlush0_3 t (fun h => h1 ((hcond0_1 t).mp h)))]
      rw [outsAt0_B V c t h0 h1]
      unfold sout0_B_0; (try dsimp only)
      rw [PhiS_castSucc V c t, PhiS_pos V c _ _ h0]
      iintro ⟨⟨⟨HS0, Hrest⟩, Hg⟩, Ho, ⟨%d0, H0⟩, ⟨%d1, H1⟩, ⟨%d2, H2⟩, ⟨%d3, H3⟩⟩
      iapply ((kernelRun0_B c (grid0.coords t) _ _ _ _ _ _ _ _ _ _ (fun h => h0 ((hcond0_0 t).mp h)) (fun h => h1 ((hcond0_1 t).mp h)) (iblk0 V c 0 t) (iblk0 V c 1 t) (iblk0 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover0_B_0 c _ _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3

theorem body_obligation0 (c : Dev nD) : BodyObligation (dat0 (F := F) V c) (defs₀ (F := F)) Variants.none () Set.univ := fun t => by
  rw [bigSep_W0, bigSep_W0]
  exact sound_body0 V c t

/-- What the call is entered with is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point the invariant gives the plain one back: what the scratch holds is forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, Hrest⟩, Hg⟩
  isplitl [HS0 Hrest]
  · isplitl [HS0]
    · iexists _; iexact HS0
    iexact Hrest
  iexact Hg

theorem hout0 (c : Dev nD) : (dat0 V c).Φ (Fin.last cfg0.N) ⊢ Pipeline.ΦA spec0 c :=
  Phi_out0 V c _ (by rw [Fin.val_last]; have : cfg0.N = 200 := N_0; omega)

end Regions

end Cert.KernelIdeal.Hand

end
-- ==== Proof.KI.Body1.lean ====
/-
  The second pallas_call's body at one grid point (a block of 250 voxels). It loads the block of inputs, the mask block,
  the transposed weight, the bias row, the scale row and the shift row, and stores ONE whole [250,35,32] block: the
  value is a pure function of those six loads. Stated here: that function as the block's contents, and the body's run
  on whole staging memrefs — the inputs come back as they were, the output buffer ends holding that block.
-/
import proofs.«128887_j13331578487174_2_alg».proof.Proof.KI.Kit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev r1_x : Rect S250x35x7 := Rect.unit (s := S250x35x7) ![0, 0, 0] S250x35x7.size inb_S250x35x7_S250x35x7_0_0_0
abbrev r1_m : Rect S250x35x1 := Rect.unit (s := S250x35x1) ![0, 0, 0] S250x35x1.size inb_S250x35x1_S250x35x1_0_0_0
abbrev r1_w : Rect S7x16 := Rect.unit (s := S7x16) ![0, 0] S7x16.size inb_S7x16_S7x16_0_0
abbrev r1_v : Rect S1x16 := Rect.unit (s := S1x16) ![0, 0] S1x16.size inb_S1x16_S1x16_0_0
abbrev r1_o : Rect S250x35x32 := Rect.unit (s := S250x35x32) ![0, 0, 0] S250x35x32.size inb_S250x35x32_S250x35x32_0_0_0

/-- What the body leaves in the output window's buffer, from the six input blocks: its one store, over the whole block. -/
def out1_6 (x0 : Vec F S250x35x7 .f32) (x1 : Vec F S250x35x1 .i32) (x2 : Vec F S7x16 .f32) (x3 : Vec F S1x16 .f32) (x4 : Vec F S1x16 .f32) (x5 : Vec F S1x16 .f32) : Vec F S250x35x32 .f32 :=
  View.canon [⟨r1_o, k1_pay1 (View.ld x0 r1_x) (View.ld x2 r1_w) (View.ld x3 r1_v) (View.ld x4 r1_v) (View.ld x5 r1_v) (View.ld x1 r1_m)⟩]

/-- The one store covers the block. -/
theorem cover1_6 (p0 : Vec F S250x35x32 .f32) (y : S250x35x32.Idx) :
    ∃ pc ∈ ([⟨r1_o, p0⟩] : List (View.Piece (Elt F) S250x35x32 .f32)), y ∈ pc.1.set :=
  View.cover_of_tiled [⟨r1_o, p0⟩] S250x35x32.size (by rfl) y

set_option maxHeartbeats 4000000 in
/-- The body on whole staging memrefs: the six inputs at read contents, the output at anything; it runs to the
    continuation holding the inputs as they were and the output at `out1_6` of them. -/
theorem sound_kernel1 (c : Dev nD) (E : Set ℕ) (i : grid1.Coords)
    (arg1 : Memref sig .tc .vmem S250x35x7 .f32) (harg1 : arg1.IsWhole) (arg2 : Memref sig .tc .vmem S250x35x1 .i32) (harg2 : arg2.IsWhole)
    (arg3 : Memref sig .tc .vmem S7x16 .f32) (harg3 : arg3.IsWhole) (arg4 : Memref sig .tc .vmem S1x16 .f32) (harg4 : arg4.IsWhole)
    (arg5 : Memref sig .tc .vmem S1x16 .f32) (harg5 : arg5.IsWhole) (arg6 : Memref sig .tc .vmem S1x16 .f32) (harg6 : arg6.IsWhole)
    (arg7 : Memref sig .tc .vmem S250x35x32 .f32) (harg7 : arg7.IsWhole)
    (x0 : Vec F S250x35x7 .f32) (x1 : Vec F S250x35x1 .i32) (x2 : Vec F S7x16 .f32) (x3 : Vec F S1x16 .f32) (x4 : Vec F S1x16 .f32) (x5 : Vec F S1x16 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out1_6 x0 x1 x2 x3 x4 x5)) -∗ K ⟨⟩))
      ⊢ wp frame (wpE (defs₀ (F := F)) Variants.none c none) E (cc1__main_kernel i arg1 harg1 arg2 harg2 arg3 harg3 arg4 harg4 arg5 harg5 arg6 harg6 arg7 harg7) K := by
  simp only [cc1__main_kernel_eq_skeleton]; unfold cc1__main_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_6 _)

end Cert.KernelIdeal.Hand

end
-- ==== Proof.KI.Region1.lean ====
/-
  The second pallas_call's proof data at a parameter `V` (the buffer contents the call is entered with), and its
  body obligation. After the body at grid point `t` every input window's buffer still holds its block of the array,
  and the output window's buffer holds the body's function of the six input blocks. The body keeps nothing between
  points, so the invariant is the scoped rest and the generator register, untouched.
-/
import proofs.«128887_j13331578487174_2_alg».proof.Proof.KI.Body1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

set_option maxHeartbeats 2000000 in
/-- The body at any point: the inputs' buffers hold their blocks, so the body's run applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

end Regions

end Cert.KernelIdeal.Hand

end
-- ==== Proof.KI.Frame.lean ====
/-
  The whole program's run. @main is: two host operations (the weight transposed, the bias as a row), the first
  pallas_call (per-channel sums and sums of squares of the activated linear layer), twenty-four host operations (mean,
  variance, scale and shift from those sums), and the second pallas_call (normalise, pool, concatenate, mask). The
  contents of every unscoped buffer at each of the five boundaries are a fold from the launch memory: a host stretch
  applies its operations, a pallas_call replaces its arrays by what its write-backs leave. Each pallas_call is a
  segment record over "every unscoped buffer at the boundary's contents"; the library's launch theorem for a sequence of
  segments then gives: every weakly fair execution terminates, and at the end every unscoped buffer holds the last
  boundary's contents. The arguments are read back through the fold to the launch memory (nothing writes them).
-/
import proofs.«128887_j13331578487174_2_alg».proof.Proof.KI.Region0
import proofs.«128887_j13331578487174_2_alg».proof.Proof.KI.Region1
import proofs.«128887_j13331578487174_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

abbrev W0 : Dev nD → Valuation τ sig (Elt F) := fun c b => (s₀ m ρ).mem ((c : Dev nD), b)
abbrev W1 : Dev nD → Valuation τ sig (Elt F) := fun c => StableHlo.after hostOps0 (W0 m ρ c)
abbrev U1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (U1 m ρ) c).arrAt w cfg0.N
theorem W2_arr (c : Dev nD) (w : Fin cfg0.W) :
    W2 m ρ c (Proc.devRef .tc (Pipeline.arrRef spec0 w)) = (dat0 (U1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev U2 : (c : Dev nD) → (b : Ref sig .tc) → Buf (Elt F) ((c : Thread nD τ).loc b) := fun c b => W2 m ρ c b
theorem hF0 (c : Dev nD) (w : Fin cfg0.W) : (dat0 (U1 m ρ) c).arrAt w cfg0.N = U2 m ρ c (Pipeline.arrRef spec0 w) :=
  (W2_arr m ρ c w).symm
theorem hrest0 (c : Dev nD) : ∀ b, b ∉ Finset.univ.image (Pipeline.arrRef spec0) → U2 m ρ c b = U1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)
abbrev U3 : (c : Dev nD) → (b : Ref sig .tc) → Buf (Elt F) ((c : Thread nD τ).loc b) := fun c b => W3 m ρ c b
def W4 (c : Dev nD) : Valuation τ sig (Elt F) :=
  Pipeline.withArrays spec1 c (W3 m ρ c) fun w => (dat1 (U3 m ρ) c).arrAt w cfg1.N
theorem W4_arr (c : Dev nD) (w : Fin cfg1.W) :
    W4 m ρ c (Proc.devRef .tc (Pipeline.arrRef spec1 w)) = (dat1 (U3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev U4 : (c : Dev nD) → (b : Ref sig .tc) → Buf (Elt F) ((c : Thread nD τ).loc b) := fun c b => W4 m ρ c b
theorem hF1 (c : Dev nD) (w : Fin cfg1.W) : (dat1 (U3 m ρ) c).arrAt w cfg1.N = U4 m ρ c (Pipeline.arrRef spec1 w) :=
  (W4_arr m ρ c w).symm
theorem hrest1 (c : Dev nD) : ∀ b, b ∉ Finset.univ.image (Pipeline.arrRef spec1) → U4 m ρ c b = U3 m ρ c b :=
  fun b hb => W4_of_ne m ρ c b fun w e => hb (Finset.mem_image.mpr ⟨w, Finset.mem_univ _, e⟩)

/-! ## The arguments end as launched -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := (W4_arr m ρ c 0).trans (((dat1 (U3 m ρ) c).arrAt_in 0 rfl _).trans (A_eq1 (U3 m ρ) c 0))
    _ = W2 m ρ c (Proc.devRef .tc main_arg0) := StableHlo.after_of_writes_sub hostOps1 _ hostOps1_writes (by decide)
    _ = W1 m ρ c (Proc.devRef .tc main_arg0) := (W2_arr m ρ c 0).trans (((dat0 (U1 m ρ) c).arrAt_in 0 rfl _).trans (A_eq0 (U1 m ρ) c 0))
    _ = W0 m ρ c (Proc.devRef .tc main_arg0) := StableHlo.after_of_writes_sub hostOps0 _ hostOps0_writes (by decide)
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := (W4_arr m ρ c 1).trans (((dat1 (U3 m ρ) c).arrAt_in 1 rfl _).trans (A_eq1 (U3 m ρ) c 1))
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl

theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_writes_sub hostOps1 _ hostOps1_writes (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl

theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := StableHlo.after_of_writes_sub hostOps1 _ hostOps1_writes (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl

/-! ## The proof data family and what rides beside the buffers -/

abbrev tadm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) tadm p) c
  | ⟨0, _⟩ => fun c => dat0 (U1 m ρ) c
  | ⟨1, _⟩ => fun c => dat1 (U3 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The pallas_calls as segments -/

set_option backward.isDefEq.respectTransparency.types false in
/-- Pallas_call 0 as a segment: entered with every unscoped buffer at `W1`, left with them at `W2`. Its
    arrays are split out of the unscoped buffers and put back at what its write-backs leave; the generator register goes
    into the invariant and comes back; nothing is owed; the kernel has no semaphore of its own. -/
def reg0 : Pipeline.RegionSeg (pcfgs (F := F)) tadm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (U1 m ρ c)
  hentry c := by
    rw [Pipeline.ownSems0_none]
    have hsplit := Pipeline.arrays_of_unscopedBufs (p := 0) (pcfgs (F := F)) tadm (pdats m ρ) launch0.win launch0.arr_whole c
      ((pdats m ρ 0 c).share_full fun _ => rfl) (U1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (hout0 (U1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) tadm (Ix := Unit) (Name := ℕ) (U := UR sig nD τ) (Lvl := ℕ)
      launch0.win launch0.arr_whole c (pdats m ρ) ((pdats m ρ 0 c).share_full fun _ => rfl)
      (U1 m ρ c) (U2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas_call 1 as a segment: entered with every unscoped buffer at `W3`, left with them at `W4`. Its
    arrays are split out of the unscoped buffers and put back at what its write-backs leave; the generator register goes
    into the invariant and comes back; nothing is owed; the kernel has no semaphore of its own. -/
def reg1 : Pipeline.RegionSeg (pcfgs (F := F)) tadm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (U3 m ρ c)
  hentry c := by
    rw [Pipeline.ownSems0_none]
    have hsplit := Pipeline.arrays_of_unscopedBufs (p := 1) (pcfgs (F := F)) tadm (pdats m ρ) launch1.win launch1.arr_whole c
      ((pdats m ρ 1 c).share_full fun _ => rfl) (U3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) tadm (Ix := Unit) (Name := ℕ) (U := UR sig nD τ) (Lvl := ℕ)
      launch1.win launch1.arr_whole c (pdats m ρ) ((pdats m ρ 1 c).share_full fun _ => rfl)
      (U3 m ρ c) (U4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev tsegs : List (Pipeline.Seg (pcfgs (F := F)) tadm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (tsegs m ρ) := (main_chain c).trans (by chain_rfl)

set_option backward.isDefEq.respectTransparency.types false in
/-- THE RUN: from any memory with zero counters every weakly fair execution of @main terminates, nothing faulting, and in
    every final state every unscoped buffer holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) tadm (pdats m ρ) () cellOf_inj emb₁ defs₀ 𝒱₀ L lv m ρ main (tsegs m ρ)
    (fun c Q => by rw [main_run m ρ c])
    (by simp only [tsegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c)⟩) (run_all m ρ)

/-- The result buffer ends at what the second pallas_call's write-backs leave in it. -/
theorem result_eq (r : PUnit × MemSt nD τ sig (Elt F)) (h : ∀ c : Dev nD, ∀ b ∈ Pipeline.ucRefs τ sig, r.2.mem (((c : Thread nD τ)).1, b) = W4 m ρ c b) (c : Dev nD) :
    r.2.mem ((c.tc : Thread nD τ).loc main_v23) = (dat1 (U3 m ρ) c).arrAt 6 cfg1.N :=
  (h c _ (mem_uc main_v23 (by decide))).trans (W4_arr m ρ c 6)

end Cert.KernelIdeal.Hand

end
-- ==== Proof.Spec.lean ====
/-
  The mathematics of the voxel feature layer, over the extended reals, index by index and with no program in sight.
  For K = 100000 voxels of T = 35 points with 7 input channels and 16 output channels:
    x[k,t,d]  = max(Σ_c in[k,t,c]·W[d,c] + b[d], 0)                      (linear layer, then ReLU)
    μ[d]      = (Σ_{k,t} x[k,t,d]) / N,  N = K·T = 3 500 000                (per-channel mean)
  and then two routes to the batch-normalised activations:
    one pass over sums:   var = max(Σx²/N − μ², 0),  s = γ/√(var+ε),  xn = x·s + (β − μ·s)
    two passes:           var = Σ(x−μ)²/N,           s = γ/√(var+ε),  xn = (x−μ)·s + β
  and the output: the 16 normalised channels, beside their maximum over the voxel's points, times the mask.
  The two routes agree when every x, γ, β is a real number (file Algebra).
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

abbrev SIn : Shape := ⟨3, ![100000, 35, 7]⟩
abbrev SMask : Shape := ⟨3, ![100000, 35, 1]⟩
abbrev SW : Shape := ⟨2, ![16, 7]⟩
abbrev SC : Shape := ⟨1, ![16]⟩
abbrev SOut : Shape := ⟨3, ![100000, 35, 32]⟩

/-- N = 3 500 000 as the f32 word both programs divide by (it is exactly that integer). -/
def cnt : EReal := Ideal.ofBits .f32 0x4A559F80#32
/-- ε: the f32 word nearest 1e-5, the same in both programs. -/
def eps : EReal := Ideal.ofBits .f32 0x3727C5AC#32
/-- −∞: what both maxima start from. -/
def negInf : EReal := Ideal.ofBits .f32 0xFF800000#32

/-- The activated linear layer. -/
def lin (inp : SIn.Idx → EReal) (W : SW.Idx → EReal) (b : SC.Idx → EReal) (k : Fin 100000) (t : Fin 35) (d : Fin 16) : EReal :=
  max ((∑ c : Fin 7, inp (ix3 k t c) * W (ix2 d c)) + b (ix1 d)) 0

/-- The mask as a number. -/
def maskOf (msk : SMask.Idx → BitVec 32) (k : Fin 100000) (t : Fin 35) : EReal :=
  (((msk (ix3 k t (0 : Fin 1))).toInt : ℝ) : EReal)

section
variable (x : Fin 100000 → Fin 35 → Fin 16 → EReal) (g be : Fin 16 → EReal)

def sum1 (d : Fin 16) : EReal := ∑ k : Fin 100000, ∑ t : Fin 35, x k t d
def sum2 (d : Fin 16) : EReal := ∑ k : Fin 100000, ∑ t : Fin 35, x k t d * x k t d
def mean (d : Fin 16) : EReal := Ideal.div (sum1 x d) cnt

/-! The one-pass route (sums and sums of squares). -/
def varK (d : Fin 16) : EReal := max (Ideal.div (sum2 x d) cnt - mean x d * mean x d) 0
def scaleK (d : Fin 16) : EReal := Ideal.div (g d) (Ideal.sqrt (varK x d + eps))
def shiftK (d : Fin 16) : EReal := be d - mean x d * scaleK x g d
def normK (k : Fin 100000) (t : Fin 35) (d : Fin 16) : EReal := x k t d * scaleK x g d + shiftK x g be d

/-! The two-pass route (centre, then square). -/
def varR (d : Fin 16) : EReal := Ideal.div (∑ k : Fin 100000, ∑ t : Fin 35, (x k t d - mean x d) * (x k t d - mean x d)) cnt
def scaleR (d : Fin 16) : EReal := Ideal.div (g d) (Ideal.sqrt (varR x d + eps))
def normR (k : Fin 100000) (t : Fin 35) (d : Fin 16) : EReal := (x k t d - mean x d) * scaleR x g d + be d
end

/-- A voxel's maximum over its points, per channel. -/
def pooled (xn : Fin 100000 → Fin 35 → Fin 16 → EReal) (k : Fin 100000) (d : Fin 16) : EReal :=
  (Finset.univ : Finset (Fin 35)).fold max negInf (fun t => xn k t d)

/-- The output at (k, t, j): channel j of the normalised activations for j < 16, the pooled channel j − 16 otherwise; times the mask. -/
def outOf (xn : Fin 100000 → Fin 35 → Fin 16 → EReal) (mk : Fin 100000 → Fin 35 → EReal)
    (k : Fin 100000) (t : Fin 35) (j : Fin 32) : EReal :=
  (if h : j.val < 16 then xn k t ⟨j.val, h⟩ else pooled xn k ⟨j.val - 16, by omega⟩) * mk k t

/-! ## The kernel's two stages, as it stages them: the weight transposed [7,16], the bias / scale / shift as rows [1,16] -/

abbrev SWt : Shape := ⟨2, ![7, 16]⟩
abbrev SRow : Shape := ⟨2, ![1, 16]⟩
abbrev SStats : Shape := ⟨2, ![2, 16]⟩

/-- The activated linear layer over the transposed weight and the bias row. -/
def linT (inp : SIn.Idx → EReal) (Wt : SWt.Idx → EReal) (b2 : SRow.Idx → EReal) (k : Fin 100000) (t : Fin 35) (d : Fin 16) : EReal :=
  max ((∑ c : Fin 7, inp (ix3 k t c) * Wt (ix2 c d)) + b2 (ix2 (0 : Fin 1) d)) 0

/-- Stage 1 (the first pallas_call): row 0 the per-channel sums, row 1 the per-channel sums of squares. -/
def stats (inp : SIn.Idx → EReal) (Wt : SWt.Idx → EReal) (b2 : SRow.Idx → EReal) : SStats.Idx → EReal :=
  fun i => if (i 0).val = 0 then sum1 (linT inp Wt b2) (i 1) else sum2 (linT inp Wt b2) (i 1)

/-- Stage 2 (the second pallas_call): scale and shift rows applied, pooled, concatenated, masked. -/
def stage2 (inp : SIn.Idx → EReal) (msk : SMask.Idx → BitVec 32) (Wt : SWt.Idx → EReal) (b2 sc sh : SRow.Idx → EReal) : SOut.Idx → EReal :=
  fun i => outOf (fun k t d => linT inp Wt b2 k t d * sc (ix2 (0 : Fin 1) d) + sh (ix2 (0 : Fin 1) d)) (maskOf msk) (i 0) (i 1) (i 2)

/-- What the kernel's route computes, as a whole array of the arguments. -/
def kernelOut (inp : SIn.Idx → EReal) (msk : SMask.Idx → BitVec 32) (W : SW.Idx → EReal) (b g be : SC.Idx → EReal) : SOut.Idx → EReal :=
  fun i => outOf (normK (lin inp W b) (fun d => g (ix1 d)) (fun d => be (ix1 d))) (maskOf msk) (i 0) (i 1) (i 2)

/-- What the reference's route computes. -/
def refOut (inp : SIn.Idx → EReal) (msk : SMask.Idx → BitVec 32) (W : SW.Idx → EReal) (b g be : SC.Idx → EReal) : SOut.Idx → EReal :=
  fun i => outOf (normR (lin inp W b) (fun d => g (ix1 d)) (fun d => be (ix1 d))) (maskOf msk) (i 0) (i 1) (i 2)

end Cert.Spec

end
-- ==== Proof.KI.Host.lean ====
/-
  The host operations around the two pallas_calls, read at an entry. Before the first call the weight is transposed
  and the bias becomes a row. Between the calls, from the [2,16] table st of per-channel sums (row 0) and sums of squares
  (row 1): mean = st(0,d)/N, var = max(st(1,d)/N − mean², 0), scale = γ/√(var + ε), shift = β − mean·scale, each stored as
  a row [1,16]. And: which buffers the calls and the host stretches leave as they found them.
-/
import proofs.«128887_j13331578487174_2_alg».proof.Proof.KI.Frame
import proofs.«128887_j13331578487174_2_alg».proof.Proof.Spec
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Host

open Cert.KernelIdeal Cert.KernelIdeal.Gen Cert.KernelIdeal.Hand
open Idealize.ShloMosaic Idealize.ShloMosaic.TcCoe Idealize.ShloMosaic.ValueIdx Idealize.SL.Sem Idealize.ShloMosaic.StableHlo
open Idealize.ShloMosaic.Pipeline (Dat)

/-! ## From the table of sums to the scale and the shift -/

def meanOf (st : S2x16.Idx → EReal) (d : Fin 16) : EReal := Ideal.div (st (ix2 (0 : Fin 2) d)) Cert.Spec.cnt
def varOf (st : S2x16.Idx → EReal) (d : Fin 16) : EReal :=
  max (Ideal.div (st (ix2 (1 : Fin 2) d)) Cert.Spec.cnt - meanOf st d * meanOf st d) 0
def scaleOf (st : S2x16.Idx → EReal) (g : S16.Idx → EReal) (d : Fin 16) : EReal :=
  Ideal.div (g (ix1 d)) (Ideal.sqrt (varOf st d + Cert.Spec.eps))
def shiftOf (st : S2x16.Idx → EReal) (g be : S16.Idx → EReal) (d : Fin 16) : EReal :=
  be (ix1 d) - meanOf st d * scaleOf st g d

/-- Row 0 of the table, as the host slices and flattens it. -/
theorem row0_of_table (st : S2x16.Idx → EReal) (d : Fin 16) :
    shapeCast S16 (extractStridedSlice S1x16 ![0, 0] st slices_S2x16_S1x16_0_0) shapeCasts_S1x16_S16 (ix1 d) = st (ix2 (0 : Fin 2) d) := by
  rw [shapeCast_1a_a_apply]
  exact extractStridedSlice_apply _ st _ _ (ix2 (0 : Fin 2) d) fun a => match a with | ⟨0, _⟩ => rfl | ⟨1, _⟩ => by show d.val = 0 + d.val; omega

/-- Row 1 of the table. -/
theorem row1_of_table (st : S2x16.Idx → EReal) (d : Fin 16) :
    shapeCast S16 (extractStridedSlice S1x16 ![1, 0] st slices_S2x16_S1x16_1_0) shapeCasts_S1x16_S16 (ix1 d) = st (ix2 (1 : Fin 2) d) := by
  rw [shapeCast_1a_a_apply]
  exact extractStridedSlice_apply _ st _ _ (ix2 (1 : Fin 2) d) fun a => match a with | ⟨0, _⟩ => rfl | ⟨1, _⟩ => by show d.val = 0 + d.val; omega

set_option maxHeartbeats 4000000 in
/-- The scale row the second call is given. -/
theorem host1_scale (W : Valuation τ sig (Elt Ideal)) (d : Fin 16) :
    (StableHlo.after (hostOps1 (F := Ideal)) W (Proc.devRef .tc main_v21) : S1x16.Idx → EReal) (ix2 (0 : Fin 1) d)
      = scaleOf (W (Proc.devRef .tc main_v2)) (W (Proc.devRef .tc main_arg4)) d := by
  after_results_simp
  show shapeCast S1x16 _ shapeCasts_S16_S1x16 (ix2 (0 : Fin 1) d) = _
  rw [shapeCast_a_1a_apply]
  simp only [Host.divf, Host.sqrt, addf, subf, mulf, maximumf, broadcastInDim, constant, Ideal.hostDivf_def, Ideal.hostUnary_sqrt_def,
    Ideal.addf_def, Ideal.subf_def, Ideal.mulf_def, Ideal.maximumf_def, Ideal.ofBits_def]
  show Ideal.div (W (Proc.devRef .tc main_arg4) (ix1 d)) (Ideal.sqrt (max (Ideal.div (shapeCast S16 (extractStridedSlice S1x16 ![1, 0] (W (Proc.devRef .tc main_v2)) slices_S2x16_S1x16_1_0) shapeCasts_S1x16_S16 (ix1 d)) _ - Ideal.div (shapeCast S16 (extractStridedSlice S1x16 ![0, 0] (W (Proc.devRef .tc main_v2)) slices_S2x16_S1x16_0_0) shapeCasts_S1x16_S16 (ix1 d)) _ * Ideal.div (shapeCast S16 (extractStridedSlice S1x16 ![0, 0] (W (Proc.devRef .tc main_v2)) slices_S2x16_S1x16_0_0) shapeCasts_S1x16_S16 (ix1 d)) _) _ + _)) = _
  rw [row0_of_table, row1_of_table, Ideal.ofBits_zero_f32]
  rfl

set_option maxHeartbeats 4000000 in
/-- The shift row the second call is given. -/
theorem host1_shift (W : Valuation τ sig (Elt Ideal)) (d : Fin 16) :
    (StableHlo.after (hostOps1 (F := Ideal)) W (Proc.devRef .tc main_v22) : S1x16.Idx → EReal) (ix2 (0 : Fin 1) d)
      = shiftOf (W (Proc.devRef .tc main_v2)) (W (Proc.devRef .tc main_arg4)) (W (Proc.devRef .tc main_arg5)) d := by
  after_results_simp
  show shapeCast S1x16 _ shapeCasts_S16_S1x16 (ix2 (0 : Fin 1) d) = _
  rw [shapeCast_a_1a_apply]
  simp only [Host.divf, Host.sqrt, addf, subf, mulf, maximumf, broadcastInDim, constant, Ideal.hostDivf_def, Ideal.hostUnary_sqrt_def,
    Ideal.addf_def, Ideal.subf_def, Ideal.mulf_def, Ideal.maximumf_def, Ideal.ofBits_def]
  have e0 : shapeCast main_v4.ty.shape (extractStridedSlice S1x16 ![0, 0] (W (Proc.devRef .tc main_v2)) slices_S2x16_S1x16_0_0) shapeCasts_S1x16_S16 (ix1 d)
      = (W (Proc.devRef .tc main_v2) : S2x16.Idx → EReal) (ix2 (0 : Fin 2) d) := row0_of_table _ d
  have e1 : shapeCast main_v6.ty.shape (extractStridedSlice S1x16 ![1, 0] (W (Proc.devRef .tc main_v2)) slices_S2x16_S1x16_1_0) shapeCasts_S1x16_S16 (ix1 d)
      = (W (Proc.devRef .tc main_v2) : S2x16.Idx → EReal) (ix2 (1 : Fin 2) d) := row1_of_table _ d
  rw [e0, e1, Ideal.ofBits_zero_f32]
  rfl

/-- The transposed weight. -/
theorem host0_v0 (W : Valuation τ sig (Elt Ideal)) (k : Fin 7) (d : Fin 16) :
    (StableHlo.after (hostOps0 (F := Ideal)) W (Proc.devRef .tc main_v0) : S7x16.Idx → EReal) (ix2 k d)
      = (W (Proc.devRef .tc main_arg2) : S16x7.Idx → EReal) (ix2 d k) := by
  after_results
  exact transpose_ix2_apply _ _ k d

/-- The bias as a row. -/
theorem host0_v1 (W : Valuation τ sig (Elt Ideal)) (d : Fin 16) :
    (StableHlo.after (hostOps0 (F := Ideal)) W (Proc.devRef .tc main_v1) : S1x16.Idx → EReal) (ix2 (0 : Fin 1) d)
      = (W (Proc.devRef .tc main_arg3) : S16.Idx → EReal) (ix1 d) := by
  after_results
  show shapeCast S1x16 (W (Proc.devRef .tc main_arg3)) shapeCasts_S16_S1x16 (ix2 (0 : Fin 1) d) = _
  rw [shapeCast_a_1a_apply]

end Cert.KernelIdeal.Host

end
-- ==== Proof.KI.Pieces0.lean ====
/-
  What each kind of grid point of the first pallas_call leaves, read back as a value. The body's one arithmetic term
  (`k0_pay2`) takes the point's input block, the transposed weight, the bias row and the running sums found in the
  scratch, and returns the running sums plus this block's [2,16] table (row 0: per-channel sums of the activated linear
  layer over the block's 17500 rows; row 1: sums of their squares). The first point finds the zero table it has just
  stored; the last point also copies the new running sums to the output buffer.
-/
import proofs.«128887_j13331578487174_2_alg».proof.Proof.KI.Region0
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl
theorem hz3 : (![0, 0, 0] : Fin 3 → Nat) = fun _ => 0 := funext fun a => by fin_cases a <;> rfl

/-- A middle point: the scratch ends at the payload of the blocks and the running sums it found. -/
theorem sout_B (c : Dev nD) (i : grid0.Coords) (a1 : Memref sig .tc .vmem S500x35x7 .f32) (h1 : a1.IsWhole) (a2 : Memref sig .tc .vmem S7x16 .f32) (h2 : a2.IsWhole) (a3 : Memref sig .tc .vmem S1x16 .f32) (h3 : a3.IsWhole) (a4 : Memref sig .tc .vmem S2x16 .f32) (h4 : a4.IsWhole) (a5 : Memref sig .tc .vmem S2x16 .f32) (h5 : a5.IsWhole) (hc0 : ¬cond0_0 i) (hc1 : ¬cond0_1 i)
    (x0 : Vec F S500x35x7 .f32) (x1 : Vec F S7x16 .f32) (x2 : Vec F S1x16 .f32) (xs0 : Vec F S2x16 .f32) :
    sout0_B_0 c i a1 h1 a2 h2 a3 h3 a4 h4 a5 h5 hc0 hc1 x0 x1 x2 xs0 = k0_pay2 x0 x1 x2 xs0 := by
  unfold sout0_B_0
  rw [View.read_writes_eq_canon _ _ _ (scover0_B_0 c i a1 h1 a2 h2 a3 h3 a4 h4 a5 h5 hc0 hc1 x0 x1 x2 xs0)]
  unfold kernelRun0_B
  dsimp only
  rw [View.canon_unit_zero hz2]
  simp only [View.readAt_eq_ld, h1.read_unread, h2.read_unread, h3.read_unread, h4.read_unread, h5.read_unread, View.ld_unit_zero (S := S500x35x7) hz3, View.ld_unit_zero (S := S7x16) hz2, View.ld_unit_zero (S := S1x16) hz2, View.ld_unit_zero (S := S2x16) hz2]

/-- The first point: the same payload over the zero table just stored. -/
theorem sout_A (c : Dev nD) (i : grid0.Coords) (a1 : Memref sig .tc .vmem S500x35x7 .f32) (h1 : a1.IsWhole) (a2 : Memref sig .tc .vmem S7x16 .f32) (h2 : a2.IsWhole) (a3 : Memref sig .tc .vmem S1x16 .f32) (h3 : a3.IsWhole) (a4 : Memref sig .tc .vmem S2x16 .f32) (h4 : a4.IsWhole) (a5 : Memref sig .tc .vmem S2x16 .f32) (h5 : a5.IsWhole) (hc0 : cond0_0 i) (hc1 : ¬cond0_1 i)
    (x0 : Vec F S500x35x7 .f32) (x1 : Vec F S7x16 .f32) (x2 : Vec F S1x16 .f32) :
    sout0_A_0 c i a1 h1 a2 h2 a3 h3 a4 h4 a5 h5 hc0 hc1 x0 x1 x2 = k0_pay2 x0 x1 x2 (k0_pay1 (F := F)) := by
  unfold sout0_A_0
  rw [View.read_writes_eq_canon _ _ _ (scover0_A_0 c i a1 h1 a2 h2 a3 h3 a4 h4 a5 h5 hc0 hc1 x0 x1 x2)]
  unfold kernelRun0_A
  dsimp only
  sl_unfold_words
  rw [View.canon_cons_unit_zero (S := S2x16) hz2, View.readCov_unit_zero (S := S2x16) _ hz2]
  simp only [View.readAt_eq_ld, h1.read_unread, h2.read_unread, h3.read_unread, h4.read_unread, h5.read_unread, View.ld_unit_zero (S := S500x35x7) hz3, View.ld_unit_zero (S := S7x16) hz2, View.ld_unit_zero (S := S1x16) hz2, View.ld_unit_zero (S := S2x16) hz2]

/-- The last point: the scratch as at a middle point, -/
theorem sout_C (c : Dev nD) (i : grid0.Coords) (a1 : Memref sig .tc .vmem S500x35x7 .f32) (h1 : a1.IsWhole) (a2 : Memref sig .tc .vmem S7x16 .f32) (h2 : a2.IsWhole) (a3 : Memref sig .tc .vmem S1x16 .f32) (h3 : a3.IsWhole) (a4 : Memref sig .tc .vmem S2x16 .f32) (h4 : a4.IsWhole) (a5 : Memref sig .tc .vmem S2x16 .f32) (h5 : a5.IsWhole) (hc0 : ¬cond0_0 i) (hc1 : cond0_1 i)
    (x0 : Vec F S500x35x7 .f32) (x1 : Vec F S7x16 .f32) (x2 : Vec F S1x16 .f32) (xs0 : Vec F S2x16 .f32) :
    sout0_C_0 c i a1 h1 a2 h2 a3 h3 a4 h4 a5 h5 hc0 hc1 x0 x1 x2 xs0 = k0_pay2 x0 x1 x2 xs0 := by
  unfold sout0_C_0
  rw [View.read_writes_eq_canon _ _ _ (scover0_C_0 c i a1 h1 a2 h2 a3 h3 a4 h4 a5 h5 hc0 hc1 x0 x1 x2 xs0)]
  unfold kernelRun0_C
  dsimp only
  sl_unfold_words
  rw [View.canon_unit_zero hz2]
  simp only [View.readAt_eq_ld, h1.read_unread, h2.read_unread, h3.read_unread, h4.read_unread, h5.read_unread, View.ld_unit_zero (S := S500x35x7) hz3, View.ld_unit_zero (S := S7x16) hz2, View.ld_unit_zero (S := S1x16) hz2, View.ld_unit_zero (S := S2x16) hz2]

/-- and the output buffer at the same value (the scratch read back after the store). -/
theorem out_C (c : Dev nD) (i : grid0.Coords) (a1 : Memref sig .tc .vmem S500x35x7 .f32) (h1 : a1.IsWhole) (a2 : Memref sig .tc .vmem S7x16 .f32) (h2 : a2.IsWhole) (a3 : Memref sig .tc .vmem S1x16 .f32) (h3 : a3.IsWhole) (a4 : Memref sig .tc .vmem S2x16 .f32) (h4 : a4.IsWhole) (a5 : Memref sig .tc .vmem S2x16 .f32) (h5 : a5.IsWhole) (hc0 : ¬cond0_0 i) (hc1 : cond0_1 i)
    (x0 : Vec F S500x35x7 .f32) (x1 : Vec F S7x16 .f32) (x2 : Vec F S1x16 .f32) (xs0 : Vec F S2x16 .f32) :
    out0_C_3 c i a1 h1 a2 h2 a3 h3 a4 h4 a5 h5 hc0 hc1 x0 x1 x2 xs0 = k0_pay2 x0 x1 x2 xs0 := by
  unfold out0_C_3
  rw [View.read_writes_eq_canon _ _ _ (cover0_C_3 c i a1 h1 a2 h2 a3 h3 a4 h4 a5 h5 hc0 hc1 x0 x1 x2 xs0)]
  unfold kernelRun0_C
  dsimp only
  sl_unfold_words
  rw [View.canon_unit_zero hz2, View.readCov_unit_zero (S := S2x16) _ hz2]
  simp only [View.readAt_eq_ld, h1.read_unread, h2.read_unread, h3.read_unread, h4.read_unread, h5.read_unread, View.ld_unit_zero (S := S500x35x7) hz3, View.ld_unit_zero (S := S7x16) hz2, View.ld_unit_zero (S := S1x16) hz2, View.ld_unit_zero (S := S2x16) hz2]

end Cert.KernelIdeal.Hand

end
-- ==== Proof.LibMatmulPlain.lean ====
/-
  Two general facts about matrix products at the ideal values.

  * A kernel's matrix product with the plain dimension numbers (rows by columns, one contracted axis, no batch axis)
    accumulated into the zero splat, read at entry (a, b), is the inner product of row `a` of the left factor with
    column `b` of the right one: `∑ c, A a c · B c b`.
  * On the extended reals a factor distributes over a sum of two NONNEGATIVE terms whatever the factor is (the two
    infinities of opposite sign cannot meet), so a weighted sum of such sums splits into the two weighted sums.
-/
import Idealize.ShloMosaic.Lib.StackMember
import Idealize.ShloMosaic.Lib.KernelVsHost
import Idealize.ShloMosaic.Lib.ValueIdx
import Idealize.ShloMosaic.PureOps.Ideal.Laws

noncomputable section

open scoped BigOperators

namespace Cert.LibMatmulPlain

open Idealize.ShloMosaic Idealize.ShloMosaic.ValueIdx

/-- A product with the plain dimension numbers accumulated into the zero splat, read at an entry: the inner product
    of a row of the left factor with a column of the right one. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (F := Ideal) ⟨2, ![m, n]⟩ .f32 0x00000000#32) (ix2 a b)
      = ∑ c : Fin k, A (ix2 a c) * B (ix2 c b) := by
  rw [matmul_zero_eq_dotGeneral]
  exact StackMember.dotGeneral_plain_apply prec A B a b

/-- A factor distributes over a sum of two nonnegative extended reals, so a weighted sum of such sums splits. -/
theorem sum_mul_add_of_nonneg {ι : Type} [Fintype ι] (w A B : ι → EReal) (hA : ∀ k, 0 ≤ A k) (hB : ∀ k, 0 ≤ B k) :
    ∑ k, w k * (A k + B k) = ∑ k, w k * A k + ∑ k, w k * B k := by
  rw [← Finset.sum_add_distrib]
  exact Finset.sum_congr rfl fun k _ => EReal.left_distrib_of_nonneg (hA k) (hB k)

end Cert.LibMatmulPlain

end
-- ==== Proof.LibFlatten.lean ====
/-
  A reshape that merges the two leading axes of a three-axis array into one, or splits the leading axis of a two-axis
  array into two, read at an index. Row-major order puts entry (p, q, k) of an [a, b, c] array at position
  (p * b + q) * c + k, and entry (R, k) of an [n, c] array at R * c + k: the two agree exactly when R = b * p + q.
-/
import Idealize.ShloMosaic.Lib.Pipeline.Value
import Idealize.ShloMosaic.Lib.ValueIdx

namespace Cert.LibFlatten

open Idealize.ShloMosaic Idealize.ShloMosaic.ValueIdx

/-- Merging the two leading axes: row b * p + q of the result is row (p, q) of the operand. -/
theorem merge_apply {α : Type} {a b c n : ℕ} (x : (⟨3, ![a, b, c]⟩ : Shape).Idx → α)
    (h : (⟨3, ![a, b, c]⟩ : Shape).ShapeCasts ⟨2, ![n, c]⟩) (p : Fin a) (q : Fin b) (k : Fin c) (R : Fin n)
    (hR : R.val = b * p.val + q.val) :
    shapeCast ⟨2, ![n, c]⟩ x h (ix2 R k) = x (ix3 p q k) :=
  shapeCast_apply x h (ix2 R k) (ix3 p q k) (by
    rw [Shape.rowMajor_val_three, Shape.rowMajor_val_two]
    show (p.val * b + q.val) * c + k.val = R.val * c + k.val
    rw [hR, Nat.mul_comm b p.val])

/-- Splitting the leading axis: entry (p, q) of the result is row b * p + q of the operand. -/
theorem split_apply {α : Type} {a b c n : ℕ} (y : (⟨2, ![n, c]⟩ : Shape).Idx → α)
    (h : (⟨2, ![n, c]⟩ : Shape).ShapeCasts ⟨3, ![a, b, c]⟩) (p : Fin a) (q : Fin b) (k : Fin c) (R : Fin n)
    (hR : R.val = b * p.val + q.val) :
    shapeCast ⟨3, ![a, b, c]⟩ y h (ix3 p q k) = y (ix2 R k) :=
  shapeCast_apply y h (ix3 p q k) (ix2 R k) (by
    rw [Shape.rowMajor_val_three, Shape.rowMajor_val_two]
    show R.val * c + k.val = (p.val * b + q.val) * c + k.val
    rw [hR, Nat.mul_comm b p.val])

end Cert.LibFlatten
-- ==== Proof.KI.Pay0.lean ====
/-
  The first pallas_call's arithmetic at one entry, over the extended reals. For a [500,35,7] block of inputs, the
  transposed weight, the bias row and a [2,16] table `acc` of running sums, the body's value at (r, d) is
  `acc (r, d)` plus, over the block's 17500 rows q = 35·p + t, the sum of y(q, d) for r = 0 and of y(q, d)² for r = 1,
  where y(q, d) = max(Σ_c x(p, t, c)·Wt(c, d) + b(0, d), 0) is the activated linear layer.
-/
import proofs.«128887_j13331578487174_2_alg».proof.Proof.Gen.KernelIdeal.Skeleton
import proofs.«128887_j13331578487174_2_alg».proof.Proof.LibMatmulPlain
import proofs.«128887_j13331578487174_2_alg».proof.Proof.LibFlatten
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Value0

open Cert.KernelIdeal Cert.KernelIdeal.Gen Idealize.ShloMosaic Idealize.ShloMosaic.ValueIdx

/-- Row q of the block's activated linear layer, channel d. -/
def yrow (v3 : Vec Ideal S500x35x7 .f32) (v5 : Vec Ideal S7x16 .f32) (v8 : Vec Ideal S1x16 .f32) (q : Fin 17500) (d : Fin 16) : EReal :=
  max ((∑ c : Fin 7, v3 (ix3 (⟨q.val / 35, by omega⟩ : Fin 500) (⟨q.val % 35, by omega⟩ : Fin 35) c) * v5 (ix2 c d)) + v8 (ix2 (0 : Fin 1) d)) 0

/-- The block's [2,16] table: sums of y over the rows, and of y². -/
def blockStat (v3 : Vec Ideal S500x35x7 .f32) (v5 : Vec Ideal S7x16 .f32) (v8 : Vec Ideal S1x16 .f32) (r : Fin 2) (d : Fin 16) : EReal :=
  if r.val = 0 then ∑ q : Fin 17500, yrow v3 v5 v8 q d else ∑ q : Fin 17500, yrow v3 v5 v8 q d * yrow v3 v5 v8 q d

/-- The activated linear layer of the block at row q, channel d, as the body spells it. -/
theorem act_apply (v3 : FVec Ideal S500x35x7 .f32) (v5 : FVec Ideal S7x16 .f32) (v8 : FVec Ideal S1x16 .f32) (q : Fin 17500) (d : Fin 16) :
    maximumf (addf (matmul dot_S17500x7_S7x16_S17500x16_1_0_0_1_n_n (some .fp32) (shapeCast S17500x7 v3 shapeCasts_S500x35x7_S17500x7)
        (shapeCast S7x16 v5 shapeCasts_S7x16_S7x16) (constant (F := Ideal) S17500x16 .f32 0x00000000#32))
      (broadcastTo S17500x16 (shapeCast S1x16 v8 shapeCasts_S1x16_S1x16) broadcasts_S1x16_S17500x16))
      (broadcast S17500x16 (Scalar.ofBits (F := Ideal) .f32 0x00000000#32)) (ix2 q d) = yrow v3 v5 v8 q d := by
  show max (matmul dot_S17500x7_S7x16_S17500x16_1_0_0_1_n_n (some .fp32) (shapeCast S17500x7 v3 shapeCasts_S500x35x7_S17500x7)
        (shapeCast S7x16 v5 shapeCasts_S7x16_S7x16) (constant (F := Ideal) S17500x16 .f32 0x00000000#32) (ix2 q d)
      + broadcastTo S17500x16 (shapeCast S1x16 v8 shapeCasts_S1x16_S1x16) broadcasts_S1x16_S17500x16 (ix2 q d))
      (Ideal.ofBits .f32 0x00000000#32) = _
  rw [Ideal.ofBits_zero_f32, shapeCast_self, shapeCast_self, broadcastTo_1b_ab_apply,
    show dot_S17500x7_S7x16_S17500x16_1_0_0_1_n_n = DotDims.plain 17500 7 16 from rfl,
    Cert.LibMatmulPlain.matmul_plain_zero_apply]
  unfold yrow
  refine congrArg (fun s => max (s + v8 (ix2 (0 : Fin 1) d)) 0) (Finset.sum_congr rfl fun c _ => ?_)
  rw [Cert.LibFlatten.merge_apply v3 shapeCasts_S500x35x7_S17500x7 (⟨q.val / 35, by omega⟩ : Fin 500) (⟨q.val % 35, by omega⟩ : Fin 35) c q
    (by show q.val = 35 * (q.val / 35) + q.val % 35; omega)]

/-- The zero table the first point stores. -/
theorem pay1_apply (i : S2x16.Idx) : k0_pay1 (F := Ideal) i = 0 := by
  unfold k0_pay1
  rw [shapeCast_self]
  show Ideal.ofBits .f32 0x00000000#32 = 0
  exact Ideal.ofBits_zero_f32

/-- The reduced index (d) with the row q put back is (q, d). -/
theorem lift_eq (d : Fin 16) (q : Fin (S17500x16.size 0)) :
    reduces_S17500x16_S16.lift (ix1 d) q = ix2 (⟨q.val, q.isLt⟩ : Fin 17500) d :=
  funext fun a => match a with
    | ⟨0, _⟩ => Fin.ext rfl
    | ⟨1, _⟩ => Fin.ext rfl

/-- A column sum over the 17500 rows, stored as a row [1,16], read at (0, d). -/
theorem colsum_apply (Y : FVec Ideal S17500x16 .f32) (d : Fin 16) :
    shapeCast S1x16 (multiReduction .add [0] S16 Y 0x00000000#32 reduces_S17500x16_S16 (.inl rfl) rfl) shapeCasts_S16_S1x16 (ix2 (0 : Fin 1) d)
      = ∑ q : Fin 17500, Y (ix2 q d) := by
  rw [shapeCast_a_1a_apply]
  refine (Ideal.multiReduction_add_single Y 0x00000000#32 reduces_S17500x16_S16 (.inl rfl) rfl (ix1 d)).trans ?_
  exact Finset.sum_congr rfl fun q _ => congrArg Y (lift_eq d q)

/-- Two rows stacked: row 0 is the first, row 1 the second. -/
theorem stack_apply (A B : FVec Ideal S1x16 .f32) (r : Fin 2) (d : Fin 16) :
    concatenate S2x16 0 [⟨S1x16, A⟩, ⟨S1x16, B⟩] concatenates_S1x16_S1x16_S2x16_d0 (ix2 r d)
      = if r.val = 0 then A (ix2 (0 : Fin 1) d) else B (ix2 (0 : Fin 1) d) := by
  by_cases h0 : r.val = 0
  · obtain rfl : r = (0 : Fin 2) := Fin.ext h0
    rw [if_pos h0]
    exact concatenate_pair_apply_left (t := S2x16) (0 : Fin 2) A B concatenates_S1x16_S1x16_S2x16_d0 (ix2 (0 : Fin 2) d) rfl (ix2 (0 : Fin 1) d)
      (fun b => match b with | ⟨0, _⟩ => rfl | ⟨1, _⟩ => rfl)
  · obtain rfl : r = (1 : Fin 2) := Fin.ext (by have := r.isLt; omega)
    rw [if_neg h0]
    exact concatenate_pair_apply_right (t := S2x16) (0 : Fin 2) A B concatenates_S1x16_S1x16_S2x16_d0 (ix2 (1 : Fin 2) d) rfl rfl (ix2 (0 : Fin 1) d)
      (fun b hb => match b with | ⟨0, _⟩ => absurd rfl hb | ⟨1, _⟩ => rfl) rfl

/-- THE PAYLOAD at an entry: the running sums found, plus this block's table. -/
theorem pay2_apply (v3 : Vec Ideal S500x35x7 .f32) (v5 : Vec Ideal S7x16 .f32) (v8 : Vec Ideal S1x16 .f32) (v20 : Vec Ideal S2x16 .f32)
    (r : Fin 2) (d : Fin 16) :
    k0_pay2 v3 v5 v8 v20 (ix2 r d) = v20 (ix2 r d) + blockStat v3 v5 v8 r d := by
  unfold k0_pay2
  dsimp only
  rw [shapeCast_self]
  refine congrArg (v20 (ix2 r d) + ·) ?_
  rw [stack_apply, colsum_apply, colsum_apply]
  unfold blockStat
  by_cases hr : r.val = 0
  · rw [if_pos hr, if_pos hr]
    exact Finset.sum_congr rfl fun q _ => act_apply v3 v5 v8 q d
  · rw [if_neg hr, if_neg hr]
    refine Finset.sum_congr rfl fun q _ => ?_
    show _ * _ = _
    rw [act_apply]

end Cert.KernelIdeal.Value0

end
-- ==== Proof.KI.Value0.lean ====
/-
  The first pallas_call's result array. After grid point n the scratch holds, at (r, d), the sum over the points
  0 … n of each point's block table (by induction on the point: the first point adds its table to the zero table, every
  later point adds its table to what the point before left). The one write-back, at the last point, copies the scratch
  to the output block, which is the whole [2,16] array; so the array ends at the sum over all 200 points.
-/
import proofs.«128887_j13331578487174_2_alg».proof.Proof.KI.Pieces0
import proofs.«128887_j13331578487174_2_alg».proof.Proof.KI.Pay0

set_option maxRecDepth 16384

noncomputable section

namespace Cert.KernelIdeal.Value0

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- Grid point n's block table (zero past the grid: never used). -/
def ptStat (c : Dev nD) (n : ℕ) (r : Fin 2) (d : Fin 16) : EReal :=
  if h : n < cfg0.N then blockStat (iblk0 V c 0 ⟨n, h⟩) (iblk0 V c 1 ⟨n, h⟩) (iblk0 V c 2 ⟨n, h⟩) r d else 0

/-- The scratch after point n: the tables of points 0 … n summed. -/
theorem scratch_eq (c : Dev nD) : ∀ (n : ℕ) (h : n < cfg0.N) (r : Fin 2) (d : Fin 16),
    (outsAt0 V c n h).2 (ix2 r d) = ∑ s ∈ Finset.range (n + 1), ptStat V c s r d
  | 0, h, r, d => by
    rw [outsAt0_A V c ⟨0, h⟩ rfl (by decide : ¬(0 : ℕ) = 199)]
    dsimp only
    refine (congrFun (sout_A (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) scM0_0 (Memref.isWhole_whole _) _ _ (iblk0 V c 0 ⟨0, h⟩) (iblk0 V c 1 ⟨0, h⟩) (iblk0 V c 2 ⟨0, h⟩)) (ix2 r d)).trans ?_
    refine (pay2_apply (iblk0 V c 0 ⟨0, h⟩) (iblk0 V c 1 ⟨0, h⟩) (iblk0 V c 2 ⟨0, h⟩) (k0_pay1 (F := Ideal)) r d).trans ?_
    rw [pay1_apply, zero_add, Finset.sum_range_one]
    unfold ptStat
    rw [dif_pos h]
  | n + 1, h, r, d => by
    have ih := scratch_eq c n (Nat.lt_of_succ_lt h) r d
    by_cases h1 : n + 1 = 199
    · rw [outsAt0_C V c ⟨n + 1, h⟩ (Nat.succ_ne_zero n) h1]
      dsimp only
      refine (congrFun (sout_C (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) _ _ (iblk0 V c 0 ⟨n + 1, h⟩) (iblk0 V c 1 ⟨n + 1, h⟩) (iblk0 V c 2 ⟨n + 1, h⟩) (outsAt0 V c n (Nat.lt_of_succ_lt h)).2) (ix2 r d)).trans ?_
      refine (pay2_apply (iblk0 V c 0 ⟨n + 1, h⟩) (iblk0 V c 1 ⟨n + 1, h⟩) (iblk0 V c 2 ⟨n + 1, h⟩) (outsAt0 V c n (Nat.lt_of_succ_lt h)).2 r d).trans ?_
      rw [Finset.sum_range_succ _ (n + 1)]
      refine congrArg₂ (· + ·) ih ?_
      unfold ptStat
      rw [dif_pos h]
    · rw [outsAt0_B V c ⟨n + 1, h⟩ (Nat.succ_ne_zero n) h1]
      dsimp only
      refine (congrFun (sout_B (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) _ _ (iblk0 V c 0 ⟨n + 1, h⟩) (iblk0 V c 1 ⟨n + 1, h⟩) (iblk0 V c 2 ⟨n + 1, h⟩) (outsAt0 V c n (Nat.lt_of_succ_lt h)).2) (ix2 r d)).trans ?_
      refine (pay2_apply (iblk0 V c 0 ⟨n + 1, h⟩) (iblk0 V c 1 ⟨n + 1, h⟩) (iblk0 V c 2 ⟨n + 1, h⟩) (outsAt0 V c n (Nat.lt_of_succ_lt h)).2 r d).trans ?_
      rw [Finset.sum_range_succ _ (n + 1)]
      refine congrArg₂ (· + ·) ih ?_
      unfold ptStat
      rw [dif_pos h]

/-- The sum over all 200 points, as a [2,16] array. -/
def total (c : Dev nD) : S2x16.Idx → EReal := fun i => ∑ s ∈ Finset.range 200, ptStat V c s (i 0) (i 1)

/-- What the last point (any point whose position is 199) leaves in the output window's buffer is that array. -/
theorem out_last (c : Dev nD) (t : Fin cfg0.N) (h1 : t.val = 199) : (outsAt0 V c t.val t.isLt).1 = total V c := by
  have h0 : ¬t.val = 0 := by omega
  funext i
  obtain ⟨r, d, rfl⟩ : ∃ (r : Fin 2) (d : Fin 16), i = ix2 r d := ⟨i 0, i 1, eq_ix2 i⟩
  rw [outsAt0_C V c t h0 h1]
  dsimp only
  refine (congrFun (out_C (F := Ideal) c (grid0.coords t) (ms0_0 t) (hs0_0 t) (ms0_1 t) (hs0_1 t) (ms0_2 t) (hs0_2 t) (ms0_3 t) (hs0_3 t) scM0_0 (Memref.isWhole_whole _) _ _ (iblk0 V c 0 t) (iblk0 V c 1 t) (iblk0 V c 2 t) (outsAt0 V c (t.val - 1) (Nat.lt_of_le_of_lt (Nat.sub_le _ _) t.isLt)).2) (ix2 r d)).trans ?_
  refine (pay2_apply (iblk0 V c 0 t) (iblk0 V c 1 t) (iblk0 V c 2 t) (outsAt0 V c (t.val - 1) (Nat.lt_of_le_of_lt (Nat.sub_le _ _) t.isLt)).2 r d).trans ?_
  rw [scratch_eq V c (t.val - 1) _ r d]
  have e : Finset.range 200 = Finset.range (t.val - 1 + 1 + 1) := by rw [h1]
  show _ = ∑ s ∈ Finset.range 200, ptStat V c s r d
  rw [e, Finset.sum_range_succ _ (t.val - 1 + 1)]
  refine congrArg (_ + ·) ?_
  have e2 : t.val - 1 + 1 = t.val := by omega
  rw [e2]
  unfold ptStat
  rw [dif_pos t.isLt]

/-- The output window's index map and extents, over the whole grid. -/
theorem idx0_3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem xsize0_3 : ∀ t : Fin cfg0.N, win0_3.xsize (grid0.coords t) (0 : Fin 2) = 2 ∧ win0_3.xsize (grid0.coords t) (1 : Fin 2) = 16 :=
  (by decide +kernel : ∀ t : Fin grid0.N, win0_3.xsize (grid0.coords t) (0 : Fin 2) = 2 ∧ win0_3.xsize (grid0.coords t) (1 : Fin 2) = 16)

/-- The one write-back, at point 199, writes it: the output block is the whole array. -/
theorem flushed_eq0 (c : Dev nD) (t : Fin cfg0.N) (hf : (cfg0.win 3).flush t = true) :
    (dat0 V c).flushed 3 t = ((cfg0.win 3).blk t).view.read (Elt Ideal) (total V c) := by
  have hN : cfg0.N = 200 := N_0
  have h3 : t.val = 199 := by have := (flush0_3 t).mp hf; have := t.isLt; omega
  show (cfg0.win 3).cut (grid0.coords t) ((dat0 V c).after 3 t) = _
  rw [after0_3, out_last V c t h3]
  have hz' : (fun a => win0_3.index t a * main_v2.ty.shape.size a) = fun _ => 0 := funext fun a => by
    fin_cases a
    · show win0_3.index t 0 * _ = 0; rw [(idx0_3 t).1, Nat.zero_mul]
    · show win0_3.index t 1 * _ = 0; rw [(idx0_3 t).2, Nat.zero_mul]
  exact (Memref.read_access_unit_zero (Elt Ideal) main_v2 hz' (fun a => by rw [congrFun hz' a]; simp) (total V c)).symm

theorem h199 : 199 < cfg0.N := by rw [show cfg0.N = 200 from N_0]; decide
abbrev t199 : Fin cfg0.N := ⟨199, h199⟩

/-- So the first call's result array ends at the sum of all points' tables. -/
theorem final0 (c : Dev nD) : (dat0 V c).arrAt 3 cfg0.N = total V c :=
  (dat0 V c).arrAt_eq_of_cover 3 (total V c) (flushed_eq0 V c) fun i =>
    ⟨t199, (flush0_3 t199).mpr rfl, by
      show i ∈ ((View.whole main_v2).slice (win0_3.rect t199)).set
      rw [View.set_slice_whole, Rect.mem_set_unit]
      intro a
      have h0 : (i 0 : Nat) < 2 := (i 0).isLt
      have h1 : (i 1 : Nat) < 16 := (i 1).isLt
      match a with
      | ⟨0, _⟩ => show win0_3.index t199 0 * win0_3.size 0 ≤ (i 0 : Nat) ∧ (i 0 : Nat) < win0_3.index t199 0 * win0_3.size 0 + win0_3.xsize (grid0.coords t199) 0
                  rw [(idx0_3 t199).1, (xsize0_3 t199).1]; omega
      | ⟨1, _⟩ => show win0_3.index t199 1 * win0_3.size 1 ≤ (i 1 : Nat) ∧ (i 1 : Nat) < win0_3.index t199 1 * win0_3.size 1 + win0_3.xsize (grid0.coords t199) 1
                  rw [(idx0_3 t199).2, (xsize0_3 t199).2]; omega⟩

end Cert.KernelIdeal.Value0

end
-- ==== Proof.KI.Blocks0.lean ====
/-
  The first pallas_call's blocks read off the arrays it is entered with. Block p of the inputs is rows
  500·p … 500·p + 499 of the array; the weight and the bias row are staged whole. So row q = 35·a + t of block p is the
  activated linear layer at voxel 500·p + a, point t. And the regrouping: (p, q) ↦ (500·p + q / 35, q mod 35) is a
  bijection from (block, row in block) to (voxel, point), so a double sum over blocks and rows is the double sum over
  voxels and points.
-/
import proofs.«128887_j13331578487174_2_alg».proof.Proof.KI.Kit
import proofs.«128887_j13331578487174_2_alg».proof.Proof.KI.Pay0
import proofs.«128887_j13331578487174_2_alg».proof.Proof.Spec
import Idealize.ShloMosaic.Lib.Pipeline.Value

set_option maxRecDepth 16384

noncomputable section

namespace Cert.KernelIdeal.Value0

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! ## The blocks read off the arrays -/

theorem idx0_0 : ∀ t : Fin cfg0.N, win0_0.index t (0 : Fin 3) = t.val ∧ win0_0.index t (1 : Fin 3) = 0 ∧ win0_0.index t (2 : Fin 3) = 0 :=
  (by decide +kernel : ∀ t : Fin grid0.N, win0_0.index t (0 : Fin 3) = t.val ∧ win0_0.index t (1 : Fin 3) = 0 ∧ win0_0.index t (2 : Fin 3) = 0)
theorem idx0_1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
theorem idx0_2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)

theorem hN200 : cfg0.N = 200 := N_0
theorem tlt (t : Fin cfg0.N) : t.val < 200 := lt_of_lt_of_eq t.isLt N_0

/-- Row a of block t of the inputs is row 500·t + a of the array. -/
theorem blk0_read (c : Dev nD) (t : Fin cfg0.N) (a : Fin 500) (u : Fin 35) (k : Fin 7) :
    iblk0 V c 0 t (ix3 a u k)
      = V c main_arg0 (ix3 (⟨500 * t.val + a.val, by have := tlt t; omega⟩ : Fin 100000) u k) := by
  unfold iblk0
  rw [View.read_apply]
  show V c main_arg0 _ = V c main_arg0 _
  refine congrArg (V c main_arg0) (funext fun ax => Fin.ext ?_)
  match ax with
  | ⟨0, _⟩ => show win0_0.index t 0 * 500 + 1 * a.val = 500 * t.val + a.val; rw [(idx0_0 t).1]; omega
  | ⟨1, _⟩ => show win0_0.index t 1 * 35 + 1 * u.val = u.val; rw [(idx0_0 t).2.1]; omega
  | ⟨2, _⟩ => show win0_0.index t 2 * 7 + 1 * k.val = k.val; rw [(idx0_0 t).2.2]; omega

/-- The transposed weight is staged whole. -/
theorem blk1_read (c : Dev nD) (t : Fin cfg0.N) (k : Fin 7) (d : Fin 16) :
    iblk0 V c 1 t (ix2 k d) = V c main_v0 (ix2 k d) := by
  unfold iblk0
  rw [View.read_apply]
  show V c main_v0 _ = V c main_v0 _
  refine congrArg (V c main_v0) (funext fun ax => Fin.ext ?_)
  match ax with
  | ⟨0, _⟩ => show win0_1.index t 0 * 7 + 1 * k.val = k.val; rw [(idx0_1 t).1]; omega
  | ⟨1, _⟩ => show win0_1.index t 1 * 16 + 1 * d.val = d.val; rw [(idx0_1 t).2]; omega

/-- The bias row is staged whole. -/
theorem blk2_read (c : Dev nD) (t : Fin cfg0.N) (u : Fin 1) (d : Fin 16) :
    iblk0 V c 2 t (ix2 u d) = V c main_v1 (ix2 u d) := by
  unfold iblk0
  rw [View.read_apply]
  show V c main_v1 _ = V c main_v1 _
  refine congrArg (V c main_v1) (funext fun ax => Fin.ext ?_)
  match ax with
  | ⟨0, _⟩ => show win0_2.index t 0 * 1 + 1 * u.val = u.val; rw [(idx0_2 t).1]; omega
  | ⟨1, _⟩ => show win0_2.index t 1 * 16 + 1 * d.val = d.val; rw [(idx0_2 t).2]; omega

/-- Row q of block t is the activated linear layer at voxel 500·t + q / 35, point q mod 35. -/
theorem yrow_eq (c : Dev nD) (t : Fin cfg0.N) (q : Fin 17500) (d : Fin 16) :
    yrow (iblk0 V c 0 t) (iblk0 V c 1 t) (iblk0 V c 2 t) q d
      = Cert.Spec.linT (V c main_arg0) (V c main_v0) (V c main_v1)
          (⟨500 * t.val + q.val / 35, by have := tlt t; omega⟩ : Fin 100000) (⟨q.val % 35, by omega⟩ : Fin 35) d := by
  unfold yrow Cert.Spec.linT
  rw [blk2_read]
  refine congrArg (fun s => max (s + V c main_v1 (ix2 (0 : Fin 1) d)) 0) (Finset.sum_congr rfl fun k _ => ?_)
  rw [blk0_read, blk1_read]

/-! ## Blocks of rows regrouped as voxels and points -/

/-- (block, row in block) ↔ (voxel, point). -/
def regroupEquiv : Fin 200 × Fin 17500 ≃ Fin 100000 × Fin 35 where
  toFun x := (⟨500 * x.1.val + x.2.val / 35, by omega⟩, ⟨x.2.val % 35, by omega⟩)
  invFun y := (⟨y.1.val / 500, by omega⟩, ⟨35 * (y.1.val % 500) + y.2.val, by omega⟩)
  left_inv x := by
    refine Prod.ext (Fin.ext ?_) (Fin.ext ?_)
    · show (500 * x.1.val + x.2.val / 35) / 500 = x.1.val
      have := x.2.isLt; omega
    · show 35 * ((500 * x.1.val + x.2.val / 35) % 500) + x.2.val % 35 = x.2.val
      have := x.2.isLt; omega
  right_inv y := by
    refine Prod.ext (Fin.ext ?_) (Fin.ext ?_)
    · show 500 * (y.1.val / 500) + (35 * (y.1.val % 500) + y.2.val) / 35 = y.1.val
      have := y.2.isLt; omega
    · show (35 * (y.1.val % 500) + y.2.val) % 35 = y.2.val
      have := y.2.isLt; omega

theorem regroup {M : Type} [AddCommMonoid M] (f : Fin 100000 → Fin 35 → M) :
    ∑ p : Fin 200, ∑ q : Fin 17500, f (⟨500 * p.val + q.val / 35, by omega⟩ : Fin 100000) (⟨q.val % 35, by omega⟩ : Fin 35)
      = ∑ k : Fin 100000, ∑ t : Fin 35, f k t := by
  rw [← Fintype.sum_prod_type', ← Fintype.sum_prod_type']
  exact Fintype.sum_equiv regroupEquiv _ _ fun x => rfl

end Cert.KernelIdeal.Value0

end
-- ==== Proof.KI.Stats0.lean ====
/-
  The first pallas_call's result array is the specification's table: the sum over the 200 blocks of each block's sums
  over its 17500 rows, regrouped as the sum over all voxels and points.
-/
import proofs.«128887_j13331578487174_2_alg».proof.Proof.KI.Value0
import proofs.«128887_j13331578487174_2_alg».proof.Proof.KI.Blocks0

set_option maxRecDepth 16384

noncomputable section

namespace Cert.KernelIdeal.Value0

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! ## The result array is the specification's table -/

theorem total_eq (c : Dev nD) : total V c = Cert.Spec.stats (V c main_arg0) (V c main_v0) (V c main_v1) := by
  funext i
  obtain ⟨r, d, rfl⟩ : ∃ (r : Fin 2) (d : Fin 16), i = ix2 r d := ⟨i 0, i 1, eq_ix2 i⟩
  show ∑ s ∈ Finset.range 200, ptStat V c s r d = if r.val = 0 then Cert.Spec.sum1 _ d else Cert.Spec.sum2 _ d
  rw [Finset.sum_range]
  have hpt : ∀ s : Fin 200, ptStat V c s.val r d
      = blockStat (iblk0 V c 0 ⟨s.val, by rw [hN200]; exact s.isLt⟩) (iblk0 V c 1 ⟨s.val, by rw [hN200]; exact s.isLt⟩) (iblk0 V c 2 ⟨s.val, by rw [hN200]; exact s.isLt⟩) r d :=
    fun s => by unfold ptStat; rw [dif_pos (by rw [hN200]; exact s.isLt)]
  simp only [hpt]
  unfold blockStat
  by_cases hr : r.val = 0
  · simp only [if_pos hr]
    unfold Cert.Spec.sum1
    rw [← regroup (fun k t => Cert.Spec.linT (V c main_arg0) (V c main_v0) (V c main_v1) k t d)]
    exact Finset.sum_congr rfl fun p _ => Finset.sum_congr rfl fun q _ => yrow_eq V c _ q d
  · simp only [if_neg hr]
    unfold Cert.Spec.sum2
    rw [← regroup (fun k t => Cert.Spec.linT (V c main_arg0) (V c main_v0) (V c main_v1) k t d * Cert.Spec.linT (V c main_arg0) (V c main_v0) (V c main_v1) k t d)]
    exact Finset.sum_congr rfl fun p _ => Finset.sum_congr rfl fun q _ => by rw [yrow_eq V c _ q d]

/-- The first pallas_call's result array is the specification's table of sums and sums of squares. -/
theorem stats_final (c : Dev nD) :
    (dat0 V c).arrAt 3 cfg0.N = Cert.Spec.stats (V c main_arg0) (V c main_v0) (V c main_v1) :=
  (final0 V c).trans (total_eq V c)

end Cert.KernelIdeal.Value0

end
-- ==== Proof.KI.Pay1.lean ====
/-
  The arithmetic of the second pallas_call's body, read one element at a time over the extended reals.
  The body works on a block of 250 voxels. It flattens the block's [250,35,7] inputs to 8750 rows of 7, multiplies
  by the transposed weight [7,16], adds the bias row and clamps at zero; it folds the rows back to [250,35,16],
  multiplies by the scale row and adds the shift row; it takes each voxel's maximum over its 35 points, lays the 16
  normalised channels beside the 16 pooled ones, and multiplies by the mask read as a number. Row 35·p + t of the
  flattened block is point t of voxel p, so at element (p, t, j) of the block the result is: for j < 16, channel j of
  the normalised activations of point (p, t); for j ≥ 16, the maximum over the voxel's points of channel j − 16;
  either one times the mask of (p, t).
-/
import proofs.«128887_j13331578487174_2_alg».proof.Proof.Gen.KernelIdeal.Skeleton
import proofs.«128887_j13331578487174_2_alg».proof.Proof.Spec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Value1

open Cert.KernelIdeal Cert.KernelIdeal.Gen
open Idealize.ShloMosaic Idealize.ShloMosaic.ValueIdx

/-! ## The matrix product's operand indices -/

theorem lhs_0 (i : S8750x16.Idx) (q : dot_S8750x7_S7x16_S8750x16_1_0_0_1_n_n.contr.Idx) :
    (dot_S8750x7_S7x16_S8750x16_1_0_0_1_n_n.lhsIdx i q 0).val = (i 0).val := by
  unfold DotDims.lhsIdx
  rw [dif_neg (show ¬(0 : Fin S8750x7.rank) ∈ dot_S8750x7_S7x16_S8750x16_1_0_0_1_n_n.lhsBatch by decide),
    dif_pos (show (0 : Fin S8750x7.rank) ∈ dot_S8750x7_S7x16_S8750x16_1_0_0_1_n_n.lhsNonContracting by decide)]
  rfl
theorem lhs_1 (i : S8750x16.Idx) (q : dot_S8750x7_S7x16_S8750x16_1_0_0_1_n_n.contr.Idx) :
    (dot_S8750x7_S7x16_S8750x16_1_0_0_1_n_n.lhsIdx i q 1).val = (q ⟨0, by decide⟩).val :=
  dot_S8750x7_S7x16_S8750x16_1_0_0_1_n_n.lhsIdx_val_of_single rfl i q
theorem rhs_0 (i : S8750x16.Idx) (q : dot_S8750x7_S7x16_S8750x16_1_0_0_1_n_n.contr.Idx) :
    (dot_S8750x7_S7x16_S8750x16_1_0_0_1_n_n.rhsIdx i q 0).val = (q ⟨0, by decide⟩).val :=
  dot_S8750x7_S7x16_S8750x16_1_0_0_1_n_n.rhsIdx_val_of_single rfl i q
theorem rhs_1 (i : S8750x16.Idx) (q : dot_S8750x7_S7x16_S8750x16_1_0_0_1_n_n.contr.Idx) :
    (dot_S8750x7_S7x16_S8750x16_1_0_0_1_n_n.rhsIdx i q 1).val = (i 1).val := by
  unfold DotDims.rhsIdx
  rw [dif_neg (show ¬(1 : Fin S7x16.rank) ∈ dot_S8750x7_S7x16_S8750x16_1_0_0_1_n_n.rhsBatch by decide),
    dif_pos (show (1 : Fin S7x16.rank) ∈ dot_S8750x7_S7x16_S8750x16_1_0_0_1_n_n.rhsNonContracting by decide)]
  rfl

/-- The product of the flattened block with the transposed weight, into the zero splat, at row 35·p + t and channel d:
    the inner product of point (p, t)'s seven inputs with the weight's column d. -/
theorem mm_apply (x0 : FVec Ideal S250x35x7 .f32) (x2 : FVec Ideal S7x16 .f32) (p : Fin 250) (t : Fin 35) (d : Fin 16)
    (q : Fin 8750) (hq : q.val = 35 * p.val + t.val) :
    matmul dot_S8750x7_S7x16_S8750x16_1_0_0_1_n_n (some .fp32) (shapeCast S8750x7 x0 shapeCasts_S250x35x7_S8750x7)
        (shapeCast S7x16 x2 shapeCasts_S7x16_S7x16) (constant (F := Ideal) S8750x16 .f32 0x00000000#32) (ix2 q d)
      = ∑ c : Fin 7, x0 (ix3 p t c) * x2 (ix2 c d) := by
  simp only [matmul]
  rw [Ideal.matmul_constant_zero_apply,
    ← Equiv.sum_comp (contrEquiv1 dot_S8750x7_S7x16_S8750x16_1_0_0_1_n_n 7 rfl rfl).symm, shapeCast_self]
  refine Finset.sum_congr rfl fun k _ => ?_
  have hk := contrEquiv1_symm_val dot_S8750x7_S7x16_S8750x16_1_0_0_1_n_n 7 rfl rfl k
  congr 1
  · refine shapeCast_apply x0 _ _ (ix3 p t k) ?_
    rw [Shape.rowMajor_val_three, Shape.rowMajor_val_two, lhs_0, lhs_1, hk]
    show (p.val * 35 + t.val) * 7 + k.val = q.val * 7 + k.val
    rw [hq, Nat.mul_comm 35]
  · refine congrArg x2 (funext fun a => Fin.ext ?_)
    match a with
    | ⟨0, _⟩ => exact (rhs_0 _ _).trans hk
    | ⟨1, _⟩ => exact rhs_1 _ _

/-! ## The layout operations of the body, one at a time -/

/-- Bias added to the product, clamped at zero, at row q and channel d. -/
theorem relu_apply (M : FVec Ideal S8750x16 .f32) (x3 : FVec Ideal S1x16 .f32) (q : Fin 8750) (d : Fin 16) :
    maximumf (addf M (broadcastTo S8750x16 (shapeCast S1x16 x3 shapeCasts_S1x16_S1x16) broadcasts_S1x16_S8750x16))
        (broadcast S8750x16 (Scalar.ofBits (F := Ideal) .f32 0x00000000#32)) (ix2 q d)
      = max (M (ix2 q d) + x3 (ix2 (0 : Fin 1) d)) 0 := by
  show max (M (ix2 q d) + broadcastTo S8750x16 (shapeCast S1x16 x3 shapeCasts_S1x16_S1x16) broadcasts_S1x16_S8750x16 (ix2 q d))
      (Ideal.ofBits .f32 0x00000000#32) = _
  rw [Ideal.ofBits_zero_f32, shapeCast_self, broadcastTo_1b_ab_apply]

/-- The rows folded back into voxels and points: entry (p, t) is row 35·p + t. -/
theorem unflatten_apply (R : FVec Ideal S8750x16 .f32) (p : Fin 250) (t : Fin 35) (d : Fin 16) :
    shapeCast S250x35x16 R shapeCasts_S8750x16_S250x35x16 (ix3 p t d)
      = R (ix2 ⟨35 * p.val + t.val, by have := p.isLt; have := t.isLt; omega⟩ d) :=
  shapeCast_apply R _ _ _ (by
    rw [Shape.rowMajor_val_two, Shape.rowMajor_val_three]
    show (35 * p.val + t.val) * 16 + d.val = (p.val * 35 + t.val) * 16 + d.val
    rw [Nat.mul_comm 35])

/-- A [1,16] row, viewed [1,1,16] and spread over the block, reads the row's channel d everywhere. -/
theorem row_apply (v : FVec Ideal S1x16 .f32) (p : Fin 250) (t : Fin 35) (d : Fin 16) :
    broadcastTo S250x35x16 (shapeCast S1x1x16 (shapeCast S1x16 v shapeCasts_S1x16_S1x16) shapeCasts_S1x16_S1x1x16)
        broadcasts_S1x1x16_S250x35x16 (ix3 p t d)
      = v (ix2 (0 : Fin 1) d) := by
  rw [shapeCast_self]
  refine (broadcastTo_apply _ broadcasts_S1x1x16_S250x35x16 (ix3 p t d) (ix3 (0 : Fin 1) (0 : Fin 1) d) (fun a => ?_)).trans ?_
  · match a with
    | ⟨0, _⟩ => show 0 = if (1 : Nat) = 1 then 0 else p.val; rw [if_pos rfl]
    | ⟨1, _⟩ => show 0 = if (1 : Nat) = 1 then 0 else t.val; rw [if_pos rfl]
    | ⟨2, _⟩ => show d.val = if (16 : Nat) = 1 then 0 else d.val; rw [if_neg (by decide)]
  · exact shapeCast_ab_1ab_apply v _ (0 : Fin 1) (0 : Fin 1) d

/-- Scale and shift applied, at (p, t, d). -/
theorem affine_apply (Y : FVec Ideal S250x35x16 .f32) (x4 x5 : FVec Ideal S1x16 .f32) (p : Fin 250) (t : Fin 35) (d : Fin 16) :
    addf (mulf Y (broadcastTo S250x35x16 (shapeCast S1x1x16 (shapeCast S1x16 x4 shapeCasts_S1x16_S1x16) shapeCasts_S1x16_S1x1x16)
          broadcasts_S1x1x16_S250x35x16))
        (broadcastTo S250x35x16 (shapeCast S1x1x16 (shapeCast S1x16 x5 shapeCasts_S1x16_S1x16) shapeCasts_S1x16_S1x1x16)
          broadcasts_S1x1x16_S250x35x16) (ix3 p t d)
      = Y (ix3 p t d) * x4 (ix2 (0 : Fin 1) d) + x5 (ix2 (0 : Fin 1) d) := by
  rw [addf_apply, mulf_apply, row_apply, row_apply]

/-- A voxel's maximum over its points, laid back over the points: at (p, t, d) it is the maximum over t' of the
    operand at (p, t', d), started from −∞. -/
theorem pool_apply (Y : FVec Ideal S250x35x16 .f32) (p : Fin 250) (t : Fin 35) (d : Fin 16) :
    broadcastTo S250x35x16
        (shapeCast S250x1x16
          (shapeCast S250x1x16
            (multiReduction .maximumf [1] S250x16 Y 0xFF800000#32 reduces_S250x35x16_S250x16 (.inl rfl) rfl)
            shapeCasts_S250x16_S250x1x16)
          shapeCasts_S250x1x16_S250x1x16)
        broadcasts_S250x1x16_S250x35x16 (ix3 p t d)
      = (Finset.univ : Finset (Fin 35)).fold max Cert.Spec.negInf (fun t' => Y (ix3 p t' d)) := by
  rw [shapeCast_self]
  refine (broadcastTo_apply _ broadcasts_S250x1x16_S250x35x16 (ix3 p t d) (ix3 p (0 : Fin 1) d) (fun a => ?_)).trans ?_
  · match a with
    | ⟨0, _⟩ => show p.val = if (250 : Nat) = 1 then 0 else p.val; rw [if_neg (by decide)]
    | ⟨1, _⟩ => show 0 = if (1 : Nat) = 1 then 0 else t.val; rw [if_pos rfl]
    | ⟨2, _⟩ => show d.val = if (16 : Nat) = 1 then 0 else d.val; rw [if_neg (by decide)]
  refine (shapeCast_apply _ shapeCasts_S250x16_S250x1x16 (ix3 p (0 : Fin 1) d) (ix2 p d) ?_).trans ?_
  · rw [Shape.rowMajor_val_two, Shape.rowMajor_val_three]
    show p.val * 16 + d.val = (p.val * 1 + 0) * 16 + d.val
    omega
  refine (Ideal.multiReduction_maximumf_single Y _ reduces_S250x35x16_S250x16 (.inl rfl) rfl (ix2 p d)).trans ?_
  show (Finset.univ : Finset (Fin 35)).fold max (Ideal.ofBits .f32 0xFF800000#32)
      (fun t' => Y (reduces_S250x35x16_S250x16.lift (ix2 p d) t')) = _
  unfold Cert.Spec.negInf
  have e : (fun t' : Fin 35 => Y (reduces_S250x35x16_S250x16.lift (ix2 p d) t')) = fun t' => Y (ix3 p t' d) :=
    funext fun t' => congrArg Y (funext fun a => Fin.ext (by
      match a with
      | ⟨0, _⟩ => rfl
      | ⟨1, _⟩ => rfl
      | ⟨2, _⟩ => rfl))
  exact congrArg (fun f => Finset.fold max (Ideal.ofBits .f32 0xFF800000#32) f (Finset.univ : Finset (Fin 35))) e

/-- Two [250,35,16] blocks laid side by side along the channels: the first below channel 16, the second from it. -/
theorem concat_apply (Y Z : FVec Ideal S250x35x16 .f32) (p : Fin 250) (t : Fin 35) (j : Fin 32) :
    concatenate S250x35x32 2 [⟨S250x35x16, Y⟩, ⟨S250x35x16, Z⟩] concatenates_S250x35x16_S250x35x16_S250x35x32_d2 (ix3 p t j)
      = if h : j.val < 16 then Y (ix3 p t ⟨j.val, h⟩) else Z (ix3 p t ⟨j.val - 16, by have := j.isLt; omega⟩) := by
  split
  · rename_i h
    exact concatenate_pair_apply_left (t := S250x35x32) (2 : Fin 3) Y Z _ (ix3 p t j) rfl (ix3 p t ⟨j.val, h⟩)
      (fun b => match b with | ⟨0, _⟩ => rfl | ⟨1, _⟩ => rfl | ⟨2, _⟩ => rfl)
  · rename_i h
    exact concatenate_pair_apply_right (t := S250x35x32) (2 : Fin 3) Y Z _ (ix3 p t j) rfl rfl
      (ix3 p t ⟨j.val - 16, by have := j.isLt; omega⟩)
      (fun b hb => match b, hb with
        | ⟨0, _⟩, _ => rfl
        | ⟨1, _⟩, _ => rfl
        | ⟨2, _⟩, hb => absurd rfl hb)
      (by show (j.val - 16) + 16 = j.val; omega)

/-- The mask block read as numbers and spread over the 32 channels. -/
theorem mask_apply (x1 : Vec Ideal S250x35x1 .i32) (p : Fin 250) (t : Fin 35) (j : Fin 32) :
    broadcastTo S250x35x32 (sitofp (F := Ideal) .f32 x1) broadcasts_S250x35x1_S250x35x32 (ix3 p t j)
      = (((x1 (ix3 p t (0 : Fin 1))).toInt : ℝ) : EReal) := by
  refine (broadcastTo_apply _ broadcasts_S250x35x1_S250x35x32 (ix3 p t j) (ix3 p t (0 : Fin 1)) (fun a => ?_)).trans rfl
  match a with
  | ⟨0, _⟩ => show p.val = if (250 : Nat) = 1 then 0 else p.val; rw [if_neg (by decide)]
  | ⟨1, _⟩ => show t.val = if (35 : Nat) = 1 then 0 else t.val; rw [if_neg (by decide)]
  | ⟨2, _⟩ => show 0 = if (1 : Nat) = 1 then 0 else j.val; rw [if_pos rfl]

/-! ## The body's arithmetic, whole -/

/-- Channel d of the normalised activations of point (p, t) of a block: the linear layer clamped at zero, times the
    scale, plus the shift. -/
def act (x0 : S250x35x7.Idx → EReal) (x2 : S7x16.Idx → EReal) (x3 x4 x5 : S1x16.Idx → EReal)
    (p : Fin 250) (t : Fin 35) (d : Fin 16) : EReal :=
  max ((∑ c : Fin 7, x0 (ix3 p t c) * x2 (ix2 c d)) + x3 (ix2 (0 : Fin 1) d)) 0 * x4 (ix2 (0 : Fin 1) d)
    + x5 (ix2 (0 : Fin 1) d)

/-- The block of normalised activations as the body builds it: flatten, multiply, add the bias, clamp, fold back,
    scale and shift. -/
def actBlock (x0 : FVec Ideal S250x35x7 .f32) (x2 : FVec Ideal S7x16 .f32) (x3 x4 x5 : FVec Ideal S1x16 .f32) :
    FVec Ideal S250x35x16 .f32 :=
  addf (mulf (shapeCast S250x35x16
        (maximumf (addf (matmul dot_S8750x7_S7x16_S8750x16_1_0_0_1_n_n (some .fp32)
              (shapeCast S8750x7 x0 shapeCasts_S250x35x7_S8750x7) (shapeCast S7x16 x2 shapeCasts_S7x16_S7x16)
              (constant (F := Ideal) S8750x16 .f32 0x00000000#32))
            (broadcastTo S8750x16 (shapeCast S1x16 x3 shapeCasts_S1x16_S1x16) broadcasts_S1x16_S8750x16))
          (broadcast S8750x16 (Scalar.ofBits (F := Ideal) .f32 0x00000000#32)))
        shapeCasts_S8750x16_S250x35x16)
      (broadcastTo S250x35x16 (shapeCast S1x1x16 (shapeCast S1x16 x4 shapeCasts_S1x16_S1x16) shapeCasts_S1x16_S1x1x16)
        broadcasts_S1x1x16_S250x35x16))
    (broadcastTo S250x35x16 (shapeCast S1x1x16 (shapeCast S1x16 x5 shapeCasts_S1x16_S1x16) shapeCasts_S1x16_S1x1x16)
      broadcasts_S1x1x16_S250x35x16)

theorem actBlock_apply (x0 : FVec Ideal S250x35x7 .f32) (x2 : FVec Ideal S7x16 .f32) (x3 x4 x5 : FVec Ideal S1x16 .f32)
    (p : Fin 250) (t : Fin 35) (d : Fin 16) :
    actBlock x0 x2 x3 x4 x5 (ix3 p t d) = act x0 x2 x3 x4 x5 p t d :=
  (affine_apply _ x4 x5 p t d).trans (congrArg (fun z => z * x4 (ix2 (0 : Fin 1) d) + x5 (ix2 (0 : Fin 1) d))
    ((unflatten_apply _ p t d).trans ((relu_apply _ x3 _ d).trans
      (congrArg (fun z => max (z + x3 (ix2 (0 : Fin 1) d)) 0) (mm_apply x0 x2 p t d _ rfl)))))

/-- The body's stored value is: the activations beside their pooled maxima, times the mask. -/
theorem k1_pay1_eq (x0 : FVec Ideal S250x35x7 .f32) (x2 : FVec Ideal S7x16 .f32) (x3 x4 x5 : FVec Ideal S1x16 .f32)
    (x1 : Vec Ideal S250x35x1 .i32) :
    k1_pay1 x0 x2 x3 x4 x5 x1
      = mulf (concatenate S250x35x32 2
            [⟨S250x35x16, actBlock x0 x2 x3 x4 x5⟩,
             ⟨S250x35x16, broadcastTo S250x35x16
                (shapeCast S250x1x16
                  (shapeCast S250x1x16
                    (multiReduction .maximumf [1] S250x16 (actBlock x0 x2 x3 x4 x5) 0xFF800000#32 reduces_S250x35x16_S250x16 (.inl rfl) rfl)
                    shapeCasts_S250x16_S250x1x16)
                  shapeCasts_S250x1x16_S250x1x16)
                broadcasts_S250x1x16_S250x35x16⟩]
            concatenates_S250x35x16_S250x35x16_S250x35x32_d2)
          (broadcastTo S250x35x32 (sitofp (F := Ideal) .f32 x1) broadcasts_S250x35x1_S250x35x32) := rfl

/-- THE BODY'S VALUE AT AN ELEMENT (p, t, j) of the block. -/
theorem pay1_apply (x0 : FVec Ideal S250x35x7 .f32) (x2 : FVec Ideal S7x16 .f32) (x3 x4 x5 : FVec Ideal S1x16 .f32)
    (x1 : Vec Ideal S250x35x1 .i32) (p : Fin 250) (t : Fin 35) (j : Fin 32) :
    k1_pay1 x0 x2 x3 x4 x5 x1 (ix3 p t j)
      = (if h : j.val < 16 then act x0 x2 x3 x4 x5 p t ⟨j.val, h⟩
          else (Finset.univ : Finset (Fin 35)).fold max Cert.Spec.negInf
            (fun t' => act x0 x2 x3 x4 x5 p t' ⟨j.val - 16, by have := j.isLt; omega⟩))
        * (((x1 (ix3 p t (0 : Fin 1))).toInt : ℝ) : EReal) := by
  refine (congrFun (k1_pay1_eq x0 x2 x3 x4 x5 x1) (ix3 p t j)).trans ?_
  refine (mulf_apply _ _ _).trans ?_
  refine congrArg₂ (· * ·) ((concat_apply _ _ p t j).trans ?_) (mask_apply x1 p t j)
  by_cases h : j.val < 16
  · rw [dif_pos h, dif_pos h]
    exact actBlock_apply x0 x2 x3 x4 x5 p t _
  · rw [dif_neg h, dif_neg h]
    exact (pool_apply _ p t _).trans
      (congrArg (fun f => Finset.fold max Cert.Spec.negInf f (Finset.univ : Finset (Fin 35)))
        (funext fun t' => actBlock_apply x0 x2 x3 x4 x5 p t' _))

end Cert.KernelIdeal.Value1

end
-- ==== Proof.KI.Value1.lean ====
/-
  The value of the second pallas_call. Grid point t works on voxels 250·t … 250·t + 249: its input block and mask
  block are those voxels of the input and mask arrays, the transposed weight and the bias, scale and shift rows are
  whole, and the block it writes back is those voxels of the output array. A voxel's 35 points and 16 channels all lie
  inside one block, so the pooled maximum over a block row is the pooled maximum over the array row, and what point t
  writes back is block t of ONE function of the arrays the call is entered with: the second stage of the
  specification. The 400 blocks tile the output array (voxel k lies in the block of point k / 250), so after the run
  the output array is that function.
-/
import proofs.«128887_j13331578487174_2_alg».proof.Proof.KI.Region1
import proofs.«128887_j13331578487174_2_alg».proof.Proof.KI.Pay1
import proofs.«128887_j13331578487174_2_alg».proof.Proof.Spec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Value1

open Cert.KernelIdeal Cert.KernelIdeal.Gen Cert.KernelIdeal.Hand
open Idealize.ShloMosaic Idealize.ShloMosaic.ValueIdx
open Idealize.ShloMosaic.TcCoe Idealize.SL.Sem
open Idealize.ShloMosaic.Pipeline (Dat)

/-! ## Where the blocks sit in their arrays -/

theorem hz3 : (![0, 0, 0] : Fin 3 → Nat) = fun _ => 0 := funext fun a => by fin_cases a <;> rfl
theorem hz2 : (![0, 0] : Fin 2 → Nat) = fun _ => 0 := funext fun a => by fin_cases a <;> rfl

/-- The printed index maps, decided once over the 400 grid points: the input block, the mask block and the output
    block of point t are block t along the voxels; the weight and the three rows are whole. -/
theorem idx_facts1 : ∀ t : Fin cfg1.N,
    (win1_0.index t (0 : Fin 3) = t.val ∧ win1_0.index t (1 : Fin 3) = 0 ∧ win1_0.index t (2 : Fin 3) = 0)
    ∧ (win1_1.index t (0 : Fin 3) = t.val ∧ win1_1.index t (1 : Fin 3) = 0 ∧ win1_1.index t (2 : Fin 3) = 0)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 3) = t.val ∧ win1_6.index t (1 : Fin 3) = 0 ∧ win1_6.index t (2 : Fin 3) = 0) :=
  (by decide +kernel : ∀ t : Fin grid1.N, _)

theorem lt_N1 (t : Fin cfg1.N) : t.val < 400 := Nat.lt_of_lt_of_eq t.isLt N_1

/-- The voxel that is p-th in the block of grid point t. -/
def vox (t : Fin cfg1.N) (p : Fin 250) : Fin 100000 :=
  ⟨250 * t.val + p.val, by have := lt_N1 t; have := p.isLt; omega⟩

section Blocks
variable (V : (c : Dev nD) → (b : Ref sig .tc) → Buf (Elt Ideal) ((c : Thread nD τ).loc b)) (c : Dev nD) (t : Fin cfg1.N)

/-- The input block of point t is voxels 250·t … 250·t + 249 of the input array. -/
theorem iblk1_0_apply (p : Fin 250) (tt : Fin 35) (cc : Fin 7) :
    (iblk1 V c 0 t : Vec Ideal S250x35x7 .f32) (ix3 p tt cc)
      = (V c main_arg0 : Cert.Spec.SIn.Idx → EReal) (ix3 (vox t p) tt cc) := by
  obtain ⟨⟨e0, e1, e2⟩, -⟩ := idx_facts1 t
  unfold iblk1
  rw [View.read_apply]
  show V c main_arg0 _ = V c main_arg0 _
  congr 1
  funext a
  apply Fin.ext
  match a with
  | ⟨0, _⟩ => show win1_0.index t (0 : Fin 3) * 250 + 1 * p.val = 250 * t.val + p.val; rw [e0]; omega
  | ⟨1, _⟩ => show win1_0.index t (1 : Fin 3) * 35 + 1 * tt.val = tt.val; rw [e1]; omega
  | ⟨2, _⟩ => show win1_0.index t (2 : Fin 3) * 7 + 1 * cc.val = cc.val; rw [e2]; omega

/-- The mask block of point t is the same voxels of the mask array. -/
theorem iblk1_1_apply (p : Fin 250) (tt : Fin 35) (u : Fin 1) :
    (iblk1 V c 1 t : Vec Ideal S250x35x1 .i32) (ix3 p tt u)
      = (V c main_arg1 : Cert.Spec.SMask.Idx → BitVec 32) (ix3 (vox t p) tt u) := by
  obtain ⟨-, ⟨e0, e1, e2⟩, -⟩ := idx_facts1 t
  unfold iblk1
  rw [View.read_apply]
  show V c main_arg1 _ = V c main_arg1 _
  congr 1
  funext a
  apply Fin.ext
  match a with
  | ⟨0, _⟩ => show win1_1.index t (0 : Fin 3) * 250 + 1 * p.val = 250 * t.val + p.val; rw [e0]; omega
  | ⟨1, _⟩ => show win1_1.index t (1 : Fin 3) * 35 + 1 * tt.val = tt.val; rw [e1]; omega
  | ⟨2, _⟩ => show win1_1.index t (2 : Fin 3) * 1 + 1 * u.val = u.val; rw [e2]; omega

/-- The weight's block is the whole transposed weight. -/
theorem iblk1_2_apply (cc : Fin 7) (d : Fin 16) :
    (iblk1 V c 2 t : Vec Ideal S7x16 .f32) (ix2 cc d) = (V c main_v0 : Cert.Spec.SWt.Idx → EReal) (ix2 cc d) := by
  obtain ⟨-, -, ⟨e0, e1⟩, -⟩ := idx_facts1 t
  unfold iblk1
  rw [View.read_apply]
  show V c main_v0 _ = V c main_v0 _
  congr 1
  funext a
  apply Fin.ext
  match a with
  | ⟨0, _⟩ => show win1_2.index t (0 : Fin 2) * 7 + 1 * cc.val = cc.val; rw [e0]; omega
  | ⟨1, _⟩ => show win1_2.index t (1 : Fin 2) * 16 + 1 * d.val = d.val; rw [e1]; omega

/-- The bias row's block is the whole row. -/
theorem iblk1_3_apply (u : Fin 1) (d : Fin 16) :
    (iblk1 V c 3 t : Vec Ideal S1x16 .f32) (ix2 u d) = (V c main_v1 : Cert.Spec.SRow.Idx → EReal) (ix2 u d) := by
  obtain ⟨-, -, -, ⟨e0, e1⟩, -⟩ := idx_facts1 t
  unfold iblk1
  rw [View.read_apply]
  show V c main_v1 _ = V c main_v1 _
  congr 1
  funext a
  apply Fin.ext
  match a with
  | ⟨0, _⟩ => show win1_3.index t (0 : Fin 2) * 1 + 1 * u.val = u.val; rw [e0]; omega
  | ⟨1, _⟩ => show win1_3.index t (1 : Fin 2) * 16 + 1 * d.val = d.val; rw [e1]; omega

/-- The scale row's block is the whole row. -/
theorem iblk1_4_apply (u : Fin 1) (d : Fin 16) :
    (iblk1 V c 4 t : Vec Ideal S1x16 .f32) (ix2 u d) = (V c main_v21 : Cert.Spec.SRow.Idx → EReal) (ix2 u d) := by
  obtain ⟨-, -, -, -, ⟨e0, e1⟩, -⟩ := idx_facts1 t
  unfold iblk1
  rw [View.read_apply]
  show V c main_v21 _ = V c main_v21 _
  congr 1
  funext a
  apply Fin.ext
  match a with
  | ⟨0, _⟩ => show win1_4.index t (0 : Fin 2) * 1 + 1 * u.val = u.val; rw [e0]; omega
  | ⟨1, _⟩ => show win1_4.index t (1 : Fin 2) * 16 + 1 * d.val = d.val; rw [e1]; omega

/-- The shift row's block is the whole row. -/
theorem iblk1_5_apply (u : Fin 1) (d : Fin 16) :
    (iblk1 V c 5 t : Vec Ideal S1x16 .f32) (ix2 u d) = (V c main_v22 : Cert.Spec.SRow.Idx → EReal) (ix2 u d) := by
  obtain ⟨-, -, -, -, -, ⟨e0, e1⟩, -⟩ := idx_facts1 t
  unfold iblk1
  rw [View.read_apply]
  show V c main_v22 _ = V c main_v22 _
  congr 1
  funext a
  apply Fin.ext
  match a with
  | ⟨0, _⟩ => show win1_5.index t (0 : Fin 2) * 1 + 1 * u.val = u.val; rw [e0]; omega
  | ⟨1, _⟩ => show win1_5.index t (1 : Fin 2) * 16 + 1 * d.val = d.val; rw [e1]; omega

end Blocks

/-! ## One element of what a point writes -/

/-- Two functions on a three-axis index set that agree at every triple of coordinates are equal. -/
theorem funext_ix3 {n0 n1 n2 : Nat} {α : Type} (f g : (⟨3, ![n0, n1, n2]⟩ : Shape).Idx → α)
    (h : ∀ (a : Fin n0) (b : Fin n1) (c : Fin n2), f (ix3 a b c) = g (ix3 a b c)) : f = g :=
  funext fun y => by rw [eq_ix3 y]; exact h _ _ _

/-- When the six blocks are the arrays read at voxels K p (the rows whole), the body's value at element (p, t, j) of
    the block is the second stage's function of the arrays at (K p, t, j): a voxel's 35 points and 16 channels all
    lie in the one block, so the block row's pooled maximum is the array row's. -/
theorem point_eq (x0 : FVec Ideal S250x35x7 .f32) (x1 : Vec Ideal S250x35x1 .i32) (x2 : FVec Ideal S7x16 .f32)
    (x3 x4 x5 : FVec Ideal S1x16 .f32)
    (A0 : Cert.Spec.SIn.Idx → EReal) (A1 : Cert.Spec.SMask.Idx → BitVec 32) (A2 : Cert.Spec.SWt.Idx → EReal)
    (A3 A4 A5 : Cert.Spec.SRow.Idx → EReal) (K : Fin 250 → Fin 100000)
    (h0 : ∀ (p : Fin 250) (tt : Fin 35) (cc : Fin 7), x0 (ix3 p tt cc) = A0 (ix3 (K p) tt cc))
    (h1 : ∀ (p : Fin 250) (tt : Fin 35) (u : Fin 1), x1 (ix3 p tt u) = A1 (ix3 (K p) tt u))
    (h2 : ∀ (cc : Fin 7) (d : Fin 16), x2 (ix2 cc d) = A2 (ix2 cc d))
    (h3 : ∀ (u : Fin 1) (d : Fin 16), x3 (ix2 u d) = A3 (ix2 u d))
    (h4 : ∀ (u : Fin 1) (d : Fin 16), x4 (ix2 u d) = A4 (ix2 u d))
    (h5 : ∀ (u : Fin 1) (d : Fin 16), x5 (ix2 u d) = A5 (ix2 u d))
    (p : Fin 250) (tt : Fin 35) (j : Fin 32) :
    k1_pay1 x0 x2 x3 x4 x5 x1 (ix3 p tt j) = Cert.Spec.stage2 A0 A1 A2 A3 A4 A5 (ix3 (K p) tt j) := by
  have hact : ∀ (p' : Fin 250) (t' : Fin 35) (d : Fin 16), act x0 x2 x3 x4 x5 p' t' d
      = Cert.Spec.linT A0 A2 A3 (K p') t' d * A4 (ix2 (0 : Fin 1) d) + A5 (ix2 (0 : Fin 1) d) := by
    intro p' t' d
    unfold act Cert.Spec.linT
    simp only [h0, h2, h3, h4, h5]
  refine (pay1_apply x0 x2 x3 x4 x5 x1 p tt j).trans ?_
  simp only [hact, h1]
  rfl

/-! ## What a point writes back, the cover, the array after the run -/

section Final
variable (V : (c : Dev nD) → (b : Ref sig .tc) → Buf (Elt Ideal) ((c : Thread nD τ).loc b)) (c : Dev nD)

/-- WHAT POINT t WRITES BACK is block t of the second stage's function of the arrays the call is entered with. -/
theorem flushed1_eq (t : Fin cfg1.N) :
    (dat1 (F := Ideal) V c).flushed 6 t
      = ((cfg1.win 6).blk t).view.read (Elt Ideal)
          (Cert.Spec.stage2 (V c main_arg0) (V c main_arg1) (V c main_v0) (V c main_v1) (V c main_v21) (V c main_v22)) := by
  show (cfg1.win 6).cut (grid1.coords t) ((dat1 (F := Ideal) V c).after 6 t) = _
  rw [after1_6]
  unfold out1_6
  rw [View.canon_unit_zero hz3]
  simp only [View.ld_unit_zero (S := S250x35x7) hz3, View.ld_unit_zero (S := S250x35x1) hz3,
    View.ld_unit_zero (S := S7x16) hz2, View.ld_unit_zero (S := S1x16) hz2]
  refine funext_ix3 (n0 := 250) (n1 := 35) (n2 := 32) _ _ fun p tt j => ?_
  obtain ⟨-, -, -, -, -, -, ⟨e0, e1, e2⟩⟩ := idx_facts1 t
  refine (point_eq (iblk1 V c 0 t) (iblk1 V c 1 t) (iblk1 V c 2 t) (iblk1 V c 3 t) (iblk1 V c 4 t) (iblk1 V c 5 t)
    (V c main_arg0) (V c main_arg1) (V c main_v0) (V c main_v1) (V c main_v21) (V c main_v22) (vox t)
    (iblk1_0_apply V c t) (iblk1_1_apply V c t) (iblk1_2_apply V c t) (iblk1_3_apply V c t) (iblk1_4_apply V c t)
    (iblk1_5_apply V c t) p tt j).trans ?_
  rw [View.read_apply]
  show Cert.Spec.stage2 (V c main_arg0) (V c main_arg1) (V c main_v0) (V c main_v1) (V c main_v21) (V c main_v22) _
    = Cert.Spec.stage2 (V c main_arg0) (V c main_arg1) (V c main_v0) (V c main_v1) (V c main_v21) (V c main_v22) _
  congr 1
  funext a
  apply Fin.ext
  match a with
  | ⟨0, _⟩ => show 250 * t.val + p.val = win1_6.index t (0 : Fin 3) * 250 + 1 * p.val; rw [e0]; omega
  | ⟨1, _⟩ => show tt.val = win1_6.index t (1 : Fin 3) * 35 + 1 * tt.val; rw [e1]; omega
  | ⟨2, _⟩ => show j.val = win1_6.index t (2 : Fin 3) * 32 + 1 * j.val; rw [e2]; omega

/-- Every element of the output array is in some point's block: voxel k is in the block of point k / 250. -/
theorem cover1 (i : S100000x35x32.Idx) :
    ∃ t : Fin cfg1.N, (cfg1.win 6).flush t = true ∧ i ∈ ((cfg1.win 6).blk t).view.set := by
  have hi0 : (i 0).val < 100000 := (i 0).isLt
  have hi1 : (i 1).val < 35 := (i 1).isLt
  have hi2 : (i 2).val < 32 := (i 2).isLt
  obtain ⟨t, ht⟩ : ∃ t : Fin cfg1.N, t.val = (i 0).val / 250 :=
    ⟨⟨(i 0).val / 250, by rw [show cfg1.N = 400 from N_1]; omega⟩, rfl⟩
  obtain ⟨-, -, -, -, -, -, ⟨e0, e1, e2⟩⟩ := idx_facts1 t
  refine ⟨t, flush1_6 t, ?_⟩
  show i ∈ ((View.whole main_v23).slice (win1_6.rect t)).set
  rw [View.set_slice_whole, Rect.mem_set_unit]
  intro a
  match a with
  | ⟨0, _⟩ =>
    show win1_6.index t (0 : Fin 3) * 250 ≤ (i 0).val ∧ (i 0).val < win1_6.index t (0 : Fin 3) * 250 + 250
    rw [e0, ht]; omega
  | ⟨1, _⟩ =>
    show win1_6.index t (1 : Fin 3) * 35 ≤ (i 1).val ∧ (i 1).val < win1_6.index t (1 : Fin 3) * 35 + 35
    rw [e1]; omega
  | ⟨2, _⟩ =>
    show win1_6.index t (2 : Fin 3) * 32 ≤ (i 2).val ∧ (i 2).val < win1_6.index t (2 : Fin 3) * 32 + 32
    rw [e2]; omega

/-- THE OUTPUT ARRAY AFTER THE SECOND CALL: the second stage's function of the arrays the call is entered with. -/
theorem final1 :
    (dat1 (F := Ideal) V c).arrAt 6 cfg1.N
      = Cert.Spec.stage2 (V c main_arg0) (V c main_arg1) (V c main_v0) (V c main_v1) (V c main_v21) (V c main_v22) :=
  (dat1 (F := Ideal) V c).arrAt_eq_of_cover 6 _ (fun t _ => flushed1_eq V c t) (fun i => cover1 i)

end Final

end Cert.KernelIdeal.Value1

end
-- ==== Proof.KI.Assemble.lean ====
/-
  The kernel's result, put together. The second pallas_call's result array is the specification's stage 2 of the
  buffers it is entered with (module Value1); those are: the two arguments it stages, untouched since launch; the
  transposed weight and the bias row, written before the first call and untouched since; and the scale and shift rows,
  which the host computes from the first call's table of sums (modules Stats0, Host). Substituting, the result is the
  specification's one-pass route of the six arguments.
-/
import proofs.«128887_j13331578487174_2_alg».proof.Proof.KI.Host
import proofs.«128887_j13331578487174_2_alg».proof.Proof.KI.Stats0
import proofs.«128887_j13331578487174_2_alg».proof.Proof.KI.Value1

set_option maxRecDepth 16384

noncomputable section

namespace Cert.KernelIdeal.Assemble

open Cert.KernelIdeal Cert.KernelIdeal.Gen Cert.KernelIdeal.Hand Cert.KernelIdeal.Host
open Idealize.ShloMosaic Idealize.ShloMosaic.TcCoe Idealize.ShloMosaic.ValueIdx Idealize.SL.Sem Idealize.ShloMosaic.StableHlo
open Idealize.ShloMosaic.Pipeline (Dat)

variable (m : (ℓ : Loc nD τ sig) → Buf (Elt Ideal) ℓ) (ρ : Dev nD → PrngReg) (c : Dev nD)

/-! ## What passes through unchanged -/

theorem U1_arg0 : U1 m ρ c main_arg0 = m ((c : Thread nD τ).loc main_arg0) :=
  StableHlo.after_of_writes_sub hostOps0 _ hostOps0_writes (by decide)

/-- An input array of the first call leaves it as it entered. -/
theorem W2_in (w : Fin cfg0.W) (hw : (cfg0.win w).isOut = false) :
    W2 m ρ c (Proc.devRef .tc (Pipeline.arrRef spec0 w)) = W1 m ρ c (Proc.devRef .tc (Pipeline.arrRef spec0 w)) :=
  (W2_arr m ρ c w).trans (((dat0 (U1 m ρ) c).arrAt_in w hw _).trans (A_eq0 (U1 m ρ) c w))

theorem U3_arg0 : U3 m ρ c main_arg0 = m ((c : Thread nD τ).loc main_arg0) :=
  (StableHlo.after_of_writes_sub hostOps1 _ hostOps1_writes (by decide)).trans ((W2_in m ρ c 0 rfl).trans (U1_arg0 m ρ c))
theorem U3_arg1 : U3 m ρ c main_arg1 = m ((c : Thread nD τ).loc main_arg1) :=
  (StableHlo.after_of_writes_sub hostOps1 _ hostOps1_writes (by decide)).trans
    ((W2_of_ne m ρ c main_arg1 (by decide)).trans (StableHlo.after_of_writes_sub hostOps0 _ hostOps0_writes (by decide)))
theorem U3_v0 : U3 m ρ c main_v0 = U1 m ρ c main_v0 :=
  (StableHlo.after_of_writes_sub hostOps1 _ hostOps1_writes (by decide)).trans (W2_in m ρ c 1 rfl)
theorem U3_v1 : U3 m ρ c main_v1 = U1 m ρ c main_v1 :=
  (StableHlo.after_of_writes_sub hostOps1 _ hostOps1_writes (by decide)).trans (W2_in m ρ c 2 rfl)
theorem W2_arg4 : W2 m ρ c (Proc.devRef .tc main_arg4) = m ((c : Thread nD τ).loc main_arg4) :=
  (W2_of_ne m ρ c main_arg4 (by decide)).trans (StableHlo.after_of_writes_sub hostOps0 _ hostOps0_writes (by decide))
theorem W2_arg5 : W2 m ρ c (Proc.devRef .tc main_arg5) = m ((c : Thread nD τ).loc main_arg5) :=
  (W2_of_ne m ρ c main_arg5 (by decide)).trans (StableHlo.after_of_writes_sub hostOps0 _ hostOps0_writes (by decide))

/-- The first call's result buffer at the second boundary is the specification's table. -/
theorem W2_stats : W2 m ρ c (Proc.devRef .tc main_v2)
    = Cert.Spec.stats (m ((c : Thread nD τ).loc main_arg0)) (U1 m ρ c main_v0) (U1 m ρ c main_v1) := by
  refine (W2_arr m ρ c 3).trans ((Cert.KernelIdeal.Value0.stats_final (U1 m ρ) c).trans ?_)
  rw [U1_arg0]

/-! ## The linear layer as the kernel stages it is the linear layer -/

theorem linT_eq (k : Fin 100000) (t : Fin 35) (d : Fin 16) :
    Cert.Spec.linT (m ((c : Thread nD τ).loc main_arg0)) (U1 m ρ c main_v0) (U1 m ρ c main_v1) k t d
      = Cert.Spec.lin (m ((c : Thread nD τ).loc main_arg0)) (m ((c : Thread nD τ).loc main_arg2)) (m ((c : Thread nD τ).loc main_arg3)) k t d := by
  unfold Cert.Spec.linT Cert.Spec.lin
  have hb : (U1 m ρ c main_v1 : S1x16.Idx → EReal) (ix2 (0 : Fin 1) d) = m ((c : Thread nD τ).loc main_arg3) (ix1 d) :=
    host0_v1 (W0 m ρ c) d
  have hw : ∀ cc : Fin 7, (U1 m ρ c main_v0 : S7x16.Idx → EReal) (ix2 cc d) = m ((c : Thread nD τ).loc main_arg2) (ix2 d cc) :=
    fun cc => host0_v0 (W0 m ρ c) cc d
  rw [hb]
  exact congrArg (fun s => max (s + m ((c : Thread nD τ).loc main_arg3) (ix1 d)) 0) (Finset.sum_congr rfl fun cc _ => by rw [hw cc])

/-! ## The scale and the shift are the one-pass route's -/

theorem stats_row0 (inp : Cert.Spec.SIn.Idx → EReal) (Wt : Cert.Spec.SWt.Idx → EReal) (b2 : Cert.Spec.SRow.Idx → EReal) (d : Fin 16) :
    Cert.Spec.stats inp Wt b2 (ix2 (0 : Fin 2) d) = Cert.Spec.sum1 (Cert.Spec.linT inp Wt b2) d := by
  unfold Cert.Spec.stats; exact if_pos rfl
theorem stats_row1 (inp : Cert.Spec.SIn.Idx → EReal) (Wt : Cert.Spec.SWt.Idx → EReal) (b2 : Cert.Spec.SRow.Idx → EReal) (d : Fin 16) :
    Cert.Spec.stats inp Wt b2 (ix2 (1 : Fin 2) d) = Cert.Spec.sum2 (Cert.Spec.linT inp Wt b2) d := by
  unfold Cert.Spec.stats; exact if_neg (by decide : ¬((1 : Fin 2).val = 0))

theorem scaleOf_stats (inp : Cert.Spec.SIn.Idx → EReal) (Wt : Cert.Spec.SWt.Idx → EReal) (b2 : Cert.Spec.SRow.Idx → EReal) (g : S16.Idx → EReal) (d : Fin 16) :
    scaleOf (Cert.Spec.stats inp Wt b2) g d = Cert.Spec.scaleK (Cert.Spec.linT inp Wt b2) (fun d => g (ix1 d)) d := by
  unfold scaleOf varOf meanOf Cert.Spec.scaleK Cert.Spec.varK Cert.Spec.mean
  rw [stats_row0, stats_row1]
theorem shiftOf_stats (inp : Cert.Spec.SIn.Idx → EReal) (Wt : Cert.Spec.SWt.Idx → EReal) (b2 : Cert.Spec.SRow.Idx → EReal) (g be : S16.Idx → EReal) (d : Fin 16) :
    shiftOf (Cert.Spec.stats inp Wt b2) g be d = Cert.Spec.shiftK (Cert.Spec.linT inp Wt b2) (fun d => g (ix1 d)) (fun d => be (ix1 d)) d := by
  unfold shiftOf Cert.Spec.shiftK
  rw [scaleOf_stats]
  unfold meanOf Cert.Spec.mean
  rw [stats_row0]

/-! ## The kernel's result array -/

theorem kernel_value :
    (dat1 (F := Ideal) (U3 m ρ) c).arrAt 6 cfg1.N
      = Cert.Spec.kernelOut (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  refine (Cert.KernelIdeal.Value1.final1 (U3 m ρ) c).trans ?_
  rw [U3_arg0, U3_arg1, U3_v0, U3_v1]
  have hT : Cert.Spec.linT (m ((c : Thread nD τ).loc main_arg0)) (U1 m ρ c main_v0) (U1 m ρ c main_v1)
      = Cert.Spec.lin (m ((c : Thread nD τ).loc main_arg0)) (m ((c : Thread nD τ).loc main_arg2)) (m ((c : Thread nD τ).loc main_arg3)) :=
    funext fun k => funext fun t => funext fun d => linT_eq m ρ c k t d
  have hsc : ∀ d : Fin 16, (U3 m ρ c main_v21 : S1x16.Idx → EReal) (ix2 (0 : Fin 1) d)
      = Cert.Spec.scaleK (Cert.Spec.lin (m ((c : Thread nD τ).loc main_arg0)) (m ((c : Thread nD τ).loc main_arg2)) (m ((c : Thread nD τ).loc main_arg3)))
          (fun d => m ((c : Thread nD τ).loc main_arg4) (ix1 d)) d := fun d => by
    refine (host1_scale (W2 m ρ c) d).trans ?_
    rw [W2_stats, W2_arg4, scaleOf_stats, hT]
  have hsh : ∀ d : Fin 16, (U3 m ρ c main_v22 : S1x16.Idx → EReal) (ix2 (0 : Fin 1) d)
      = Cert.Spec.shiftK (Cert.Spec.lin (m ((c : Thread nD τ).loc main_arg0)) (m ((c : Thread nD τ).loc main_arg2)) (m ((c : Thread nD τ).loc main_arg3)))
          (fun d => m ((c : Thread nD τ).loc main_arg4) (ix1 d)) (fun d => m ((c : Thread nD τ).loc main_arg5) (ix1 d)) d := fun d => by
    refine (host1_shift (W2 m ρ c) d).trans ?_
    rw [W2_stats, W2_arg4, W2_arg5, shiftOf_stats, hT]
  funext i
  unfold Cert.Spec.stage2 Cert.Spec.kernelOut
  refine congrArg (fun xn => Cert.Spec.outOf xn _ (i 0) (i 1) (i 2)) ?_
  funext k t d
  unfold Cert.Spec.normK
  rw [hsc d, hsh d, hT]

end Cert.KernelIdeal.Assemble

end
-- ==== Proof.LibFolds.lean ====
/-
  Folds and sums over the fibres of a reduction, and maxima of extended reals.

  A reduction over several axes reads, at a result index `j`, the source indices whose kept coordinates are `j`
  (the fibre of `j`). When the fibre is listed without repetition by a map `e` from a finite type, a sum or a
  commutative, associative fold over the fibre is the same sum or fold over that type. A fold of `max` from `⊥`
  commutes with every monotone map that fixes `⊥`, and over a nonempty family of real numbers it is a real number.
-/
import Idealize.ShloMosaic.PureOps.Ideal

namespace Cert.LibFolds

open Finset

section Fibre

variable {ι τ κ : Type} [Fintype ι] [Fintype κ]

/-- The fibre of `j` under `drop` is the image of a map `e` that lands in it and reaches all of it. -/
theorem filter_eq_image [DecidableEq ι] (drop : ι → τ) (j : τ) [DecidablePred fun i => drop i = j] (e : κ → ι)
    (hmem : ∀ k, drop (e k) = j) (hsurj : ∀ i, drop i = j → ∃ k, e k = i) :
    (univ.filter fun i => drop i = j) = univ.image e := by
  ext i
  simp only [mem_filter, mem_univ, true_and, mem_image]
  exact ⟨hsurj i, fun ⟨k, hk⟩ => hk ▸ hmem k⟩

/-- A sum over the fibre is the sum over the parameters of an injective listing of it. -/
theorem sum_fibre {M : Type} [AddCommMonoid M] (drop : ι → τ) (j : τ) [DecidablePred fun i => drop i = j] (e : κ → ι)
    (hinj : Function.Injective e) (hmem : ∀ k, drop (e k) = j) (hsurj : ∀ i, drop i = j → ∃ k, e k = i) (x : ι → M) :
    ∑ i ∈ univ.filter (fun i => drop i = j), x i = ∑ k, x (e k) := by
  classical
  rw [filter_eq_image drop j e hmem hsurj, sum_image fun a _ b _ h => hinj h]

/-- A commutative, associative fold over the fibre is the fold over the parameters of an injective listing of it. -/
theorem fold_fibre {α : Type} (op : α → α → α) [Std.Commutative op] [Std.Associative op] (b : α) (drop : ι → τ) (j : τ)
    [DecidablePred fun i => drop i = j] (e : κ → ι)
    (hinj : Function.Injective e) (hmem : ∀ k, drop (e k) = j) (hsurj : ∀ i, drop i = j → ∃ k, e k = i) (x : ι → α) :
    (univ.filter fun i => drop i = j).fold op b x = univ.fold op b (fun k => x (e k)) := by
  classical
  rw [filter_eq_image drop j e hmem hsurj, fold_image fun a _ b _ h => hinj h]
  rfl

end Fibre

section Max

variable {ι : Type}

/-- A fold of `max` from `⊥` commutes with a monotone map that fixes `⊥`. -/
theorem fold_max_map (g : EReal → EReal) (hg : Monotone g) (hb : g ⊥ = ⊥) (s : Finset ι) (f : ι → EReal) :
    s.fold max ⊥ (fun k => g (f k)) = g (s.fold max ⊥ f) := by
  classical
  induction s using Finset.induction_on with
  | empty => simp [hb]
  | insert a s ha ih => rw [fold_insert ha, fold_insert ha, ih, hg.map_max]

/-- A fold of `max` from `⊥` over pairs is the fold over the first coordinate of the folds over the second. -/
theorem fold_max_prod {α β : Type} [Fintype α] [Fintype β] (f : α × β → EReal) :
    (univ : Finset (α × β)).fold max ⊥ f = univ.fold max ⊥ fun a => univ.fold max ⊥ fun b => f (a, b) := by
  refine le_antisymm ?_ ?_
  · rw [fold_max_le]
    refine ⟨bot_le, fun p _ => ?_⟩
    rw [le_fold_max]
    refine Or.inr ⟨p.1, mem_univ _, ?_⟩
    rw [le_fold_max]
    exact Or.inr ⟨p.2, mem_univ _, le_rfl⟩
  · rw [fold_max_le]
    refine ⟨bot_le, fun a _ => ?_⟩
    rw [fold_max_le]
    refine ⟨bot_le, fun b _ => ?_⟩
    rw [le_fold_max]
    exact Or.inr ⟨(a, b), mem_univ _, le_rfl⟩

/-- An extended real that is a real number. -/
def IsReal (x : EReal) : Prop := ∃ r : ℝ, x = (r : EReal)

/-- The maximum of a nonempty finite family of real numbers is a real number. -/
theorem isReal_fold_max (s : Finset ι) (hs : s.Nonempty) (f : ι → EReal) (hf : ∀ k ∈ s, IsReal (f k)) :
    IsReal (s.fold max ⊥ f) := by
  classical
  induction hs using Finset.Nonempty.cons_induction with
  | singleton a =>
    obtain ⟨r, hr⟩ := hf a (mem_singleton_self a)
    exact ⟨r, by rw [fold_singleton, hr, max_eq_left bot_le]⟩
  | cons a s ha hs ih =>
    obtain ⟨r, hr⟩ := hf a (mem_cons_self a s)
    obtain ⟨p, hp⟩ := ih fun k hk => hf k (mem_cons.2 (Or.inr hk))
    exact ⟨max r p, by rw [fold_cons, hr, hp]; exact (EReal.coe_strictMono.monotone.map_max).symm⟩

end Max

/-- The sum of real numbers, read in the extended reals, is the sum of their readings. -/
theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [sum_insert ha, sum_insert ha, EReal.coe_add, ih]

end Cert.LibFolds
-- ==== Proof.RefValue.lean ====
/-
  The reference program computes the specification's two-pass route.

  The reference's result is read one stage at a time, each stage at an index built from literal coordinates
  (voxel k < 100000, point t < 35, channel d < 16): the activated linear layer, its per-channel sum and mean,
  the centred squares' sum and the variance, the scale, the normalised activations, their maximum over a voxel's
  points, the two halves laid side by side on the channel axis, and the mask. Three steps are not pointwise:
  a sum over the voxel and point axes reads, at a channel d, the source indices whose channel is d, and these
  are listed once each by (k, t) ↦ (k, t, d); the maximum over the point axis reads, at (k, d), the indices
  listed once each by t ↦ (k, t, d); and the concatenation reads its first operand at channels below 16 and its
  second, sixteen channels back, from 16 on.
-/
import proofs.«128887_j13331578487174_2_alg».proof.Proof.RefRead
import proofs.«128887_j13331578487174_2_alg».proof.Proof.Spec
import proofs.«128887_j13331578487174_2_alg».proof.Proof.LibFolds
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx

/-! ## The three steps that are not pointwise, over arbitrary arrays -/

/-- Dropping axes 0 and 1 of an index of the activations leaves its channel. -/
theorem drop01_ix3 (k : Fin 100000) (t : Fin 35) (d : Fin 16) :
    reducesTo_S100000x35x16_S16_d0_1.drop (ix3 k t d) = ix1 d := by
  funext b
  match b with
  | ⟨0, _⟩ => exact Fin.ext (Shape.ReducesTo.drop_apply_val_of_eq reducesTo_S100000x35x16_S16_d0_1 (ix3 k t d) 0 2)

/-- The host's sum over the voxel and point axes, at a channel: the initial value plus the double sum. -/
theorem reduceAdd01_at (x : FVec Ideal S100000x35x16 .f32) (v : S_.Idx → Ideal .f32) (d : Fin 16) :
    Host.reduceAdd (F := Ideal) x v reducesTo_S100000x35x16_S16_d0_1 h_S_ (ix1 d)
      = v (Shape.Idx.first h_S_) + ∑ k : Fin 100000, ∑ t : Fin 35, x (ix3 k t d) := by
  show Ideal.hostReduceAdd reducesTo_S100000x35x16_S16_d0_1 x (v (Shape.Idx.first h_S_)) (ix1 d) = _
  unfold Ideal.hostReduceAdd
  rw [Cert.LibFolds.sum_fibre reducesTo_S100000x35x16_S16_d0_1.drop (ix1 d)
        (fun p : Fin 100000 × Fin 35 => (ix3 p.1 p.2 d : S100000x35x16.Idx)) ?_ ?_ ?_ x, Fintype.sum_prod_type]
  · intro p q h
    exact Prod.ext (congrFun h 0) (congrFun h 1)
  · intro p; exact drop01_ix3 p.1 p.2 d
  · intro i hi
    obtain ⟨a, b, c, rfl⟩ : ∃ (a : Fin 100000) (b : Fin 35) (c : Fin 16), i = ix3 a b c := ⟨i 0, i 1, i 2, eq_ix3 i⟩
    rw [drop01_ix3] at hi
    have hc : c = d := congrFun hi 0
    exact ⟨(a, b), by rw [hc]⟩

/-- Dropping axis 1 of an index of the activations leaves its voxel and channel. -/
theorem drop1_ix3 (k : Fin 100000) (t : Fin 35) (d : Fin 16) :
    reducesTo_S100000x35x16_S100000x16_d1.drop (ix3 k t d) = ix2 k d := by
  funext b
  match b with
  | ⟨0, _⟩ => exact Fin.ext (Shape.ReducesTo.drop_apply_val_of_eq reducesTo_S100000x35x16_S100000x16_d1 (ix3 k t d) 0 0)
  | ⟨1, _⟩ => exact Fin.ext (Shape.ReducesTo.drop_apply_val_of_eq reducesTo_S100000x35x16_S100000x16_d1 (ix3 k t d) 1 2)

/-- The host's maximum over the point axis, at a voxel and channel: the fold of `max` over the voxel's points. -/
theorem reduceMax1_at (x : FVec Ideal S100000x35x16 .f32) (v : S_.Idx → Ideal .f32) (k : Fin 100000) (d : Fin 16) :
    Host.reduce (FloatOps.maximumf (F := Ideal) (φ := .f32)) x v reducesTo_S100000x35x16_S100000x16_d1 h_S_ (ix2 k d)
      = (Finset.univ : Finset (Fin 35)).fold max (v (Shape.Idx.first h_S_)) (fun t => x (ix3 k t d)) := by
  rw [Host.reduce_eq_fold,
    Cert.LibFolds.fold_fibre _ _ reducesTo_S100000x35x16_S100000x16_d1.drop (ix2 k d)
        (fun t : Fin 35 => (ix3 k t d : S100000x35x16.Idx)) ?_ ?_ ?_ x]
  · rfl
  · intro p q h; exact congrFun h 1
  · intro p; exact drop1_ix3 k p d
  · intro i hi
    obtain ⟨a, b, c, rfl⟩ : ∃ (a : Fin 100000) (b : Fin 35) (c : Fin 16), i = ix3 a b c := ⟨i 0, i 1, i 2, eq_ix3 i⟩
    rw [drop1_ix3] at hi
    have ha : a = k := congrFun hi 0
    have hc : c = d := congrFun hi 1
    exact ⟨b, by rw [ha, hc]⟩

/-- The concatenation on the channel axis, at a channel below 16: the first operand. -/
theorem concat_left_at {α : Type} (a b : S100000x35x16.Idx → α) (k : Fin 100000) (t : Fin 35) (c : Fin 32) (h : c.val < 16) :
    concatenate S100000x35x32 2 [⟨S100000x35x16, a⟩, ⟨S100000x35x16, b⟩] concatenates_S100000x35x16_S100000x35x16_S100000x35x32_d2 (ix3 k t c)
      = a (ix3 k t ⟨c.val, h⟩) :=
  concatenate_pair_apply_left 2 a b _ (ix3 k t c) rfl (ix3 k t ⟨c.val, h⟩) (fun e => by
    match e with
    | ⟨0, _⟩ => rfl
    | ⟨1, _⟩ => rfl
    | ⟨2, _⟩ => rfl)

/-- The concatenation on the channel axis, at a channel from 16 on: the second operand, sixteen channels back. -/
theorem concat_right_at {α : Type} (a b : S100000x35x16.Idx → α) (k : Fin 100000) (t : Fin 35) (c : Fin 32) (h : ¬ c.val < 16) :
    concatenate S100000x35x32 2 [⟨S100000x35x16, a⟩, ⟨S100000x35x16, b⟩] concatenates_S100000x35x16_S100000x35x16_S100000x35x32_d2 (ix3 k t c)
      = b (ix3 k t ⟨c.val - 16, by omega⟩) :=
  concatenate_pair_apply_right 2 a b _ (ix3 k t c) rfl rfl (ix3 k t ⟨c.val - 16, by omega⟩) (fun e he => by
    match e, he with
    | ⟨0, _⟩, _ => rfl
    | ⟨1, _⟩, _ => rfl
    | ⟨2, _⟩, he => exact absurd rfl he) (by
    show c.val - 16 + 16 = c.val
    omega)

/-! ## The stages, each at an index of literal coordinates -/

section Stages

variable (x0 : (⟨S100000x35x7, .f32⟩ : BufTy).Contents (Elt Ideal)) (x1 : (⟨S100000x35x1, .i32⟩ : BufTy).Contents (Elt Ideal))
  (x2 : (⟨S16x7, .f32⟩ : BufTy).Contents (Elt Ideal)) (x3 x4 x5 : (⟨S16, .f32⟩ : BufTy).Contents (Elt Ideal))

/-- The activated linear layer: the contraction over the 7 input channels, plus the bias, against zero. -/
theorem lin_at (k : Fin 100000) (t : Fin 35) (d : Fin 16) :
    val_main_v5 (F := Ideal) x0 x2 x3 (ix3 k t d) = Spec.lin x0 x2 x3 k t d := by
  rw [val_main_v5_apply, val_main_v3_apply, val_main_v0_apply, val_main_v2_apply, val_main_v1_apply, val_main_v4_apply,
    val_main_cst_apply]
  have el : ∀ c : Fin 7, lidx_main_v0 (ix3 k t d) c = ix3 k t c := fun c => funext fun a => by
    match a with
    | ⟨0, _⟩ => rfl
    | ⟨1, _⟩ => rfl
    | ⟨2, _⟩ => rfl
  have er : ∀ c : Fin 7, ridx_main_v0 (ix3 k t d) c = ix2 d c := fun c => funext fun a => by
    match a with
    | ⟨0, _⟩ => rfl
    | ⟨1, _⟩ => rfl
  have eb : idx_main_v1 (idx_main_v2 (ix3 k t d)) = ix1 d := funext fun a => by
    match a with
    | ⟨0, _⟩ => rfl
  simp only [el, er, eb]
  rw [Ideal.ofBits_def, Ideal.ofBits_zero_f32]
  rfl

/-- The per-channel sum of the activations. -/
theorem sum1_at (d : Fin 16) :
    val_main_v6 (F := Ideal) x0 x2 x3 (ix1 d) = Spec.sum1 (Spec.lin x0 x2 x3) d := by
  unfold val_main_v6
  refine (reduceAdd01_at _ _ d).trans ?_
  rw [val_main_cst_0_apply, Ideal.ofBits_def, Ideal.ofBits_zero_f32, zero_add]
  simp only [lin_at]
  rfl

/-- The per-channel mean. -/
theorem mean_at (d : Fin 16) :
    val_main_v8 (F := Ideal) x0 x2 x3 (ix1 d) = Spec.mean (Spec.lin x0 x2 x3) d := by
  rw [val_main_v8_apply, sum1_at, val_main_v7_apply, val_main_cst_1_apply]
  rfl

/-- The mean broadcast back over voxels and points (its first use). -/
theorem mean_bc_at (k : Fin 100000) (t : Fin 35) (d : Fin 16) :
    val_main_v10 (F := Ideal) x0 x2 x3 (ix3 k t d) = Spec.mean (Spec.lin x0 x2 x3) d := by
  rw [val_main_v10_apply, val_main_v9_apply,
    show idx_main_v9 (idx_main_v10 (ix3 k t d)) = ix1 d from funext fun a => by
      match a with
      | ⟨0, _⟩ => rfl,
    mean_at]

/-- The mean broadcast back over voxels and points (its second use). -/
theorem mean_bc2_at (k : Fin 100000) (t : Fin 35) (d : Fin 16) :
    val_main_v17 (F := Ideal) x0 x2 x3 (ix3 k t d) = Spec.mean (Spec.lin x0 x2 x3) d := by
  rw [val_main_v17_apply, val_main_v16_apply,
    show idx_main_v16 (idx_main_v17 (ix3 k t d)) = ix1 d from funext fun a => by
      match a with
      | ⟨0, _⟩ => rfl,
    mean_at]

/-- The centred activations. -/
theorem centred_at (k : Fin 100000) (t : Fin 35) (d : Fin 16) :
    val_main_v11 (F := Ideal) x0 x2 x3 (ix3 k t d)
      = Spec.lin x0 x2 x3 k t d - Spec.mean (Spec.lin x0 x2 x3) d := by
  rw [val_main_v11_apply, lin_at, mean_bc_at]
  rfl

/-- The per-channel sum of the centred activations' squares. -/
theorem sqsum_at (d : Fin 16) :
    val_main_v13 (F := Ideal) x0 x2 x3 (ix1 d)
      = ∑ k : Fin 100000, ∑ t : Fin 35,
          (Spec.lin x0 x2 x3 k t d - Spec.mean (Spec.lin x0 x2 x3) d) * (Spec.lin x0 x2 x3 k t d - Spec.mean (Spec.lin x0 x2 x3) d) := by
  unfold val_main_v13
  refine (reduceAdd01_at _ _ d).trans ?_
  rw [val_main_cst_2_apply, Ideal.ofBits_def, Ideal.ofBits_zero_f32, zero_add]
  simp only [val_main_v12_apply, centred_at, Ideal.mulf_def]

/-- The per-channel variance of the two-pass route. -/
theorem varR_at (d : Fin 16) :
    val_main_v15 (F := Ideal) x0 x2 x3 (ix1 d) = Spec.varR (Spec.lin x0 x2 x3) d := by
  rw [val_main_v15_apply, sqsum_at, val_main_v14_apply, val_main_cst_3_apply]
  rfl

/-- The per-channel scale γ / √(var + ε). -/
theorem scaleR_at (d : Fin 16) :
    val_main_v22 (F := Ideal) x0 x2 x3 x4 (ix1 d) = Spec.scaleR (Spec.lin x0 x2 x3) (fun d => x4 (ix1 d)) d := by
  rw [val_main_v22_apply, val_main_v21_apply, val_main_v20_apply, varR_at, val_main_v19_apply, val_main_cst_4_apply]
  rfl

/-- The normalised activations. -/
theorem normR_at (k : Fin 100000) (t : Fin 35) (d : Fin 16) :
    val_main_v28 (F := Ideal) x0 x2 x3 x4 x5 (ix3 k t d)
      = Spec.normR (Spec.lin x0 x2 x3) (fun d => x4 (ix1 d)) (fun d => x5 (ix1 d)) k t d := by
  rw [val_main_v28_apply, val_main_v25_apply, val_main_v18_apply, lin_at, mean_bc2_at, val_main_v24_apply, val_main_v23_apply,
    show idx_main_v23 (idx_main_v24 (ix3 k t d)) = ix1 d from funext fun a => by
      match a with
      | ⟨0, _⟩ => rfl,
    scaleR_at, val_main_v27_apply, val_main_v26_apply,
    show idx_main_v26 (idx_main_v27 (ix3 k t d)) = ix1 d from funext fun a => by
      match a with
      | ⟨0, _⟩ => rfl]
  rfl

/-- A voxel's maximum over its points, per channel. -/
theorem pooled_at (k : Fin 100000) (d : Fin 16) :
    val_main_v29 (F := Ideal) x0 x2 x3 x4 x5 (ix2 k d)
      = Spec.pooled (Spec.normR (Spec.lin x0 x2 x3) (fun d => x4 (ix1 d)) (fun d => x5 (ix1 d))) k d := by
  unfold val_main_v29
  refine (reduceMax1_at _ _ k d).trans ?_
  rw [val_main_cst_5_apply]
  simp only [normR_at]
  rfl

/-- The maximum broadcast back over the voxel's points. -/
theorem pooled_bc_at (k : Fin 100000) (t : Fin 35) (d : Fin 16) :
    val_main_v31 (F := Ideal) x0 x2 x3 x4 x5 (ix3 k t d)
      = Spec.pooled (Spec.normR (Spec.lin x0 x2 x3) (fun d => x4 (ix1 d)) (fun d => x5 (ix1 d))) k d := by
  rw [val_main_v31_apply, val_main_v30_apply,
    show idx_main_v30 (idx_main_v31 (ix3 k t d)) = ix2 k d from funext fun a => by
      match a with
      | ⟨0, _⟩ => rfl
      | ⟨1, _⟩ => rfl,
    pooled_at]

/-- The mask as a number, broadcast over the 32 output channels. -/
theorem mask_at (k : Fin 100000) (t : Fin 35) (c : Fin 32) :
    val_main_v34 (F := Ideal) x1 (ix3 k t c) = Spec.maskOf x1 k t := by
  rw [val_main_v34_apply, val_main_v33_apply,
    show idx_main_v34 (ix3 k t c) = ix3 k t (0 : Fin 1) from funext fun a => by
      match a with
      | ⟨0, _⟩ => rfl
      | ⟨1, _⟩ => rfl
      | ⟨2, _⟩ => rfl]
  rfl

/-- The output at (k, t, c): the normalised channel c below 16, the pooled channel c − 16 from 16 on; times the mask. -/
theorem out_at (k : Fin 100000) (t : Fin 35) (c : Fin 32) :
    val_main_v35 (F := Ideal) x0 x1 x2 x3 x4 x5 (ix3 k t c)
      = Spec.outOf (Spec.normR (Spec.lin x0 x2 x3) (fun d => x4 (ix1 d)) (fun d => x5 (ix1 d))) (Spec.maskOf x1) k t c := by
  rw [val_main_v35_apply, mask_at]
  unfold val_main_v32 Spec.outOf
  by_cases h : c.val < 16
  · rw [concat_left_at _ _ k t c h, normR_at, dif_pos h]
    rfl
  · rw [concat_right_at _ _ k t c h, pooled_bc_at, dif_neg h]
    rfl

/-- The reference's last stage is the specification's two-pass route. -/
theorem val_eq :
    val_main_v35 (F := Ideal) x0 x1 x2 x3 x4 x5 = Spec.refOut x0 x1 x2 x3 x4 x5 := by
  funext i
  obtain ⟨k, t, c, rfl⟩ : ∃ (k : Fin 100000) (t : Fin 35) (c : Fin 32), i = ix3 k t c := ⟨i 0, i 1, i 2, eq_ix3 i⟩
  exact out_at x0 x1 x2 x3 x4 x5 k t c

end Stages

/-- The reference program's result is the specification's `refOut` of the six arguments. -/
theorem res_eq (m : (ℓ : Loc Cert.ReferenceIdeal.nD Cert.ReferenceIdeal.τ Cert.ReferenceIdeal.sig) → Buf (Elt Ideal) ℓ)
    (c : Dev Cert.ReferenceIdeal.nD) :
    Cert.ReferenceIdeal.Value.res_main_v35 (F := Ideal) m c
      = Cert.Spec.refOut (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  rw [val_main_v35_eq]
  exact val_eq _ _ _ _ _ _

end Cert.ReferenceIdeal.RefValue

end
-- ==== Proof.Algebra.lean ====
/-
  The algebra of the voxel feature layer's batch normalisation, over the extended reals.

  Both routes of the specification normalise a channel's activations x[k,t] (N = 100000·35 = 3 500 000 of them) with
  the channel's mean μ = Σx/N. They differ in the variance:
      one pass:    max(Σx²/N − μ², 0)          two passes:   Σ(x−μ)²/N.
  When every x is a real number these agree: expanding the square,
      Σ(x−μ)² = Σx² − 2μ·Σx + N·μ² = Σx² − N·μ²       (because Σx = N·μ),
  so Σ(x−μ)²/N = Σx²/N − μ², and the left side is a sum of squares over a positive count, hence ≥ 0, so the maximum
  with 0 changes nothing. The variance plus ε (a positive real) is then a positive real, its square root is a positive
  real, the scale s = γ/√(var+ε) is a real, and the two affine forms agree by distributivity over ℝ:
      x·s + (β − μ·s) = (x−μ)·s + β.
  Distributivity fails at ±∞, which is why every x, γ, β is assumed real; the linear layer with ReLU of real inputs is
  real, so the assumption is met from real arguments.
-/
import proofs.«128887_j13331578487174_2_alg».proof.Proof.Spec

noncomputable section

namespace Cert.Spec

open Idealize.ShloMosaic Idealize.ShloMosaic.ValueIdx

/-! ## The constants -/

/-- The count word is the integer 3 500 000 = 14 000 000 · 2⁻². -/
theorem cnt_eq : cnt = ((3500000 : ℝ) : EReal) := by
  unfold cnt
  simp [Ideal.ofBits, Ideal.ieee, -EReal.coe_mul]
  norm_num

/-- ε is a positive real: the word denotes 10 995 116 · 2⁻⁴⁰. -/
theorem eps_pos : ∃ e : ℝ, 0 < e ∧ eps = (e : EReal) := by
  refine ⟨(10995116 : ℝ) * (2 : ℝ) ^ (-40 : ℤ), by positivity, ?_⟩
  unfold eps
  simp [Ideal.ofBits, Ideal.ieee, -EReal.coe_mul]

/-! ## Real sums inside the extended reals -/

/-- The inclusion of ℝ commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The same for a double sum. -/
theorem coe_sum2 {ι κ : Type*} (s : Finset ι) (u : Finset κ) (f : ι → κ → ℝ) :
    ((∑ i ∈ s, ∑ j ∈ u, f i j : ℝ) : EReal) = ∑ i ∈ s, ∑ j ∈ u, (f i j : EReal) := by
  rw [coe_sum]
  exact Finset.sum_congr rfl (fun i _ => coe_sum u _)

/-! ## The variance identity, over an abstract finite index type in ℝ -/

/-- With μ = Σf/N and N the number of terms: Σ(f−μ)²/N = Σf²/N − μ². -/
theorem centred_sq_sum {ι : Type*} [Fintype ι] (f : ι → ℝ) (N : ℝ) (hN : (Fintype.card ι : ℝ) = N) (hN0 : N ≠ 0) :
    (∑ i, (f i - (∑ j, f j) * (1 / N)) * (f i - (∑ j, f j) * (1 / N))) * (1 / N)
      = (∑ i, f i * f i) * (1 / N) - ((∑ j, f j) * (1 / N)) * ((∑ j, f j) * (1 / N)) := by
  generalize hμ : (∑ j, f j) * (1 / N) = μ
  have hS : ∑ j, f j = N * μ := by rw [← hμ]; field_simp
  have hexp : ∑ i, (f i - μ) * (f i - μ) = ∑ i, f i * f i - 2 * μ * ∑ i, f i + N * (μ * μ) := by
    have h1 : ∀ i, (f i - μ) * (f i - μ) = f i * f i - 2 * μ * f i + μ * μ := fun i => by ring
    simp only [h1]
    rw [Finset.sum_add_distrib, Finset.sum_sub_distrib, ← Finset.mul_sum, Finset.sum_const, Finset.card_univ,
      nsmul_eq_mul, hN]
  rw [hexp, hS]
  field_simp
  ring

/-- The double sum over voxels and points is a sum over the 3 500 000 pairs. -/
theorem centred_sq_sum_pairs (f : Fin 100000 → Fin 35 → ℝ) :
    (∑ k, ∑ t, (f k t - (∑ k, ∑ t, f k t) * (1 / 3500000)) * (f k t - (∑ k, ∑ t, f k t) * (1 / 3500000))) * (1 / 3500000)
      = (∑ k, ∑ t, f k t * f k t) * (1 / 3500000)
        - ((∑ k, ∑ t, f k t) * (1 / 3500000)) * ((∑ k, ∑ t, f k t) * (1 / 3500000)) := by
  have hcard : (Fintype.card (Fin 100000 × Fin 35) : ℝ) = 3500000 := by
    rw [Fintype.card_prod, Fintype.card_fin, Fintype.card_fin]; norm_num
  have h := centred_sq_sum (fun p : Fin 100000 × Fin 35 => f p.1 p.2) 3500000 hcard (by norm_num)
  simp only [Fintype.sum_prod_type] at h
  exact h

/-! ## Every quantity of the two routes, for real activations -/

section
variable (xr : Fin 100000 → Fin 35 → Fin 16 → ℝ) (gr ber : Fin 16 → ℝ)

/-- The real mean of channel d. -/
def meanR (d : Fin 16) : ℝ := (∑ k, ∑ t, xr k t d) * (1 / 3500000)

/-- The real variance of channel d, in the two-pass form. -/
def varRR (d : Fin 16) : ℝ :=
  (∑ k, ∑ t, (xr k t d - meanR xr d) * (xr k t d - meanR xr d)) * (1 / 3500000)

theorem varRR_nonneg (d : Fin 16) : 0 ≤ varRR xr d := by
  unfold varRR
  refine mul_nonneg (Finset.sum_nonneg fun k _ => Finset.sum_nonneg fun t _ => mul_self_nonneg _) (by norm_num)

theorem varRR_eq (d : Fin 16) :
    varRR xr d = (∑ k, ∑ t, xr k t d * xr k t d) * (1 / 3500000) - meanR xr d * meanR xr d := by
  unfold varRR meanR
  exact centred_sq_sum_pairs (fun k t => xr k t d)

theorem sum1_coe (d : Fin 16) :
    sum1 (fun k t d => ((xr k t d : ℝ) : EReal)) d = ((∑ k, ∑ t, xr k t d : ℝ) : EReal) := by
  unfold sum1
  rw [coe_sum2]

theorem sum2_coe (d : Fin 16) :
    sum2 (fun k t d => ((xr k t d : ℝ) : EReal)) d = ((∑ k, ∑ t, xr k t d * xr k t d : ℝ) : EReal) := by
  unfold sum2
  rw [coe_sum2]
  exact Finset.sum_congr rfl fun k _ => Finset.sum_congr rfl fun t _ => (EReal.coe_mul _ _).symm

theorem mean_coe (d : Fin 16) :
    mean (fun k t d => ((xr k t d : ℝ) : EReal)) d = ((meanR xr d : ℝ) : EReal) := by
  unfold mean meanR
  rw [sum1_coe, cnt_eq, Ideal.div_coe (by norm_num), ← EReal.coe_mul]

/-- The one-pass variance is the real variance: the maximum with 0 is the identity. -/
theorem varK_coe (d : Fin 16) :
    varK (fun k t d => ((xr k t d : ℝ) : EReal)) d = ((varRR xr d : ℝ) : EReal) := by
  unfold varK
  rw [sum2_coe, mean_coe, cnt_eq, Ideal.div_coe (by norm_num), ← EReal.coe_mul, ← EReal.coe_mul, ← EReal.coe_sub,
    ← varRR_eq]
  exact max_eq_left (EReal.coe_nonneg.mpr (varRR_nonneg xr d))

/-- The two-pass variance is the real variance. -/
theorem varR_coe (d : Fin 16) :
    varR (fun k t d => ((xr k t d : ℝ) : EReal)) d = ((varRR xr d : ℝ) : EReal) := by
  unfold varR varRR
  rw [mean_coe, cnt_eq, Ideal.div_coe (by norm_num), EReal.coe_mul, coe_sum2]
  congr 1

/-- The real scale of channel d: γ / √(var + ε). -/
def scaleRR (e : ℝ) (d : Fin 16) : ℝ := gr d * (1 / Real.sqrt (varRR xr d + e))

/-- γ / √(v + ε) for a real variance v ≥ 0 and a real ε > 0 is the real γ · (1/√(v+ε)). -/
theorem scale_coe (e : ℝ) (he : 0 < e) (d : Fin 16) :
    Ideal.div ((gr d : ℝ) : EReal) (Ideal.sqrt (((varRR xr d : ℝ) : EReal) + ((e : ℝ) : EReal)))
      = ((scaleRR xr gr e d : ℝ) : EReal) := by
  have hpos : 0 < varRR xr d + e := add_pos_of_nonneg_of_pos (varRR_nonneg xr d) he
  unfold scaleRR
  rw [← EReal.coe_add, Ideal.sqrt_coe, if_neg (not_lt.mpr hpos.le),
    Ideal.div_coe (Real.sqrt_pos.mpr hpos).ne', ← EReal.coe_mul]

theorem normK_eq_normR_real :
    normK (fun k t d => ((xr k t d : ℝ) : EReal)) (fun d => ((gr d : ℝ) : EReal)) (fun d => ((ber d : ℝ) : EReal))
      = normR (fun k t d => ((xr k t d : ℝ) : EReal)) (fun d => ((gr d : ℝ) : EReal)) (fun d => ((ber d : ℝ) : EReal)) := by
  obtain ⟨e, he, hE⟩ := eps_pos
  funext k t d
  unfold normK shiftK scaleK normR scaleR
  rw [varK_coe, varR_coe, mean_coe, hE, scale_coe xr gr e he d]
  rw [← EReal.coe_mul, ← EReal.coe_mul, ← EReal.coe_sub, ← EReal.coe_add, ← EReal.coe_sub, ← EReal.coe_mul,
    ← EReal.coe_add]
  exact congrArg _ (by ring)

end

/-! ## The statements over the extended reals -/

/-- The two normalisations agree on real activations, scales and shifts. -/
theorem normK_eq_normR (x : Fin 100000 → Fin 35 → Fin 16 → EReal) (g be : Fin 16 → EReal)
    (hx : ∀ k t d, ∃ r : ℝ, x k t d = (r : EReal)) (hg : ∀ d, ∃ r : ℝ, g d = (r : EReal))
    (hbe : ∀ d, ∃ r : ℝ, be d = (r : EReal)) :
    normK x g be = normR x g be := by
  choose xr hxr using hx
  choose gr hgr using hg
  choose ber hber using hbe
  obtain rfl : x = fun k t d => ((xr k t d : ℝ) : EReal) := by funext k t d; exact hxr k t d
  obtain rfl : g = fun d => ((gr d : ℝ) : EReal) := funext hgr
  obtain rfl : be = fun d => ((ber d : ℝ) : EReal) := funext hber
  exact normK_eq_normR_real xr gr ber

/-- The activated linear layer of real inputs, weights and biases is real. -/
theorem lin_real (inp : SIn.Idx → EReal) (W : SW.Idx → EReal) (b : SC.Idx → EReal)
    (hinp : ∀ i, ∃ r : ℝ, inp i = (r : EReal)) (hW : ∀ i, ∃ r : ℝ, W i = (r : EReal))
    (hb : ∀ i, ∃ r : ℝ, b i = (r : EReal)) :
    ∀ k t d, ∃ r : ℝ, lin inp W b k t d = (r : EReal) := by
  choose ir hir using hinp
  choose wr hwr using hW
  choose br hbr using hb
  intro k t d
  refine ⟨max ((∑ c : Fin 7, ir (ix3 k t c) * wr (ix2 d c)) + br (ix1 d)) 0, ?_⟩
  unfold lin
  rw [EReal.coe_strictMono.monotone.map_max, EReal.coe_add, coe_sum, EReal.coe_zero, hbr]
  refine congrArg (fun z => max (z + _) 0) ?_
  refine Finset.sum_congr rfl fun c _ => ?_
  rw [EReal.coe_mul, hir, hwr]

/-- The kernel's route and the reference's route give the same output array from real arguments. -/
theorem kernelOut_eq_refOut (inp : SIn.Idx → EReal) (msk : SMask.Idx → BitVec 32) (W : SW.Idx → EReal)
    (b g be : SC.Idx → EReal)
    (hinp : ∀ i, ∃ r : ℝ, inp i = (r : EReal)) (hW : ∀ i, ∃ r : ℝ, W i = (r : EReal))
    (hb : ∀ i, ∃ r : ℝ, b i = (r : EReal))
    (hg : ∀ i, ∃ r : ℝ, g i = (r : EReal)) (hbe : ∀ i, ∃ r : ℝ, be i = (r : EReal)) :
    kernelOut inp msk W b g be = refOut inp msk W b g be := by
  funext i
  unfold kernelOut refOut
  rw [normK_eq_normR (lin inp W b) (fun d => g (ix1 d)) (fun d => be (ix1 d)) (lin_real inp W b hinp hW hb)
    (fun d => hg (ix1 d)) (fun d => hbe (ix1 d))]

end Cert.Spec

end
-- ==== Proof.LibFiniteEntry.lean ====
/-
  General facts about the printed test "every entry of a float array has absolute value below +∞", read at the ideal
  values, where a float is an extended real.

  * The f32 pattern 0x7F800000 denotes +∞.
  * An extended real whose absolute value max(x, -x) is below +∞ is neither infinity, hence a real number.
  * A strict comparison of extended reals that came out true is the strict inequality.
  * So one entry of the printed test `|a| < +∞` (the array's absolute value compared, entry by entry, with the
    broadcast +∞ pattern) that came out true says that entry of `a` is a real number — at any shape.
-/
import Idealize.ShloMosaic.PureOps.Ideal.Laws
import Idealize.ShloMosaic.Lib.ValueIdx

noncomputable section

namespace Cert.LibFiniteEntry

open Idealize.ShloMosaic

/-- The f32 pattern of +∞ denotes +∞. -/
theorem ofBits_inf_f32 : Ideal.ofBits .f32 0x7F800000#32 = ⊤ := by
  simp [Ideal.ofBits, Ideal.ieee]

/-- An extended real whose absolute value is below +∞ is a real. -/
theorem real_of_abs_lt_top (x : EReal) (h : max x (-x) < ⊤) : ∃ r : ℝ, x = (r : EReal) := by
  have hb : x ≠ ⊥ := by
    rintro rfl
    rw [EReal.neg_bot, max_eq_right bot_le] at h
    exact lt_irrefl _ h
  have ht : x ≠ ⊤ := by
    rintro rfl
    rw [EReal.neg_top, max_eq_left bot_le] at h
    exact lt_irrefl _ h
  exact ⟨x.toReal, (EReal.coe_toReal ht hb).symm⟩

/-- A strict comparison of extended reals that came out true. -/
theorem lt_of_cmp_olt {x y : EReal} (h : Ideal.cmp .olt x y = 1#1) : x < y := by
  by_contra hn
  have h0 : Ideal.cmp .olt x y = 0#1 := by simp [Ideal.cmp, hn]
  rw [h0] at h
  exact absurd h (by decide)

/-- One entry of the printed test `|a| < +∞` that came out true: that entry of `a` is a real. -/
theorem real_of_finite_test {s : Shape} (a : FVec Ideal s .f32) (hb : (⟨0, ![]⟩ : Shape).BroadcastsInDim s ![]) (j : s.Idx)
    (h : cmpf .olt (Host.absf a) (broadcastInDim s ![] hb (constant (F := Ideal) ⟨0, ![]⟩ .f32 0x7F800000#32)) j = 1#1) :
    ∃ r : ℝ, a j = (r : EReal) := by
  have hlt : max (a j) (-(a j)) < Ideal.ofBits .f32 0x7F800000#32 := lt_of_cmp_olt h
  rw [ofBits_inf_f32] at hlt
  exact real_of_abs_lt_top _ hlt

end Cert.LibFiniteEntry

end
-- ==== Proof.Finite.lean ====
/-
  The precondition, decoded. The printed test is the conjunction, over the five float arguments, of "every entry has
  absolute value below +∞" (an all-reduction by `and` of entrywise comparisons). If it came out true, every entry of
  every float argument is a real number.
-/
import proofs.«128887_j13331578487174_2_alg».proof.Pre_finite_inputs
import proofs.«128887_j13331578487174_2_alg».proof.Proof.LibFiniteEntry
import Idealize.ShloMosaic.Lib.ReduceAll
import Idealize.ShloMosaic.Lib.ValueIdx

noncomputable section

namespace Cert.Finite

open Idealize.ShloMosaic Cert.Pre_finite_inputs

instance : Subsingleton S_.Idx := ⟨fun a b => funext fun d => d.elim0⟩

variable [Facts]
open Facts

theorem of_pre (a0 : FVec Ideal S100000x35x7 .f32) (a1 : IVec S100000x35x1 32) (a2 : FVec Ideal S16x7 .f32)
    (a3 a4 a5 : FVec Ideal S16 .f32) (h : fn (F := Ideal) a0 a1 a2 a3 a4 a5 = fun _ => 1#1) :
    (∀ i, ∃ r : ℝ, a0 i = (r : EReal)) ∧ (∀ i, ∃ r : ℝ, a2 i = (r : EReal)) ∧ (∀ i, ∃ r : ℝ, a3 i = (r : EReal))
      ∧ (∀ i, ∃ r : ℝ, a4 i = (r : EReal)) ∧ (∀ i, ∃ r : ℝ, a5 i = (r : EReal)) := by
  have h0 := congrFun h ValueIdx.ix0
  dsimp only [fn, fn_part1] at h0
  obtain ⟨h1, e5⟩ := IntOp.andi_eq_one.1 h0
  obtain ⟨h2, e4⟩ := IntOp.andi_eq_one.1 h1
  obtain ⟨h3, e3⟩ := IntOp.andi_eq_one.1 h2
  obtain ⟨e0, e2⟩ := IntOp.andi_eq_one.1 h3
  exact ⟨fun i => Cert.LibFiniteEntry.real_of_finite_test a0 _ i (Host.reduce_andi_all _ _ _ _ _ e0 i),
    fun i => Cert.LibFiniteEntry.real_of_finite_test a2 _ i (Host.reduce_andi_all _ _ _ _ _ e2 i),
    fun i => Cert.LibFiniteEntry.real_of_finite_test a3 _ i (Host.reduce_andi_all _ _ _ _ _ e3 i),
    fun i => Cert.LibFiniteEntry.real_of_finite_test a4 _ i (Host.reduce_andi_all _ _ _ _ _ e4 i),
    fun i => Cert.LibFiniteEntry.real_of_finite_test a5 _ i (Host.reduce_andi_all _ _ _ _ _ e5 i)⟩

end Cert.Finite

end
-- ==== Proof.lean ====
/-
  Kernel against reference for the voxel feature layer: Linear(7→16) + ReLU, batch normalisation over all 3 500 000
  (voxel, point) pairs per channel, max-pool over a voxel's 35 points, concatenation to 32 channels, times a mask.

  The kernel makes two passes. The first accumulates, over 200 blocks of 500 voxels, each channel's sum and sum of
  squares of the activated linear layer in a scratch table, and writes the table out at the last block. The host turns
  the table into a scale and a shift per channel (variance as mean of squares minus squared mean, clipped at zero). The
  second pass recomputes the linear layer block by block, applies scale and shift, pools, concatenates and masks. The
  reference centres the activations first and averages their squares.

  Over the extended reals the two agree when every float argument is a real number, which the precondition says:
  then Σ(x−μ)²/N = Σx²/N − μ² ≥ 0, the scale γ/√(var+ε) is a real number, and x·s + (β − μ·s) = (x−μ)·s + β.
  Without it they need not: distributivity fails at the infinities.

  Frames: each program terminates without fault and leaves its arguments as launched. For the kernel (at both
  instances) this is the library's launch theorem for a sequence of host stretches and kernel regions, over a segment
  record per pallas_call; the first call's body is run once per kind of grid point (first / middle / last) and its
  invariant carries what the scratch holds. For the reference it is its operation-by-operation run.
  The ideal pass rewrote nothing, so there is nothing to preserve.
-/
import proofs.«128887_j13331578487174_2_alg».proof.Defs
import proofs.«128887_j13331578487174_2_alg».proof.Proof.Gen.Kernel
import proofs.«128887_j13331578487174_2_alg».proof.Proof.Gen.KernelIdeal
import proofs.«128887_j13331578487174_2_alg».proof.Proof.Gen.ReferenceIdeal
import proofs.«128887_j13331578487174_2_alg».proof.Proof.Gen.Pre_finite_inputs
import proofs.«128887_j13331578487174_2_alg».proof.Proof.K.Frame
import proofs.«128887_j13331578487174_2_alg».proof.Proof.KI.Frame
import proofs.«128887_j13331578487174_2_alg».proof.Proof.KI.Assemble
import proofs.«128887_j13331578487174_2_alg».proof.Proof.RefValue
import proofs.«128887_j13331578487174_2_alg».proof.Proof.Algebra
import proofs.«128887_j13331578487174_2_alg».proof.Proof.Finite
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs end with the same result: the kernel's is the one-pass route of the arguments, the
    reference's the two-pass route, and the routes agree on real arguments. -/
theorem algebraic : Cert.algebraic_KernelIdeal_ReferenceIdeal := by
  intro m ρ m' ρ' hpre hagree
  refine ⟨fun c => Cert.Spec.kernelOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · refine (θ_run Cert.KernelIdeal.defs _ _).mono (fun r h c => ?_) (Cert.KernelIdeal.Hand.run_all (F := Ideal) m ρ)
    exact ⟨(Cert.KernelIdeal.Hand.result_eq m ρ r h c).trans (Cert.KernelIdeal.Assemble.kernel_value m ρ c),
      (h c _ (Cert.KernelIdeal.Hand.mem_uc Cert.KernelIdeal.main_arg0 (by decide))).trans (Cert.KernelIdeal.Hand.W4_main_arg0 m ρ c),
      (h c _ (Cert.KernelIdeal.Hand.mem_uc Cert.KernelIdeal.main_arg1 (by decide))).trans (Cert.KernelIdeal.Hand.W4_main_arg1 m ρ c),
      (h c _ (Cert.KernelIdeal.Hand.mem_uc Cert.KernelIdeal.main_arg2 (by decide))).trans (Cert.KernelIdeal.Hand.W4_main_arg2 m ρ c),
      (h c _ (Cert.KernelIdeal.Hand.mem_uc Cert.KernelIdeal.main_arg3 (by decide))).trans (Cert.KernelIdeal.Hand.W4_main_arg3 m ρ c),
      (h c _ (Cert.KernelIdeal.Hand.mem_uc Cert.KernelIdeal.main_arg4 (by decide))).trans (Cert.KernelIdeal.Hand.W4_main_arg4 m ρ c),
      (h c _ (Cert.KernelIdeal.Hand.mem_uc Cert.KernelIdeal.main_arg5 (by decide))).trans (Cert.KernelIdeal.Hand.W4_main_arg5 m ρ c)⟩
  · refine (θ_run Cert.ReferenceIdeal.defs _ _).mono (fun r h c => ⟨(h c).1.trans ?_, (h c).2⟩)
      (Cert.ReferenceIdeal.Value.run (F := Ideal) m' ρ')
    obtain ⟨h0, h2, h3, h4, h5⟩ := Cert.Finite.of_pre _ _ _ _ _ _ (hpre c)
    rw [Cert.ReferenceIdeal.RefValue.res_eq, (hagree c).1, (hagree c).2.1, (hagree c).2.2.1, (hagree c).2.2.2.1,
      (hagree c).2.2.2.2.1, (hagree c).2.2.2.2.2]
    exact (Cert.Spec.kernelOut_eq_refOut _ _ _ _ _ _ h0 h2 h3 h4 h5).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
